-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S3x512 : Shape := ⟨2, ![3, 512]⟩
abbrev S512 : Shape := ⟨1, ![512]⟩
abbrev S3x512x512 : Shape := ⟨3, ![3, 512, 512]⟩
abbrev S512x512 : Shape := ⟨2, ![512, 512]⟩
abbrev S512x3 : Shape := ⟨2, ![512, 3]⟩
abbrev S3 : Shape := ⟨1, ![3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_

variable [Facts]

def fn_part5 {F : FTy → Type} [FloatOps F] (main_arg18 : FVec F S512x3 .f32) (main_arg19 : FVec F S3 .f32) (main_v83 : IVec S_ 1) (main_v84 : FVec F S3x512 .f32) (main_cst_32 : FVec F S_ .f32) : IVec S_ 1 :=
  let main_v85 : FVec F S3x512 .f32 := broadcastInDim S3x512 ![] bcast_S_S3x512 main_cst_32
  let main_v86 : IVec S3x512 1 := cmpf .olt main_v84 main_v85
  let main_c_33 : IVec S_ 1 := constantI S_ 1 1#1
  let main_v87 : IVec S_ 1 := (fun x v => Host.reduce IntOp.andi x v reducesTo_S3x512_S_d0_1 h_S_) main_v86 main_c_33
  let main_v88 : IVec S_ 1 := andi main_v83 main_v87
  let main_v89 : FVec F S512x3 .f32 := Host.absf main_arg18
  let main_cst_34 : FVec F S_ .f32 := constant S_ .f32 0x7F800000#32
  let main_v90 : FVec F S512x3 .f32 := broadcastInDim S512x3 ![] bcast_S_S512x3 main_cst_34
  let main_v91 : IVec S512x3 1 := cmpf .olt main_v89 main_v90
  let main_c_35 : IVec S_ 1 := constantI S_ 1 1#1
  let main_v92 : IVec S_ 1 := (fun x v => Host.reduce IntOp.andi x v reducesTo_S512x3_S_d0_1 h_S_) main_v91 main_c_35
  let main_v93 : IVec S_ 1 := andi main_v88 main_v92
  let main_v94 : FVec F S3 .f32 := Host.absf main_arg19
  let main_cst_36 : FVec F S_ .f32 := constant S_ .f32 0x7F800000#32
  let main_v95 : FVec F S3 .f32 := broadcastInDim S3 ![] bcast_S_S3 main_cst_36
  let main_v96 : IVec S3 1 := cmpf .olt main_v94 main_v95
  let main_c_37 : IVec S_ 1 := constantI S_ 1 1#1
  let main_v97 : IVec S_ 1 := (fun x v => Host.reduce IntOp.andi x v reducesTo_S3_S_d0 h_S_) main_v96 main_c_37
  let main_v98 : IVec S_ 1 := andi main_v93 main_v97
  main_v98

def fn_part4 {F : FTy → Type} [FloatOps F] (main_arg14 : FVec F S3x512 .f32) (main_arg15 : FVec F S512 .f32) (main_arg16 : FVec F S3x512x512 .f32) (main_arg17 : FVec F S3x512 .f32) (main_arg18 : FVec F S512x3 .f32) (main_arg19 : FVec F S3 .f32) (main_v63 : IVec S_ 1) (main_v67 : IVec S_ 1) : IVec S_ 1 :=
  let main_v68 : IVec S_ 1 := andi main_v63 main_v67
  let main_v69 : FVec F S3x512 .f32 := Host.absf main_arg14
  let main_cst_26 : FVec F S_ .f32 := constant S_ .f32 0x7F800000#32
  let main_v70 : FVec F S3x512 .f32 := broadcastInDim S3x512 ![] bcast_S_S3x512 main_cst_26
  let main_v71 : IVec S3x512 1 := cmpf .olt main_v69 main_v70
  let main_c_27 : IVec S_ 1 := constantI S_ 1 1#1
  let main_v72 : IVec S_ 1 := (fun x v => Host.reduce IntOp.andi x v reducesTo_S3x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S3x512x512 .f32 := Host.absf main_arg16
  let main_cst_30 : FVec F S_ .f32 := constant S_ .f32 0x7F800000#32
  let main_v80 : FVec F S3x512x512 .f32 := broadcastInDim S3x512x512 ![] bcast_S_S3x512x512 main_cst_30
  let main_v81 : IVec S3x512x512 1 := cmpf .olt main_v79 main_v80
  let main_c_31 : IVec S_ 1 := constantI S_ 1 1#1
  let main_v82 : IVec S_ 1 := (fun x v => Host.reduce IntOp.andi x v reducesTo_S3x512x512_S_d0_1_2 h_S_) main_v81 main_c_31
  let main_v83 : IVec S_ 1 := andi main_v78 main_v82
  let main_v84 : FVec F S3x512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S3x512 .f32) (main_arg12 : FVec F S512x512 .f32) (main_arg13 : FVec F S512 .f32) (main_arg14 : FVec F S3x512 .f32) (main_arg15 : FVec F S512 .f32) (main_arg16 : FVec F S3x512x512 .f32) (main_arg17 : FVec F S3x512 .f32) (main_arg18 : FVec F S512x3 .f32) (main_arg19 : FVec F S3 .f32) (main_v48 : IVec S_ 1) (main_v49 : FVec F S3x512x512 .f32) (main_v50 : FVec F S3x512x512 .f32) : IVec S_ 1 :=
  let main_v51 : IVec S3x512x512 1 := cmpf .olt main_v49 main_v50
  let main_c_19 : IVec S_ 1 := constantI S_ 1 1#1
  let main_v52 : IVec S_ 1 := (fun x v => Host.reduce IntOp.andi x v reducesTo_S3x512x512_S_d0_1_2 h_S_) main_v51 main_c_19
  let main_v53 : IVec S_ 1 := andi main_v48 main_v52
  let main_v54 : FVec F S3x512 .f32 := Host.absf main_arg11
  let main_cst_20 : FVec F S_ .f32 := constant S_ .f32 0x7F800000#32
  let main_v55 : FVec F S3x512 .f32 := broadcastInDim S3x512 ![] bcast_S_S3x512 main_cst_20
  let main_v56 : IVec S3x512 1 := cmpf .olt main_v54 main_v55
  let main_c_21 : IVec S_ 1 := constantI S_ 1 1#1
  let main_v57 : IVec S_ 1 := (fun x v => Host.reduce IntOp.andi x v reducesTo_S3x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_v63 main_v67

def fn_part2 {F : FTy → Type} [FloatOps F] (main_arg7 : FVec F S512 .f32) (main_arg8 : FVec F S3x512 .f32) (main_arg9 : FVec F S512 .f32) (main_arg10 : FVec F S3x512x512 .f32) (main_arg11 : FVec F S3x512 .f32) (main_arg12 : FVec F S512x512 .f32) (main_arg13 : FVec F S512 .f32) (main_arg14 : FVec F S3x512 .f32) (main_arg15 : FVec F S512 .f32) (main_arg16 : FVec F S3x512x512 .f32) (main_arg17 : FVec F S3x512 .f32) (main_arg18 : FVec F S512x3 .f32) (main_arg19 : FVec F S3 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S3x512x512 .f32 := Host.absf main_arg10
  let main_cst_18 : FVec F S_ .f32 := constant S_ .f32 0x7F800000#32
  let main_v50 : FVec F S3x512x512 .f32 := broadcastInDim S3x512x512 ![] bcast_S_S3x512x512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S3x512x512 .f32) (main_arg5 : FVec F S3x512 .f32) (main_arg6 : FVec F S512x512 .f32) (main_arg7 : FVec F S512 .f32) (main_arg8 : FVec F S3x512 .f32) (main_arg9 : FVec F S512 .f32) (main_arg10 : FVec F S3x512x512 .f32) (main_arg11 : FVec F S3x512 .f32) (main_arg12 : FVec F S512x512 .f32) (main_arg13 : FVec F S512 .f32) (main_arg14 : FVec F S3x512 .f32) (main_arg15 : FVec F S512 .f32) (main_arg16 : FVec F S3x512x512 .f32) (main_arg17 : FVec F S3x512 .f32) (main_arg18 : FVec F S512x3 .f32) (main_arg19 : FVec F S3 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8192x3 .f32) (main_arg1 : FVec F S8192x3 .f32) (main_arg2 : FVec F S3x512 .f32) (main_arg3 : FVec F S512 .f32) (main_arg4 : FVec F S3x512x512 .f32) (main_arg5 : FVec F S3x512 .f32) (main_arg6 : FVec F S512x512 .f32) (main_arg7 : FVec F S512 .f32) (main_arg8 : FVec F S3x512 .f32) (main_arg9 : FVec F S512 .f32) (main_arg10 : FVec F S3x512x512 .f32) (main_arg11 : FVec F S3x512 .f32) (main_arg12 : FVec F S512x512 .f32) (main_arg13 : FVec F S512 .f32) (main_arg14 : FVec F S3x512 .f32) (main_arg15 : FVec F S512 .f32) (main_arg16 : FVec F S3x512x512 .f32) (main_arg17 : FVec F S3x512 .f32) (main_arg18 : FVec F S512x3 .f32) (main_arg19 : FVec F S3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S3x512 .f32 := Host.absf main_arg2
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8192x3 : Shape := ⟨2, ![8192, 3]⟩
abbrev S3x512 : Shape := ⟨2, ![3, 512]⟩
abbrev S512 : Shape := ⟨1, ![512]⟩
abbrev S3x512x512 : Shape := ⟨3, ![3, 512, 512]⟩
abbrev S512x512 : Shape := ⟨2, ![512, 512]⟩
abbrev S512x3 : Shape := ⟨2, ![512, 3]⟩
abbrev S3 : Shape := ⟨1, ![3]⟩
abbrev S8192x512 : Shape := ⟨2, ![8192, 512]⟩
abbrev S1024x3 : Shape := ⟨2, ![1024, 3]⟩
abbrev S1024x512 : Shape := ⟨2, ![1024, 512]⟩
abbrev S1x512 : Shape := ⟨2, ![1, 512]⟩
abbrev S1x512x512 : Shape := ⟨3, ![1, 512, 512]⟩
abbrev S1x3 : Shape := ⟨2, ![1, 3]⟩
abbrev S1024x1024 : Shape := ⟨2, ![1024, 1024]⟩

abbrev nBuf : Space → Nat
  | .hbm => 24
  | .vmem => 39
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S3x512, .f32⟩
  | .hbm, ⟨3, _⟩ => ⟨S512, .f32⟩
  | .hbm, ⟨4, _⟩ => ⟨S3x512x512, .f32⟩
  | .hbm, ⟨5, _⟩ => ⟨S3x512, .f32⟩
  | .hbm, ⟨6, _⟩ => ⟨S512x512, .f32⟩
  | .hbm, ⟨7, _⟩ => ⟨S512, .f32⟩
  | .hbm, ⟨8, _⟩ => ⟨S3x512, .f32⟩
  | .hbm, ⟨9, _⟩ => ⟨S512, .f32⟩
  | .hbm, ⟨10, _⟩ => ⟨S3x512x512, .f32⟩
  | .hbm, ⟨11, _⟩ => ⟨S3x512, .f32⟩
  | .hbm, ⟨12, _⟩ => ⟨S512x512, .f32⟩
  | .hbm, ⟨13, _⟩ => ⟨S512, .f32⟩
  | .hbm, ⟨14, _⟩ => ⟨S3x512, .f32⟩
  | .hbm, ⟨15, _⟩ => ⟨S512, .f32⟩
  | .hbm, ⟨16, _⟩ => ⟨S3x512x512, .f32⟩
  | .hbm, ⟨17, _⟩ => ⟨S3x512, .f32⟩
  | .hbm, ⟨18, _⟩ => ⟨S512x3, .f32⟩
  | .hbm, ⟨19, _⟩ => ⟨S3, .f32⟩
  | .hbm, ⟨20, _⟩ => ⟨S8192x512, .f32⟩
  | .hbm, ⟨21, _⟩ => ⟨S8192x512, .f32⟩
  | .hbm, ⟨22, _⟩ => ⟨S8192x3, .f32⟩
  | .hbm, ⟨23, _⟩ => ⟨S8192x3, .f32⟩
  | .local _ .vmem, ⟨0, _⟩ => ⟨S1024x3, .f32⟩
  | .local _ .vmem, ⟨1, _⟩ => ⟨S1024x3, .f32⟩
  | .local _ .vmem, ⟨2, _⟩ => ⟨S3x512, .f32⟩
  | .local _ .vmem, ⟨3, _⟩ => ⟨S512, .f32⟩
  | .local _ .vmem, ⟨4, _⟩ => ⟨S3x512x512, .f32⟩
  | .local _ .vmem, ⟨5, _⟩ => ⟨S3x512, .f32⟩
  | .local _ .vmem, ⟨6, _⟩ => ⟨S512x512, .f32⟩
  | .local _ .vmem, ⟨7, _⟩ => ⟨S512, .f32⟩
  | .local _ .vmem, ⟨8, _⟩ => ⟨S1024x512, .f32⟩
  | .local _ .vmem, ⟨9, _⟩ => ⟨S1024x512, .f32⟩
  | .local _ .vmem, ⟨10, _⟩ => ⟨S1024x3, .f32⟩
  | .local _ .vmem, ⟨11, _⟩ => ⟨S1024x3, .f32⟩
  | .local _ .vmem, ⟨12, _⟩ => ⟨S3x512, .f32⟩
  | .local _ .vmem, ⟨13, _⟩ => ⟨S512, .f32⟩
  | .local _ .vmem, ⟨14, _⟩ => ⟨S3x512x512, .f32⟩
  | .local _ .vmem, ⟨15, _⟩ => ⟨S3x512, .f32⟩
  | .local _ .vmem, ⟨16, _⟩ => ⟨S512x512, .f32⟩
  | .local _ .vmem, ⟨17, _⟩ => ⟨S512, .f32⟩
  | .local _ .vmem, ⟨18, _⟩ => ⟨S1024x512, .f32⟩
  | .local _ .vmem, ⟨19, _⟩ => ⟨S1024x512, .f32⟩
  | .local _ .vmem, ⟨20, _⟩ => ⟨S1024x3, .f32⟩
  | .local _ .vmem, ⟨21, _⟩ => ⟨S1024x3, .f32⟩
  | .local _ .vmem, ⟨22, _⟩ => ⟨S3x512, .f32⟩
  | .local _ .vmem, ⟨23, _⟩ => ⟨S512, .f32⟩
  | .local _ .vmem, ⟨24, _⟩ => ⟨S3x512x512, .f32⟩
  | .local _ .vmem, ⟨25, _⟩ => ⟨S3x512, .f32⟩
  | .local _ .vmem, ⟨26, _⟩ => ⟨S512x3, .f32⟩
  | .local _ .vmem, ⟨27, _⟩ => ⟨S3, .f32⟩
  | .local _ .vmem, ⟨28, _⟩ => ⟨S1024x3, .f32⟩
  | .local _ .vmem, ⟨29, _⟩ => ⟨S1024x3, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x3, .f32⟩
  | .local _ .vmem, ⟨35, _⟩ => ⟨S1024x3, .f32⟩
  | .local _ .vmem, ⟨36, _⟩ => ⟨S1024x3, .f32⟩
  | .local _ .vmem, ⟨37, _⟩ => ⟨S1024x3, .f32⟩
  | .local _ .vmem, ⟨38, _⟩ => ⟨S1024x3, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  inb_S1024x3_S1024x3_0_0 : ∀ a, (![0, 0] : Fin 2 → Nat) a + S1024x3.size a ≤ S1024x3.size a
  h_S1024x3 : 0 < S1024x3.numel
  bitsLt_bf16_f32 : FTy.bits .bf16 < FTy.bits .f32
  inb_S3x512_S3x512_0_0 : ∀ a, (![0, 0] : Fin 2 → Nat) a + S3x512.size a ≤ S3x512.size a
  h_S3x512 : 0 < S3x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x512_S1x512_0_0 : ∀ a, (![0, 0] : Fin 2 → Nat) a + S1x512.size a ≤ S3x512.size a
  h_S1x512 : 0 < S1x512.numel
  shapeCasts_S1x512_S512 : S1x512.ShapeCasts S512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  inb_S512x3_S512x3_0_0 : ∀ a, (![0, 0] : Fin 2 → Nat) a + S512x3.size a ≤ S512x3.size a
  h_S512x3 : 0 < S512x3.numel
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  shapeCasts_S1024x3_S1024x3 : S1024x3.ShapeCasts S1024x3
  shapeCasts_S1024x512_S1024x512 : S1024x512.ShapeCasts S1024x512
  dot_S1024x3_S3x512_S1024x512_1_0_0_1_n_n_wf : DotDims.WF S1024x3 S3x512 S1024x512 [1] [0] [0] [1] [] []
  dot_S1024x512_S512x512_S1024x512_1_0_0_1_n_n_wf : DotDims.WF S1024x512 S512x512 S1024x512 [1] [0] [0] [1] [] []
  dot_S1024x512_S512x3_S1024x3_1_0_0_1_n_n_wf : DotDims.WF S1024x512 S512x3 S1024x3 [1] [0] [0] [1] [] []
  dot_S1024x512_S1024x512_S1024x1024_1_1_0_0_n_n_wf : DotDims.WF S1024x512 S1024x512 S1024x1024 [1] [1] [0] [0] [] []
  dot_S1024x1024_S1024x3_S1024x3_1_0_0_1_n_n_wf : DotDims.WF S1024x1024 S1024x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512.size a ≤ S3x512.size a
  hwx0_1 : ∀ i : grid0.Coords, EltTy.bits .f32 = 32 ∨ (Rect.block (s := S3x512) S3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512x512.size a ≤ S3x512x512.size a
  hwx0_3 : ∀ i : grid0.Coords, EltTy.bits .f32 = 32 ∨ (Rect.block (s := S3x512x512) S3x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x512.size a
  hwx0_7 : ∀ i : grid0.Coords, EltTy.bits .f32 = 32 ∨ (Rect.block (s := S8192x512) S1024x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S8192x3.size a
  hwx1_0 : ∀ i : grid1.Coords, EltTy.bits .f32 = 32 ∨ (Rect.block (s := S8192x3) S1024x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x512.size a ≤ S3x512.size a
  hwx1_1 : ∀ i : grid1.Coords, EltTy.bits .f32 = 32 ∨ (Rect.block (s := S3x512) S3x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x512x512.size a ≤ S3x512x512.size a
  hwx1_3 : ∀ i : grid1.Coords, EltTy.bits .f32 = 32 ∨ (Rect.block (s := S3x512x512) S3x512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x512.size a ≤ S3x512.size a
  hwx1_4 : ∀ i : grid1.Coords, EltTy.bits .f32 = 32 ∨ (Rect.block (s := S3x512) S3x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S8192x512.size a
  hwx1_7 : ∀ i : grid1.Coords, EltTy.bits .f32 = 32 ∨ (Rect.block (s := S8192x512) S1024x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x3.size a ≤ S8192x3.size a
  hwx2_0 : ∀ i : grid2.Coords, EltTy.bits .f32 = 32 ∨ (Rect.block (s := S8192x3) S1024x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x512.size a ≤ S3x512.size a
  hwx2_1 : ∀ i : grid2.Coords, EltTy.bits .f32 = 32 ∨ (Rect.block (s := S3x512) S3x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x512x512.size a ≤ S3x512x512.size a
  hwx2_3 : ∀ i : grid2.Coords, EltTy.bits .f32 = 32 ∨ (Rect.block (s := S3x512x512) S3x512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x512.size a ≤ S3x512.size a
  hwx2_4 : ∀ i : grid2.Coords, EltTy.bits .f32 = 32 ∨ (Rect.block (s := S3x512) S3x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x3.size a ≤ S512x3.size a
  hwx2_5 : ∀ i : grid2.Coords, EltTy.bits .f32 = 32 ∨ (Rect.block (s := S512x3) S512x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3.size a ≤ S3.size a
  hwx2_6 : ∀ i : grid2.Coords, EltTy.bits .f32 = 32 ∨ (Rect.block (s := S3) S3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x3.size a ≤ S8192x3.size a
  hwx2_7 : ∀ i : grid2.Coords, EltTy.bits .f32 = 32 ∨ (Rect.block (s := S8192x3) S1024x3.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x512.size a
  hwx3_0 : ∀ i : grid3.Coords, EltTy.bits .f32 = 32 ∨ (Rect.block (s := S8192x512) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .f32 = 32 ∨ (Rect.block (s := S8192x512) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x3.size a ≤ S8192x3.size a
  hwx3_2 : ∀ i : grid3.Coords, EltTy.bits .f32 = 32 ∨ (Rect.block (s := S8192x3) S1024x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x3.size a ≤ S8192x3.size a
  hwx3_3 : ∀ i : grid3.Coords, EltTy.bits .f32 = 32 ∨ (Rect.block (s := S8192x3) S1024x3.size (cc3_transform_3 i) (hinb3_3 i)).WholeWords (EltTy.packing .f32)

variable [Facts₀]

def dot_S1024x3_S3x512_S1024x512_1_0_0_1_n_n : DotDims S1024x3 S3x512 S1024x512 where
  lhsContracting := [1]
  rhsContracting := [0]
  lhsNonContracting := [0]
  rhsNonContracting := [1]
  lhsBatch := []
  rhsBatch := []
  wf := dot_S1024x3_S3x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x3_S1024x3_1_0_0_1_n_n : DotDims S1024x512 S512x3 S1024x3 where
  lhsContracting := [1]
  rhsContracting := [0]
  lhsNonContracting := [0]
  rhsNonContracting := [1]
  lhsBatch := []
  rhsBatch := []
  wf := dot_S1024x512_S512x3_S1024x3_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S3x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S3x512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S3x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1024x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg1) S1024x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S3x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S3x512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S3x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S512x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1024x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v0) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1024x3.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x3 : Shape := ⟨2, ![8192, 3]⟩
abbrev S3x512 : Shape := ⟨2, ![3, 512]⟩
abbrev S512 : Shape := ⟨1, ![512]⟩
abbrev S3x512x512 : Shape := ⟨3, ![3, 512, 512]⟩
abbrev S512x512 : Shape := ⟨2, ![512, 512]⟩
abbrev S512x3 : Shape := ⟨2, ![512, 3]⟩
abbrev S3 : Shape := ⟨1, ![3]⟩
abbrev S8192x512 : Shape := ⟨2, ![8192, 512]⟩
abbrev S1x512 : Shape := ⟨2, ![1, 512]⟩
abbrev S1x512x512 : Shape := ⟨3, ![1, 512, 512]⟩
abbrev S1x3 : Shape := ⟨2, ![1, 3]⟩
abbrev S512x8192 : Shape := ⟨2, ![512, 8192]⟩
abbrev S8192x8192 : Shape := ⟨2, ![8192, 8192]⟩
abbrev S_ : Shape := ⟨0, ![]⟩

abbrev nBuf : Space → Nat
  | .hbm => 139
  | .vmem => 0
  | .smem => 0
  | _ => 0

abbrev hbmTy0_0 (i : Nat) : BufTy := match i % 128 with
  | 0 => ⟨S8192x3, .f32⟩
  | 1 => ⟨S8192x3, .f32⟩
  | 2 => ⟨S3x512, .f32⟩
  | 3 => ⟨S512, .f32⟩
  | 4 => ⟨S3x512x512, .f32⟩
  | 5 => ⟨S3x512, .f32⟩
  | 6 => ⟨S512x512, .f32⟩
  | 7 => ⟨S512, .f32⟩
  | 8 => ⟨S3x512, .f32⟩
  | 9 => ⟨S512, .f32⟩
  | 10 => ⟨S3x512x512, .f32⟩
  | 11 => ⟨S3x512, .f32⟩
  | 12 => ⟨S512x512, .f32⟩
  | 13 => ⟨S512, .f32⟩
  | 14 => ⟨S3x512, .f32⟩
  | 15 => ⟨S512, .f32⟩
  | 16 => ⟨S3x512x512, .f32⟩
  | 17 => ⟨S3x512, .f32⟩
  | 18 => ⟨S512x3, .f32⟩
  | 19 => ⟨S3, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512x512, .f32⟩
  | 26 => ⟨S512x512, .f32⟩
  | 27 => ⟨S8192x512, .f32⟩
  | 28 => ⟨S1x512, .f32⟩
  | 29 => ⟨S512, .f32⟩
  | 30 => ⟨S1x512, .f32⟩
  | 31 => ⟨S8192x512, .f32⟩
  | 32 => ⟨S8192x512, .f32⟩
  | 33 => ⟨S8192x512, .f32⟩
  | 34 => ⟨S1x512x512, .f32⟩
  | 35 => ⟨S512x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S1x512x512, .f32⟩
  | 44 => ⟨S512x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S8192x512, .f32⟩
  | 59 => ⟨S8192x512, .f32⟩
  | 60 => ⟨S8192x512, .f32⟩
  | 61 => ⟨S1x512x512, .f32⟩
  | 62 => ⟨S512x512, .f32⟩
  | 63 => ⟨S8192x512, .f32⟩
  | 64 => ⟨S1x512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S1x512x512, .f32⟩
  | 71 => ⟨S512x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S1x512x512, .f32⟩
  | 80 => ⟨S512x512, .f32⟩
  | 81 => ⟨S8192x512, .f32⟩
  | 82 => ⟨S1x512, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S1x512, .f32⟩
  | 90 => ⟨S8192x512, .f32⟩
  | 91 => ⟨S8192x512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512x512, .f32⟩
  | 98 => ⟨S512x512, .f32⟩
  | 99 => ⟨S8192x512, .f32⟩
  | 100 => ⟨S1x512, .f32⟩
  | 101 => ⟨S512, .f32⟩
  | 102 => ⟨S1x512, .f32⟩
  | 103 => ⟨S8192x512, .f32⟩
  | 104 => ⟨S8192x512, .f32⟩
  | 105 => ⟨S8192x512, .f32⟩
  | 106 => ⟨S1x512x512, .f32⟩
  | 107 => ⟨S512x512, .f32⟩
  | 108 => ⟨S8192x512, .f32⟩
  | 109 => ⟨S1x512, .f32⟩
  | 110 => ⟨S512, .f32⟩
  | 111 => ⟨S1x512, .f32⟩
  | 112 => ⟨S8192x512, .f32⟩
  | 113 => ⟨S8192x512, .f32⟩
  | 114 => ⟨S8192x512, .f32⟩
  | 115 => ⟨S1x512x512, .f32⟩
  | 116 => ⟨S512x512, .f32⟩
  | 117 => ⟨S8192x512, .f32⟩
  | 118 => ⟨S1x512, .f32⟩
  | 119 => ⟨S512, .f32⟩
  | 120 => ⟨S1x512, .f32⟩
  | 121 => ⟨S8192x512, .f32⟩
  | 122 => ⟨S8192x512, .f32⟩
  | 123 => ⟨S8192x512, .f32⟩
  | 124 => ⟨S8192x3, .f32⟩
  | 125 => ⟨S1x3, .f32⟩
  | 126 => ⟨S8192x3, .f32⟩
  | 127 => ⟨S8192x3, .f32⟩
  | _ => ⟨S8192x3, .f32⟩

abbrev hbmTy0_1 (i : Nat) : BufTy := match i % 128 with
  | 0 => ⟨S512x8192, .f32⟩
  | 1 => ⟨S8192x8192, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S_, .f32⟩
  | 8 => ⟨S8192x8192, .f32⟩
  | 9 => ⟨S8192x8192, .f32⟩
  | 10 => ⟨S8192x3, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst : Ref sig .tc := ⟨.hbm, 132, rfl⟩
abbrev main_v112 : Ref sig .tc := ⟨.hbm, 133, rfl⟩
abbrev main_v113 : Ref sig .tc := ⟨.hbm, 134, rfl⟩
abbrev main_cst_0 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  transposes_S8192x512_S512x8192_1_0 : S8192x512.Transposes [1, 0] S512x8192
  bcast_S_S8192x8192 : S_.BroadcastsInDim S8192x8192 (![] : Fin 0 → Fin S8192x8192.rank)
  dot_S8192x3_S3x512_S8192x512_1_0_0_1_n_n_wf : DotDims.WF S8192x3 S3x512 S8192x512 [1] [0] [0] [1] [] []
  dot_S8192x512_S512x512_S8192x512_1_0_0_1_n_n_wf : DotDims.WF S8192x512 S512x512 S8192x512 [1] [0] [0] [1] [] []
  dot_S8192x512_S512x3_S8192x3_1_0_0_1_n_n_wf : DotDims.WF S8192x512 S512x3 S8192x3 [1] [0] [0] [1] [] []
  dot_S8192x512_S512x8192_S8192x8192_1_0_0_1_n_n_wf : DotDims.WF S8192x512 S512x8192 S8192x8192 [1] [0] [0] [1] [] []
  dot_S8192x8192_S8192x3_S8192x3_1_0_0_1_n_n_wf : DotDims.WF S8192x8192 S8192x3 S8192x3 [1] [0] [0] [1] [] []

variable [Facts₀]

def dot_S8192x3_S3x512_S8192x512_1_0_0_1_n_n : DotDims S8192x3 S3x512 S8192x512 where
  lhsContracting := [1]
  rhsContracting := [0]
  lhsNonContracting := [0]
  rhsNonContracting := [1]
  lhsBatch := []
  rhsBatch := []
  wf := dot_S8192x3_S3x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x3_S8192x3_1_0_0_1_n_n : DotDims S8192x512 S512x3 S8192x3 where
  lhsContracting := [1]
  rhsContracting := [0]
  lhsNonContracting := [0]
  rhsNonContracting := [1]
  lhsBatch := []
  rhsBatch := []
  wf := dot_S8192x512_S512x3_S8192x3_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x3_S8192x3_1_0_0_1_n_n : DotDims S8192x8192 S8192x3 S8192x3 where
  lhsContracting := [1]
  rhsContracting := [0]
  lhsNonContracting := [0]
  rhsNonContracting := [1]
  lhsBatch := []
  rhsBatch := []
  wf := dot_S8192x8192_S8192x3_S8192x3_1_0_0_1_n_n_wf

class Facts : Prop extends Facts₀ where

variable [Facts]
-- ==== Proof.MlpRegion0W.lean ====
import proofs.«178031_j19344532702252_1_alg».proof.Proof.Gen.Kernel.Launch
import proofs.«178031_j19344532702252_1_alg».proof.Proof.Gen.Kernel.Skeleton
import proofs.«178031_j19344532702252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: a multilayer perceptron applied to one tile of rows, read and written in whole blocks

The region runs one body at each of 8 grid points over 8 windows. Window 0 is a tile of 1024 input rows
(1024 × 3); windows 1–6 are the whole weight and bias arrays (3 × 512 and 512 for the first layer, 3 × 512 × 512
and 3 × 512 for the three hidden layers, 512 × 512 and 512 for the last layer); window 7 is the tile of
1024 result rows (1024 × 512). The body reads every input buffer through fixed rectangles — the whole buffer,
or one hidden layer's slab of window 3 and row of window 4 —, applies the layers (an affine map followed by a
sine, the last layer affine only) and overwrites the whole output buffer once. No input buffer is written, and
nothing the output buffer held before is used.

So, at contents `V` of the arrays when the region is entered, the output buffer after the body at a point is a
closed function `out0_7` of the seven input blocks at that point, and every input buffer still reads its block.
This file states that function, proves the body's triple against it, and packages both as the pipeline's proof
data with its body obligation.
-/

-- membership of an index in a rectangle with extents 1024 and 512 recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the contents of every buffer of the core when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer reads its block at every point, whether the block was moved in at
    that point or at an earlier one with the same block index, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer reads its block at every point, whether the block was moved in at
    that point or at an earlier one with the same block index, for any proof data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer reads its block at every point, whether the block was moved in at
    that point or at an earlier one with the same block index, for any proof data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer reads its block at every point, whether the block was moved in at
    that point or at an earlier one with the same block index, for any proof data whose array is `V`'s and whose
    body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer reads its block at every point, whether the block was moved in at
    that point or at an earlier one with the same block index, for any proof data whose array is `V`'s and whose
    body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer reads its block at every point, whether the block was moved in at
    that point or at an earlier one with the same block index, for any proof data whose array is `V`'s and whose
    body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer reads its block at every point, whether the block was moved in at
    that point or at an earlier one with the same block index, for any proof data whose array is `V`'s and whose
    body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole tile of input rows. -/
abbrev rows0 : Rect S1024x3 := Rect.unit (s := S1024x3) ![0, 0] S1024x3.size inb_S1024x3_S1024x3_0_0
/-- The whole first-layer weight matrix. -/
abbrev wIn0 : Rect S3x512 := Rect.unit (s := S3x512) ![0, 0] S3x512.size inb_S3x512_S3x512_0_0
/-- The whole first-layer bias. -/
abbrev bIn0 : Rect S512 := Rect.unit (s := S512) ![0] S512.size inb_S512_S512_0
/-- The weight matrix of hidden layer 0, 1, 2: one 512 × 512 slab of window 3. -/
abbrev wHid0_0 : Rect S3x512x512 := Rect.unit (s := S3x512x512) ![0, 0, 0] S1x512x512.size inb_S3x512x512_S1x512x512_0_0_0
abbrev wHid0_1 : Rect S3x512x512 := Rect.unit (s := S3x512x512) ![1, 0, 0] S1x512x512.size inb_S3x512x512_S1x512x512_1_0_0
abbrev wHid0_2 : Rect S3x512x512 := Rect.unit (s := S3x512x512) ![2, 0, 0] S1x512x512.size inb_S3x512x512_S1x512x512_2_0_0
/-- The bias of hidden layer 0, 1, 2: one row of window 4. -/
abbrev bHid0_0 : Rect S3x512 := Rect.unit (s := S3x512) ![0, 0] S1x512.size inb_S3x512_S1x512_0_0
abbrev bHid0_1 : Rect S3x512 := Rect.unit (s := S3x512) ![1, 0] S1x512.size inb_S3x512_S1x512_1_0
abbrev bHid0_2 : Rect S3x512 := Rect.unit (s := S3x512) ![2, 0] S1x512.size inb_S3x512_S1x512_2_0
/-- The whole last-layer weight matrix. -/
abbrev wOut0 : Rect S512x512 := Rect.unit (s := S512x512) ![0, 0] S512x512.size inb_S512x512_S512x512_0_0
/-- The whole last-layer bias. -/
abbrev bOut0 : Rect S512 := Rect.unit (s := S512) ![0] S512.size inb_S512_S512_0
/-- The whole tile of result rows. -/
abbrev res0 : Rect S1024x512 := Rect.unit (s := S1024x512) ![0, 0] S1024x512.size inb_S1024x512_S1024x512_0_0

/-! ## What the body leaves in the output buffer -/

/-- Window 7's staging buffer after the body, from the seven input blocks: its one store, of the whole block.
    The stored value is the last layer (`k0_pay1`) applied to the third hidden layer's product
    (`k0_pay2`, from the rows, the first layer and the three hidden weight slabs and the first two hidden
    biases), the third hidden bias, and the last layer's weights and bias. -/
def out0_7 (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) : Vec F S1024x512 .f32 :=
  View.canon [⟨res0, k0_pay1
    (k0_pay2 (View.ld x0 rows0) (View.ld x1 wIn0) (View.ld x2 bIn0) (View.ld x3 wHid0_0) (View.ld x4 bHid0_0)
      (View.ld x3 wHid0_1) (View.ld x4 bHid0_1) (View.ld x3 wHid0_2))
    (View.ld x4 bHid0_2) (View.ld x5 wOut0) (View.ld x6 bOut0)⟩]

/-- The one store is of the whole block, so it covers every index of the buffer. -/
theorem cover0_7 (p0 : Vec F S1024x512 .f32) (y : S1024x512.Idx) :
    ∃ pc ∈ ([⟨res0, p0⟩] : List (View.Piece (Elt F) S1024x512 .f32)), y ∈ pc.1.set :=
  View.cover_of_tiled [⟨res0, p0⟩] S1024x512.size (by rfl) y

/-! ## The body's triple -/

set_option maxHeartbeats 4000000 in
/-- The body on whole staging buffers, the seven inputs' reading `x0 … x6` and the output's holding anything, runs
    to a state where every input buffer reads what it read and the output buffer reads `out0_7 x0 … x6`: each
    load reads its rectangle of the buffer's contents, and the final store overwrites the whole output buffer. -/
theorem sound_kernel0 (c : Dev nD) (E : Set ℕ) (i : grid0.Coords) (arg0 : Memref sig .tc .vmem S1024x3 .f32) (harg0 : arg0.IsWhole) (arg1 : Memref sig .tc .vmem S3x512 .f32) (harg1 : arg1.IsWhole) (arg2 : Memref sig .tc .vmem S512 .f32) (harg2 : arg2.IsWhole) (arg3 : Memref sig .tc .vmem S3x512x512 .f32) (harg3 : arg3.IsWhole) (arg4 : Memref sig .tc .vmem S3x512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1024x512 .f32) (harg7 : arg7.IsWhole)
    (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the region's pipeline on core `c`: the arrays as the region finds them; after the body at
    point `t` every input buffer at its block and the output buffer at `out0_7` of the input blocks; the
    invariant that of a body which touches nothing but its windows' buffers; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Every input's current staging buffer reads its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, what the core owes, and every window's current
    staging buffer at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the input buffers read their blocks, so the body's triple applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand
-- ==== Proof.MlpRegion1W.lean ====
import proofs.«178031_j19344532702252_1_alg».proof.Proof.Gen.Kernel.Launch
import proofs.«178031_j19344532702252_1_alg».proof.Proof.Gen.Kernel.Skeleton
import proofs.«178031_j19344532702252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: a multilayer perceptron applied to one tile of rows, read and written in whole blocks

The region runs one body at each of 8 grid points over 8 windows. Window 0 is a tile of 1024 input rows
(1024 × 3); windows 1–6 are the whole weight and bias arrays (3 × 512 and 512 for the first layer, 3 × 512 × 512
and 3 × 512 for the three hidden layers, 512 × 512 and 512 for the last layer); window 7 is the tile of
1024 result rows (1024 × 512). The body reads every input buffer through fixed rectangles — the whole buffer,
or one hidden layer's slab of window 3 and row of window 4 —, applies the layers (an affine map followed by a
sine, the last layer affine only) and overwrites the whole output buffer once. No input buffer is written, and
nothing the output buffer held before is used.

So, at contents `V` of the arrays when the region is entered, the output buffer after the body at a point is a
closed function `out1_7` of the seven input blocks at that point, and every input buffer still reads its block.
This file states that function, proves the body's triple against it, and packages both as the pipeline's proof
data with its body obligation.
-/

-- membership of an index in a rectangle with extents 1024 and 512 recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the contents of every buffer of the core when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer reads its block at every point, whether the block was moved in at
    that point or at an earlier one with the same block index, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer reads its block at every point, whether the block was moved in at
    that point or at an earlier one with the same block index, for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer reads its block at every point, whether the block was moved in at
    that point or at an earlier one with the same block index, for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer reads its block at every point, whether the block was moved in at
    that point or at an earlier one with the same block index, for any proof data whose array is `V`'s and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer reads its block at every point, whether the block was moved in at
    that point or at an earlier one with the same block index, for any proof data whose array is `V`'s and whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer reads its block at every point, whether the block was moved in at
    that point or at an earlier one with the same block index, for any proof data whose array is `V`'s and whose
    body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer reads its block at every point, whether the block was moved in at
    that point or at an earlier one with the same block index, for any proof data whose array is `V`'s and whose
    body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- The whole tile of input rows. -/
abbrev rows1 : Rect S1024x3 := Rect.unit (s := S1024x3) ![0, 0] S1024x3.size inb_S1024x3_S1024x3_0_0
/-- The whole first-layer weight matrix. -/
abbrev wIn1 : Rect S3x512 := Rect.unit (s := S3x512) ![0, 0] S3x512.size inb_S3x512_S3x512_0_0
/-- The whole first-layer bias. -/
abbrev bIn1 : Rect S512 := Rect.unit (s := S512) ![0] S512.size inb_S512_S512_0
/-- The weight matrix of hidden layer 0, 1, 2: one 512 × 512 slab of window 3. -/
abbrev wHid1_0 : Rect S3x512x512 := Rect.unit (s := S3x512x512) ![0, 0, 0] S1x512x512.size inb_S3x512x512_S1x512x512_0_0_0
abbrev wHid1_1 : Rect S3x512x512 := Rect.unit (s := S3x512x512) ![1, 0, 0] S1x512x512.size inb_S3x512x512_S1x512x512_1_0_0
abbrev wHid1_2 : Rect S3x512x512 := Rect.unit (s := S3x512x512) ![2, 0, 0] S1x512x512.size inb_S3x512x512_S1x512x512_2_0_0
/-- The bias of hidden layer 0, 1, 2: one row of window 4. -/
abbrev bHid1_0 : Rect S3x512 := Rect.unit (s := S3x512) ![0, 0] S1x512.size inb_S3x512_S1x512_0_0
abbrev bHid1_1 : Rect S3x512 := Rect.unit (s := S3x512) ![1, 0] S1x512.size inb_S3x512_S1x512_1_0
abbrev bHid1_2 : Rect S3x512 := Rect.unit (s := S3x512) ![2, 0] S1x512.size inb_S3x512_S1x512_2_0
/-- The whole last-layer weight matrix. -/
abbrev wOut1 : Rect S512x512 := Rect.unit (s := S512x512) ![0, 0] S512x512.size inb_S512x512_S512x512_0_0
/-- The whole last-layer bias. -/
abbrev bOut1 : Rect S512 := Rect.unit (s := S512) ![0] S512.size inb_S512_S512_0
/-- The whole tile of result rows. -/
abbrev res1 : Rect S1024x512 := Rect.unit (s := S1024x512) ![0, 0] S1024x512.size inb_S1024x512_S1024x512_0_0

/-! ## What the body leaves in the output buffer -/

/-- Window 7's staging buffer after the body, from the seven input blocks: its one store, of the whole block.
    The stored value is the last layer (`k1_pay1`) applied to the third hidden layer's product
    (`k1_pay2`, from the rows, the first layer and the three hidden weight slabs and the first two hidden
    biases), the third hidden bias, and the last layer's weights and bias. -/
def out1_7 (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) : Vec F S1024x512 .f32 :=
  View.canon [⟨res1, k1_pay1
    (k1_pay2 (View.ld x0 rows1) (View.ld x1 wIn1) (View.ld x2 bIn1) (View.ld x3 wHid1_0) (View.ld x4 bHid1_0)
      (View.ld x3 wHid1_1) (View.ld x4 bHid1_1) (View.ld x3 wHid1_2))
    (View.ld x4 bHid1_2) (View.ld x5 wOut1) (View.ld x6 bOut1)⟩]

/-- The one store is of the whole block, so it covers every index of the buffer. -/
theorem cover1_7 (p0 : Vec F S1024x512 .f32) (y : S1024x512.Idx) :
    ∃ pc ∈ ([⟨res1, p0⟩] : List (View.Piece (Elt F) S1024x512 .f32)), y ∈ pc.1.set :=
  View.cover_of_tiled [⟨res1, p0⟩] S1024x512.size (by rfl) y

/-! ## The body's triple -/

set_option maxHeartbeats 4000000 in
/-- The body on whole staging buffers, the seven inputs' reading `x0 … x6` and the output's holding anything, runs
    to a state where every input buffer reads what it read and the output buffer reads `out1_7 x0 … x6`: each
    load reads its rectangle of the buffer's contents, and the final store overwrites the whole output buffer. -/
theorem sound_kernel1 (c : Dev nD) (E : Set ℕ) (i : grid1.Coords) (arg0 : Memref sig .tc .vmem S1024x3 .f32) (harg0 : arg0.IsWhole) (arg1 : Memref sig .tc .vmem S3x512 .f32) (harg1 : arg1.IsWhole) (arg2 : Memref sig .tc .vmem S512 .f32) (harg2 : arg2.IsWhole) (arg3 : Memref sig .tc .vmem S3x512x512 .f32) (harg3 : arg3.IsWhole) (arg4 : Memref sig .tc .vmem S3x512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1024x512 .f32) (harg7 : arg7.IsWhole)
    (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays as the region finds them; after the body at
    point `t` every input buffer at its block and the output buffer at `out1_7` of the input blocks; the
    invariant that of a body which touches nothing but its windows' buffers; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Every input's current staging buffer reads its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what the core owes, and every window's current
    staging buffer at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, every buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the input buffers read their blocks, so the body's triple applies at those blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.MlpRegion2W.lean ====
import proofs.«178031_j19344532702252_1_alg».proof.Proof.Gen.Kernel.Launch
import proofs.«178031_j19344532702252_1_alg».proof.Proof.Gen.Kernel.Skeleton
import proofs.«178031_j19344532702252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: a multilayer perceptron applied to one tile of rows, read and written in whole blocks

The region runs one body at each of 8 grid points over 8 windows. Window 0 is a tile of 1024 input rows
(1024 × 3); windows 1–6 are the whole weight and bias arrays (3 × 512 and 512 for the first layer, 3 × 512 × 512
and 3 × 512 for the three hidden layers, 512 × 3 and 3 for the last layer); window 7 is the tile of
1024 result rows (1024 × 3). The body reads every input buffer through fixed rectangles — the whole buffer,
or one hidden layer's slab of window 3 and row of window 4 —, applies the layers (an affine map followed by a
sine, the last layer affine only) and overwrites the whole output buffer once. No input buffer is written, and
nothing the output buffer held before is used.

So, at contents `V` of the arrays when the region is entered, the output buffer after the body at a point is a
closed function `out2_7` of the seven input blocks at that point, and every input buffer still reads its block.
This file states that function, proves the body's triple against it, and packages both as the pipeline's proof
data with its body obligation.
-/

-- membership of an index in a rectangle with extents 1024 and 512 recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
-- the contents of every buffer of the core when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer reads its block at every point, whether the block was moved in at
    that point or at an earlier one with the same block index, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer reads its block at every point, whether the block was moved in at
    that point or at an earlier one with the same block index, for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer reads its block at every point, whether the block was moved in at
    that point or at an earlier one with the same block index, for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer reads its block at every point, whether the block was moved in at
    that point or at an earlier one with the same block index, for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer reads its block at every point, whether the block was moved in at
    that point or at an earlier one with the same block index, for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer reads its block at every point, whether the block was moved in at
    that point or at an earlier one with the same block index, for any proof data whose array is `V`'s and whose
    body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer reads its block at every point, whether the block was moved in at
    that point or at an earlier one with the same block index, for any proof data whose array is `V`'s and whose
    body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

/-- The whole tile of input rows. -/
abbrev rows2 : Rect S1024x3 := Rect.unit (s := S1024x3) ![0, 0] S1024x3.size inb_S1024x3_S1024x3_0_0
/-- The whole first-layer weight matrix. -/
abbrev wIn2 : Rect S3x512 := Rect.unit (s := S3x512) ![0, 0] S3x512.size inb_S3x512_S3x512_0_0
/-- The whole first-layer bias. -/
abbrev bIn2 : Rect S512 := Rect.unit (s := S512) ![0] S512.size inb_S512_S512_0
/-- The weight matrix of hidden layer 0, 1, 2: one 512 × 512 slab of window 3. -/
abbrev wHid2_0 : Rect S3x512x512 := Rect.unit (s := S3x512x512) ![0, 0, 0] S1x512x512.size inb_S3x512x512_S1x512x512_0_0_0
abbrev wHid2_1 : Rect S3x512x512 := Rect.unit (s := S3x512x512) ![1, 0, 0] S1x512x512.size inb_S3x512x512_S1x512x512_1_0_0
abbrev wHid2_2 : Rect S3x512x512 := Rect.unit (s := S3x512x512) ![2, 0, 0] S1x512x512.size inb_S3x512x512_S1x512x512_2_0_0
/-- The bias of hidden layer 0, 1, 2: one row of window 4. -/
abbrev bHid2_0 : Rect S3x512 := Rect.unit (s := S3x512) ![0, 0] S1x512.size inb_S3x512_S1x512_0_0
abbrev bHid2_1 : Rect S3x512 := Rect.unit (s := S3x512) ![1, 0] S1x512.size inb_S3x512_S1x512_1_0
abbrev bHid2_2 : Rect S3x512 := Rect.unit (s := S3x512) ![2, 0] S1x512.size inb_S3x512_S1x512_2_0
/-- The whole last-layer weight matrix. -/
abbrev wOut2 : Rect S512x3 := Rect.unit (s := S512x3) ![0, 0] S512x3.size inb_S512x3_S512x3_0_0
/-- The whole last-layer bias. -/
abbrev bOut2 : Rect S3 := Rect.unit (s := S3) ![0] S3.size inb_S3_S3_0
/-- The whole tile of result rows. -/
abbrev res2 : Rect S1024x3 := Rect.unit (s := S1024x3) ![0, 0] S1024x3.size inb_S1024x3_S1024x3_0_0

/-! ## What the body leaves in the output buffer -/

/-- Window 7's staging buffer after the body, from the seven input blocks: its one store, of the whole block.
    The stored value is the last layer (`k2_pay1`) applied to the third hidden layer's product
    (`k2_pay2`, from the rows, the first layer and the three hidden weight slabs and the first two hidden
    biases), the third hidden bias, and the last layer's weights and bias. -/
def out2_7 (x0 : Vec F S1024x3 .f32) (x1 : Vec F S3x512 .f32) (x2 : Vec F S512 .f32) (x3 : Vec F S3x512x512 .f32) (x4 : Vec F S3x512 .f32) (x5 : Vec F S512x3 .f32) (x6 : Vec F S3 .f32) : Vec F S1024x3 .f32 :=
  View.canon [⟨res2, k2_pay1
    (k2_pay2 (View.ld x0 rows2) (View.ld x1 wIn2) (View.ld x2 bIn2) (View.ld x3 wHid2_0) (View.ld x4 bHid2_0)
      (View.ld x3 wHid2_1) (View.ld x4 bHid2_1) (View.ld x3 wHid2_2))
    (View.ld x4 bHid2_2) (View.ld x5 wOut2) (View.ld x6 bOut2)⟩]

/-- The one store is of the whole block, so it covers every index of the buffer. -/
theorem cover2_7 (p0 : Vec F S1024x3 .f32) (y : S1024x3.Idx) :
    ∃ pc ∈ ([⟨res2, p0⟩] : List (View.Piece (Elt F) S1024x3 .f32)), y ∈ pc.1.set :=
  View.cover_of_tiled [⟨res2, p0⟩] S1024x3.size (by rfl) y

/-! ## The body's triple -/

set_option maxHeartbeats 4000000 in
/-- The body on whole staging buffers, the seven inputs' reading `x0 … x6` and the output's holding anything, runs
    to a state where every input buffer reads what it read and the output buffer reads `out2_7 x0 … x6`: each
    load reads its rectangle of the buffer's contents, and the final store overwrites the whole output buffer. -/
theorem sound_kernel2 (c : Dev nD) (E : Set ℕ) (i : grid2.Coords) (arg0 : Memref sig .tc .vmem S1024x3 .f32) (harg0 : arg0.IsWhole) (arg1 : Memref sig .tc .vmem S3x512 .f32) (harg1 : arg1.IsWhole) (arg2 : Memref sig .tc .vmem S512 .f32) (harg2 : arg2.IsWhole) (arg3 : Memref sig .tc .vmem S3x512x512 .f32) (harg3 : arg3.IsWhole) (arg4 : Memref sig .tc .vmem S3x512 .f32) (harg4 : arg4.IsWhole) (arg5 : Memref sig .tc .vmem S512x3 .f32) (harg5 : arg5.IsWhole) (arg6 : Memref sig .tc .vmem S3 .f32) (harg6 : arg6.IsWhole) (arg7 : Memref sig .tc .vmem S1024x3 .f32) (harg7 : arg7.IsWhole)
    (x0 : Vec F S1024x3 .f32) (x1 : Vec F S3x512 .f32) (x2 : Vec F S512 .f32) (x3 : Vec F S3x512x512 .f32) (x4 : Vec F S3x512 .f32) (x5 : Vec F S512x3 .f32) (x6 : Vec F S3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__mlp_kernel i arg0 harg0 arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region's pipeline on core `c`: the arrays as the region finds them; after the body at
    point `t` every input buffer at its block and the output buffer at `out2_7` of the input blocks; the
    invariant that of a body which touches nothing but its windows' buffers; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Every input's current staging buffer reads its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and every window's current
    staging buffer at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns: the same, every buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the input buffers read their blocks, so the body's triple applies at those blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand
-- ==== Proof.AttnRunsW.lean ====
import proofs.«178031_j19344532702252_1_alg».proof.Proof.Gen.Kernel.Launch
import proofs.«178031_j19344532702252_1_alg».proof.Proof.Gen.Kernel.Skeleton
import proofs.«178031_j19344532702252_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel (pallas_call 3): what its three control cases share

The grid is 8 × 8; point `t` has inner coordinate `n = t.val % 8`. The body resets its scratch accumulator when
`n = 0`, adds `logistic(Q·Kᵀ)·V` of the point's tiles to it at every point, and copies it to the output tile when
`n = 7`. So a point is in one of three cases: FIRST (`n = 0`), MIDDLE (`0 < n < 7`), LAST (`n = 7`). -/

/-! ## The two conditions of the body, in closed form over the grid -/

/-- The body's first `scf.if` (the accumulator is reset): the inner coordinate is 0. -/
abbrev resetCond (i : grid3.Coords) : Prop :=
  (Scalar.cmpi .ne (Scalar.extui (Scalar.cmpi .eq (BitVec.ofNat 32 (i 1).val) 0#32)) 0#32) = 1#1

/-- It holds exactly at the points ≡ 0 (mod 8). -/
theorem resetCond_iff : ∀ t : Fin cfg3.N, resetCond (grid3.coords t) ↔ t.val % 8 = 0 :=
  (by decide +kernel : ∀ t : Fin grid3.N, resetCond (grid3.coords t) ↔ t.val % 8 = 0)

/-- The body's second `scf.if` (the accumulator is copied to the output tile): the inner coordinate is 7. -/
abbrev emitCond (i : grid3.Coords) : Prop := k3_cond2 i = 1#1

/-- It holds exactly at the points ≡ 7 (mod 8). -/
theorem emitCond_iff : ∀ t : Fin cfg3.N, emitCond (grid3.coords t) ↔ t.val % 8 = 7 :=
  (by decide +kernel : ∀ t : Fin grid3.N, emitCond (grid3.coords t) ↔ t.val % 8 = 7)

/-! ## Where the output window is idle -/

/-- In the FIRST case the output window is idle: nothing is stored into its buffer, -/
theorem outIdle_first : ∀ t : Fin cfg3.N, resetCond (grid3.coords t) → ¬emitCond (grid3.coords t) → cfg3.idle 3 (grid3.coords t) = true := by decide +kernel
/-- and the pipeline does not write the buffer back. -/
theorem outKept_first : ∀ t : Fin cfg3.N, resetCond (grid3.coords t) → ¬emitCond (grid3.coords t) → (cfg3.win 3).flush t = false := by decide +kernel
/-- The same in the MIDDLE case. -/
theorem outIdle_middle : ∀ t : Fin cfg3.N, ¬resetCond (grid3.coords t) → ¬emitCond (grid3.coords t) → cfg3.idle 3 (grid3.coords t) = true := by decide +kernel
theorem outKept_middle : ∀ t : Fin cfg3.N, ¬resetCond (grid3.coords t) → ¬emitCond (grid3.coords t) → (cfg3.win 3).flush t = false := by decide +kernel
/-- In the LAST case the output window is live: the body stores the accumulator into it. -/
theorem outLive_last : ∀ t : Fin cfg3.N, ¬resetCond (grid3.coords t) → emitCond (grid3.coords t) → cfg3.idle 3 (grid3.coords t) = false := by decide +kernel
/-- The three input windows are never idle. -/
theorem inLive_Q : ∀ t : Fin cfg3.N, cfg3.idle 0 (grid3.coords t) = false := by decide +kernel
theorem inLive_K : ∀ t : Fin cfg3.N, cfg3.idle 1 (grid3.coords t) = false := by decide +kernel
theorem inLive_V : ∀ t : Fin cfg3.N, cfg3.idle 2 (grid3.coords t) = false := by decide +kernel

/-! ## The memrefs the body is called on -/

/-- The current staging memrefs of the Q, K, V and output windows at point `t`, as the pipeline passes them, with
    their wholeness. -/
abbrev stQ (t : Fin cfg3.N) : Memref sig .tc .vmem S1024x512 .f32 := win3_0.stage (cfg3.slots t 0)
abbrev stQ_whole (t : Fin cfg3.N) : (stQ t).IsWhole := hstage3_0 ((cfg3.slots t 0).cast nbuf3_0)
abbrev stK (t : Fin cfg3.N) : Memref sig .tc .vmem S1024x512 .f32 := win3_1.stage (cfg3.slots t 1)
abbrev stK_whole (t : Fin cfg3.N) : (stK t).IsWhole := hstage3_1 ((cfg3.slots t 1).cast nbuf3_1)
abbrev stV (t : Fin cfg3.N) : Memref sig .tc .vmem S1024x3 .f32 := win3_2.stage (cfg3.slots t 2)
abbrev stV_whole (t : Fin cfg3.N) : (stV t).IsWhole := hstage3_2 ((cfg3.slots t 2).cast nbuf3_2)
abbrev stO (t : Fin cfg3.N) : Memref sig .tc .vmem S1024x3 .f32 := win3_3.stage (cfg3.slots t 3)
abbrev stO_whole (t : Fin cfg3.N) : (stO t).IsWhole := hstage3_3 ((cfg3.slots t 3).cast nbuf3_3)

/-- The scratch accumulator: a whole scoped buffer of the call's own, passed beside the windows. -/
abbrev accM : Memref sig .tc .vmem S1024x3 .f32 := Memref.whole cc3_scratch0
/-- The accumulator as a view: what it holds is stated through it. -/
abbrev accV : View sig .tc .vmem S1024x3 .f32 := accM.view
/-- One staging buffer of the output window, through which the output tile's contents are stated (the choice does
    not matter: the stores cover the tile). -/
abbrev outV : View sig .tc .vmem S1024x3 .f32 := (Memref.whole cc3_stg3_0 : Memref sig .tc .vmem S1024x3 .f32).view

/-! ## The region invariant with the accumulator split off -/

/-- What the launch hands the region, with the accumulator as a memref owned at some contents and every other scoped
    buffer left unopened. -/
theorem regionInv_split (c : Dev nD) :
    (Pipeline.ΦA spec3 c : sProp 𝕄)
      = iprop(iprop(iprop((∃ d, owns (c : Thread nD τ) accM fullShare d))
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [accM, owns_whole]; try rfl

end Cert.Kernel.Hand

end
-- ==== Proof.AttnRunFirstW.lean ====
import proofs.«178031_j19344532702252_1_alg».proof.Proof.AttnRunsW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's body in the FIRST case (inner coordinate 0)

The accumulator is reset to zero, then the point's contribution `logistic(Q·Kᵀ)·V` is added to it; the output
tile is not touched. -/

set_option maxHeartbeats 1000000 in
/-- The body at a point with inner coordinate 0, on whole memrefs: the Q, K and V tiles at contents `xQ`, `xK`,
    `xV`, the output tile at any contents `xo` (handed back as found), the accumulator at anything. It runs to the
    continuation holding the inputs and the output tile as they were and the accumulator with the pieces `.2.1`
    written — the pieces are what the symbolic run of the body's skeleton finds (the zero fill, then the sum). The first
    component (the output tile's pieces) is empty: nothing is stored there. -/
noncomputable def runFirst (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i)
    (xQ : Vec F S1024x512 .f32) (xK : Vec F S1024x512 .f32) (xV : Vec F S1024x3 .f32) :
    Σ' (LO : List (View.Piece (Elt F) S1024x3 .f32)), { LA : List (View.Piece (Elt F) S1024x3 .f32) //
      ∀ (xo : Vec F S1024x3 .f32) (E : Set ℕ) (K : PUnit → sProp 𝕄),
        iprop(owns (c : Thread nD τ) arg2 fullShare xQ ∗ owns (c : Thread nD τ) arg3 fullShare xK ∗ owns (c : Thread nD τ) arg4 fullShare xV
            ∗ owns (c : Thread nD τ) arg5 fullShare xo ∗ (∃ d, owns (c : Thread nD τ) arg6 fullShare d)
            ∗ (iprop(owns (c : Thread nD τ) arg2 fullShare xQ ∗ owns (c : Thread nD τ) arg3 fullShare xK ∗ owns (c : Thread nD τ) arg4 fullShare xV
                ∗ owns (c : Thread nD τ) arg5 fullShare xo
                ∗ (∃ f, arg6.view.loc (c : Thread nD τ) ↦[arg6.view.set]{fullShare} arg6.view.writes (Elt F) f LA)) -∗ K ⟨⟩))
          ⊢ wp frame (wpE (defs₀ (F := F)) Variants.none c none) E (cc3__attn_kernel i arg2 harg2 arg3 harg3 arg4 harg4 arg5 harg5 arg6 harg6) K } := by
  refine ⟨[], ?_, fun xo E K => ?run⟩
  case run =>
    simp only [cc3__attn_kernel_eq_skeleton]; unfold cc3__attn_kernel_skel
    unfold owns
    iintro ⟨⟨%fQ, %hfQ, HQ⟩, ⟨%fK, %hfK, HK⟩, ⟨%fV, %hfV, HV⟩, ⟨%fO, %hfO, HO⟩, ⟨%dA, %fA, -, HA⟩, Hk⟩
    obtain rfl := harg2.eq_unread hfQ; obtain rfl := harg3.eq_unread hfK; obtain rfl := harg4.eq_unread hfV
    obtain rfl := harg5.eq_unread hfO
    sl_exec (disch := first | exact hc0 | exact hc1)
    sl_step
    iapply Hk
    isplitl [HQ]
    · iexists _; isplitr; · ipureintro; exact harg2.read_unread _
      iexact HQ
    isplitl [HK]
    · iexists _; isplitr; · ipureintro; exact harg3.read_unread _
      iexact HK
    isplitl [HV]
    · iexists _; isplitr; · ipureintro; exact harg4.read_unread _
      iexact HV
    isplitl [HO]
    · iexists _; isplitr; · ipureintro; exact harg5.read_unread _
      iexact HO
    iexists _; iexact HA

end Cert.Kernel.Hand

end
-- ==== Proof.AttnRunMiddleW.lean ====
import proofs.«178031_j19344532702252_1_alg».proof.Proof.AttnRunFirstW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's body in the MIDDLE case (inner coordinate strictly between 0 and 7)

The point's contribution `logistic(Q·Kᵀ)·V` is added to the accumulator as the point before left it; the output
tile is not touched. -/

set_option maxHeartbeats 1000000 in
/-- The body at a point with inner coordinate neither 0 nor 7, on whole memrefs: the Q, K and V tiles at contents
    `xQ`, `xK`, `xV`, the output tile at any contents `xo` (handed back as found), the accumulator at `xA`, what
    the point before left. It runs to the continuation holding the inputs and the output tile as they were and the
    accumulator with the pieces `.2.1` written (the sum, found by the symbolic run of the body's skeleton). The first
    component (the output tile's pieces) is empty. -/
noncomputable def runMiddle (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i)
    (xQ : Vec F S1024x512 .f32) (xK : Vec F S1024x512 .f32) (xV : Vec F S1024x3 .f32) (xA : Vec F S1024x3 .f32) :
    Σ' (LO : List (View.Piece (Elt F) S1024x3 .f32)), { LA : List (View.Piece (Elt F) S1024x3 .f32) //
      ∀ (xo : Vec F S1024x3 .f32) (E : Set ℕ) (K : PUnit → sProp 𝕄),
        iprop(owns (c : Thread nD τ) arg2 fullShare xQ ∗ owns (c : Thread nD τ) arg3 fullShare xK ∗ owns (c : Thread nD τ) arg4 fullShare xV
            ∗ owns (c : Thread nD τ) arg5 fullShare xo ∗ owns (c : Thread nD τ) arg6 fullShare xA
            ∗ (iprop(owns (c : Thread nD τ) arg2 fullShare xQ ∗ owns (c : Thread nD τ) arg3 fullShare xK ∗ owns (c : Thread nD τ) arg4 fullShare xV
                ∗ owns (c : Thread nD τ) arg5 fullShare xo
                ∗ (∃ f, arg6.view.loc (c : Thread nD τ) ↦[arg6.view.set]{fullShare} arg6.view.writes (Elt F) f LA)) -∗ K ⟨⟩))
          ⊢ wp frame (wpE (defs₀ (F := F)) Variants.none c none) E (cc3__attn_kernel i arg2 harg2 arg3 harg3 arg4 harg4 arg5 harg5 arg6 harg6) K } := by
  refine ⟨[], ?_, fun xo E K => ?run⟩
  case run =>
    simp only [cc3__attn_kernel_eq_skeleton]; unfold cc3__attn_kernel_skel
    unfold owns
    iintro ⟨⟨%fQ, %hfQ, HQ⟩, ⟨%fK, %hfK, HK⟩, ⟨%fV, %hfV, HV⟩, ⟨%fO, %hfO, HO⟩, ⟨%fA, %hfA, HA⟩, Hk⟩
    obtain rfl := harg2.eq_unread hfQ; obtain rfl := harg3.eq_unread hfK; obtain rfl := harg4.eq_unread hfV
    obtain rfl := harg5.eq_unread hfO; obtain rfl := harg6.eq_unread hfA
    sl_exec (disch := first | exact hc0 | exact hc1)
    sl_step
    iapply Hk
    isplitl [HQ]
    · iexists _; isplitr; · ipureintro; exact harg2.read_unread _
      iexact HQ
    isplitl [HK]
    · iexists _; isplitr; · ipureintro; exact harg3.read_unread _
      iexact HK
    isplitl [HV]
    · iexists _; isplitr; · ipureintro; exact harg4.read_unread _
      iexact HV
    isplitl [HO]
    · iexists _; isplitr; · ipureintro; exact harg5.read_unread _
      iexact HO
    iexists _; iexact HA

end Cert.Kernel.Hand

end
-- ==== Proof.AttnRunLastW.lean ====
import proofs.«178031_j19344532702252_1_alg».proof.Proof.AttnRunMiddleW

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's body in the LAST case (inner coordinate 7)

The point's contribution `logistic(Q·Kᵀ)·V` is added to the accumulator as the point before left it, and the
accumulator is then copied whole into the output tile. -/

set_option maxHeartbeats 1000000 in
/-- The body at a point with inner coordinate 7, on whole memrefs: the Q, K and V tiles at contents `xQ`, `xK`,
    `xV`, the output tile at anything, the accumulator at `xA`, what the point before left. It runs to the continuation
    holding the inputs as they were, the output tile with the pieces `.1` written (the copy of the accumulator) and the
    accumulator with the pieces `.2.1` written (the sum); both lists are found by the symbolic run of the body's
    skeleton. -/
noncomputable def runLast (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i)
    (xQ : Vec F S1024x512 .f32) (xK : Vec F S1024x512 .f32) (xV : Vec F S1024x3 .f32) (xA : Vec F S1024x3 .f32) :
    Σ' (LO : List (View.Piece (Elt F) S1024x3 .f32)), { LA : List (View.Piece (Elt F) S1024x3 .f32) //
      ∀ (E : Set ℕ) (K : PUnit → sProp 𝕄),
        iprop(owns (c : Thread nD τ) arg2 fullShare xQ ∗ owns (c : Thread nD τ) arg3 fullShare xK ∗ owns (c : Thread nD τ) arg4 fullShare xV
            ∗ (∃ d, owns (c : Thread nD τ) arg5 fullShare d) ∗ owns (c : Thread nD τ) arg6 fullShare xA
            ∗ (iprop(owns (c : Thread nD τ) arg2 fullShare xQ ∗ owns (c : Thread nD τ) arg3 fullShare xK ∗ owns (c : Thread nD τ) arg4 fullShare xV
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LA)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%fQ, %hfQ, HQ⟩, ⟨%fK, %hfK, HK⟩, ⟨%fV, %hfV, HV⟩, ⟨%dO, %fO, -, HO⟩, ⟨%fA, %hfA, HA⟩, Hk⟩
    obtain rfl := harg2.eq_unread hfQ; obtain rfl := harg3.eq_unread hfK; obtain rfl := harg4.eq_unread hfV
    obtain rfl := harg6.eq_unread hfA
    sl_exec (disch := first | exact hc0 | exact hc1)
    sl_step
    iapply Hk
    isplitl [HQ]
    · iexists _; isplitr; · ipureintro; exact harg2.read_unread _
      iexact HQ
    isplitl [HK]
    · iexists _; isplitr; · ipureintro; exact harg3.read_unread _
      iexact HK
    isplitl [HV]
    · iexists _; isplitr; · ipureintro; exact harg4.read_unread _
      iexact HV
    isplitl [HO]; · iexists _; iexact HO
    iexists _; iexact HA

end Cert.Kernel.Hand

end
-- ==== Proof.AttnRegionW.lean ====
import proofs.«178031_j19344532702252_1_alg».proof.Proof.AttnRunLastW
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's region (pallas_call 3) as a pipeline with a carried accumulator

Stated at a parameter `V`: the core's buffer contents when the region is entered. -/

/-! ## What each case leaves in the accumulator and in the output tile -/

/-- The FIRST case's pieces cover the accumulator (the zero fill and the sum are both whole-tile stores). -/
theorem accCover_first (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i) (xQ : Vec F S1024x512 .f32) (xK : Vec F S1024x512 .f32) (xV : Vec F S1024x3 .f32) (y : S1024x3.Idx) :
    ∃ pc ∈ (runFirst c i arg2 harg2 arg3 harg3 arg4 harg4 arg5 harg5 arg6 harg6 hc0 hc1 xQ xK xV).2.1, y ∈ pc.1.set :=
  View.cover_of_tiledL (runFirst c i arg2 harg2 arg3 harg3 arg4 harg4 arg5 harg5 arg6 harg6 hc0 hc1 xQ xK xV).2.1 S1024x3.size (by sl_kernel_rfl) y

/-- What the FIRST case leaves in the accumulator: its pieces read back. -/
def accAfterFirst (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i) (xQ : Vec F S1024x512 .f32) (xK : Vec F S1024x512 .f32) (xV : Vec F S1024x3 .f32) : Vec F S1024x3 .f32 :=
  accV.read (Elt F) (accV.writes (Elt F) accV.junk (runFirst c i arg2 harg2 arg3 harg3 arg4 harg4 arg5 harg5 arg6 harg6 hc0 hc1 xQ xK xV).2.1)

/-- The MIDDLE case's pieces cover the accumulator. -/
theorem accCover_middle (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i) (xQ : Vec F S1024x512 .f32) (xK : Vec F S1024x512 .f32) (xV : Vec F S1024x3 .f32) (xA : Vec F S1024x3 .f32) (y : S1024x3.Idx) :
    ∃ pc ∈ (runMiddle c i arg2 harg2 arg3 harg3 arg4 harg4 arg5 harg5 arg6 harg6 hc0 hc1 xQ xK xV xA).2.1, y ∈ pc.1.set :=
  View.cover_of_tiledL (runMiddle c i arg2 harg2 arg3 harg3 arg4 harg4 arg5 harg5 arg6 harg6 hc0 hc1 xQ xK xV xA).2.1 S1024x3.size (by sl_kernel_rfl) y

/-- What the MIDDLE case leaves in the accumulator. -/
def accAfterMiddle (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i) (xQ : Vec F S1024x512 .f32) (xK : Vec F S1024x512 .f32) (xV : Vec F S1024x3 .f32) (xA : Vec F S1024x3 .f32) : Vec F S1024x3 .f32 :=
  accV.read (Elt F) (accV.writes (Elt F) accV.junk (runMiddle c i arg2 harg2 arg3 harg3 arg4 harg4 arg5 harg5 arg6 harg6 hc0 hc1 xQ xK xV xA).2.1)

/-- The LAST case's pieces cover the accumulator, -/
theorem accCover_last (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) (y : S1024x3.Idx) :
    ∃ pc ∈ (runLast c i arg2 harg2 arg3 harg3 arg4 harg4 arg5 harg5 arg6 harg6 hc0 hc1 xQ xK xV xA).2.1, y ∈ pc.1.set :=
  View.cover_of_tiledL (runLast c i arg2 harg2 arg3 harg3 arg4 harg4 arg5 harg5 arg6 harg6 hc0 hc1 xQ xK xV xA).2.1 S1024x3.size (by sl_kernel_rfl) y

/-- and its one store into the output tile covers the tile. -/
theorem outCover_last (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) (y : S1024x3.Idx) :
    ∃ pc ∈ (runLast c i arg2 harg2 arg3 harg3 arg4 harg4 arg5 harg5 arg6 harg6 hc0 hc1 xQ xK xV xA).1, y ∈ pc.1.set :=
  View.cover_of_tiledL (runLast c i arg2 harg2 arg3 harg3 arg4 harg4 arg5 harg5 arg6 harg6 hc0 hc1 xQ xK xV xA).1 S1024x3.size (by sl_kernel_rfl) y

/-- What the LAST case leaves in the accumulator. -/
def accAfterLast (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) : Vec F S1024x3 .f32 :=
  accV.read (Elt F) (accV.writes (Elt F) accV.junk (runLast c i arg2 harg2 arg3 harg3 arg4 harg4 arg5 harg5 arg6 harg6 hc0 hc1 xQ xK xV xA).2.1)

/-- What the LAST case leaves in the output tile. -/
def outAfterLast (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) : Vec F S1024x3 .f32 :=
  outV.read (Elt F) (outV.writes (Elt F) outV.junk (runLast c i arg2 harg2 arg3 harg3 arg4 harg4 arg5 harg5 arg6 harg6 hc0 hc1 xQ xK xV xA).1)

/-- The output tile's contents at a point that stores nothing into it: a placeholder nothing consults (at such a
    point the tile is neither written back nor read at the next point). -/
def outUntouched : Vec F S1024x3 .f32 := outV.read (Elt F) (outV.writes (Elt F) outV.junk [])

/-! ## The cases' contents in closed form

Each case's found pieces are whole-tile stores through the rectangle at zero offsets, and every load reads a whole
buffer: so what a case leaves is its last store's payload, over the contents themselves. -/

/-- The zero offsets, as the printed rectangles spell them. -/
theorem zeroOff : (![0, 0] : Fin 2 → Nat) = fun _ => 0 := funext fun a => by fin_cases a <;> rfl

/-- A load of a whole buffer holding `X` through the whole-shape rectangle at zero offsets reads `X`. -/
theorem readWhole {sp : Space} {S : Shape} (m : Memref sig .tc sp S .f32) (h : m.IsWhole) {off : Fin S.rank → Nat}
    (hz : off = fun _ => 0) (inb : ∀ a, off a + S.size a ≤ S.size a) (X : Vec F S .f32) :
    View.readAt (Elt F) m.view (Rect.unit off S.size inb).toLoadRect (h.unread X) = X :=
  (View.readAt_eq_ld _ _ _).trans
    ((congrArg (fun Y => View.ld Y (Rect.unit off S.size inb)) (h.read_unread X)).trans (View.ld_unit_zero hz inb X))

/-- MIDDLE: the accumulator ends at the sum's payload over the blocks and the accumulator as found. -/
theorem accAfterMiddle_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i) (xQ : Vec F S1024x512 .f32) (xK : Vec F S1024x512 .f32) (xV : Vec F S1024x3 .f32) (xA : Vec F S1024x3 .f32) :
    accAfterMiddle c i arg2 harg2 arg3 harg3 arg4 harg4 arg5 harg5 arg6 harg6 hc0 hc1 xQ xK xV xA = k3_pay2 xQ xK xV xA := by
  unfold accAfterMiddle
  rw [View.read_writes_eq_canon _ _ _ (accCover_middle c i arg2 harg2 arg3 harg3 arg4 harg4 arg5 harg5 arg6 harg6 hc0 hc1 xQ xK xV xA)]
  unfold runMiddle
  dsimp only
  sl_unfold_words
  rw [View.canon_unit_zero (S := S1024x3) zeroOff]
  rw [readWhole arg2 harg2 zeroOff, readWhole arg3 harg3 zeroOff, readWhole arg4 harg4 zeroOff, readWhole arg6 harg6 zeroOff]

/-- LAST: the accumulator ends at the same payload, -/
theorem accAfterLast_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) :
    accAfterLast c i arg2 harg2 arg3 harg3 arg4 harg4 arg5 harg5 arg6 harg6 hc0 hc1 xQ xK xV xA = k3_pay2 xQ xK xV xA := by
  unfold accAfterLast
  rw [View.read_writes_eq_canon _ _ _ (accCover_last c i arg2 harg2 arg3 harg3 arg4 harg4 arg5 harg5 arg6 harg6 hc0 hc1 xQ xK xV xA)]
  unfold runLast
  dsimp only
  sl_unfold_words
  rw [View.canon_unit_zero (S := S1024x3) zeroOff]
  rw [readWhole arg2 harg2 zeroOff, readWhole arg3 harg3 zeroOff, readWhole arg4 harg4 zeroOff, readWhole arg6 harg6 zeroOff]

/-- and the output tile at the accumulator's new contents (the copy reads back the store just made). -/
theorem outAfterLast_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) :
    outAfterLast c i arg2 harg2 arg3 harg3 arg4 harg4 arg5 harg5 arg6 harg6 hc0 hc1 xQ xK xV xA = k3_pay2 xQ xK xV xA := by
  unfold outAfterLast
  rw [View.read_writes_eq_canon _ _ _ (outCover_last c i arg2 harg2 arg3 harg3 arg4 harg4 arg5 harg5 arg6 harg6 hc0 hc1 xQ xK xV xA)]
  unfold runLast
  dsimp only
  sl_unfold_words
  rw [View.canon_unit_zero (S := S1024x3) zeroOff, View.readCov_unit_zero (S := S1024x3) _ zeroOff]
  rw [readWhole arg2 harg2 zeroOff, readWhole arg3 harg3 zeroOff, readWhole arg4 harg4 zeroOff, readWhole arg6 harg6 zeroOff]

/-- FIRST: the accumulator ends at the sum's payload over the blocks and the zero fill. -/
theorem accAfterFirst_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i) (xQ : Vec F S1024x512 .f32) (xK : Vec F S1024x512 .f32) (xV : Vec F S1024x3 .f32) :
    accAfterFirst c i arg2 harg2 arg3 harg3 arg4 harg4 arg5 harg5 arg6 harg6 hc0 hc1 xQ xK xV = k3_pay2 xQ xK xV k3_pay1 := by
  unfold accAfterFirst
  rw [View.read_writes_eq_canon _ _ _ (accCover_first c i arg2 harg2 arg3 harg3 arg4 harg4 arg5 harg5 arg6 harg6 hc0 hc1 xQ xK xV)]
  unfold runFirst
  dsimp only
  sl_unfold_words
  rw [View.canon_cons_unit_zero (S := S1024x3) zeroOff, View.readCov_unit_zero (S := S1024x3) _ zeroOff]
  rw [readWhole arg2 harg2 zeroOff, readWhole arg3 harg3 zeroOff, readWhole arg4 harg4 zeroOff]

section
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The Q window's current staging buffer holds its block at every point, fetched there or not (it is fetched only
    when the outer coordinate moves; in between its block index does not move), for any proof data whose array is
    `V`'s and whose body leaves the block in place. -/
theorem beforeQ_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the K window (fetched at every point) -/
theorem beforeK_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- and for the V window (fetched at every point). -/
theorem beforeV_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the output tile and the accumulator hold after each point -/

/-- One point's step: from the accumulator `xA` as the point before left it (unused when the point resets it), the
    output tile's and the accumulator's contents after the body at point `t` — the case the closed forms of the two
    conditions select, run on the point's memrefs and the point's Q, K, V blocks. -/
def pointOuts (c : Dev nD) (t : Fin cfg3.N) (xA : Vec F S1024x3 .f32) : Vec F S1024x3 .f32 × Vec F S1024x3 .f32 :=
  if h0 : t.val % 8 = 0 then
    (outUntouched, accAfterFirst c (grid3.coords t) (stQ t) (stQ_whole t) (stK t) (stK_whole t) (stV t) (stV_whole t) (stO t) (stO_whole t) accM (Memref.isWhole_whole _) ((resetCond_iff t).mpr h0) (fun h => by have := (emitCond_iff t).mp h; omega)
      (iblk3 V c 0 t) (iblk3 V c 1 t) (iblk3 V c 2 t))
  else if h1 : t.val % 8 = 7 then
    (outAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA,
     accAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA)
  else
    (outUntouched, accAfterMiddle c (grid3.coords t) (stQ t) (stQ_whole t) (stK t) (stK_whole t) (stV t) (stV_whole t) (stO t) (stO_whole t) accM (Memref.isWhole_whole _) (fun h => h0 ((resetCond_iff t).mp h)) (fun h => h1 ((emitCond_iff t).mp h))
      (iblk3 V c 0 t) (iblk3 V c 1 t) (iblk3 V c 2 t) xA)

/-- THE ACCUMULATION. What the output window's current staging buffer (`.1`) and the accumulator (`.2`) hold after
    the body at position `n`: the point's step from what the point before left in the accumulator (at position 0,
    which resets it, from a placeholder). -/
def outsAt3 (c : Dev nD) : (n : ℕ) → n < cfg3.N → Vec F S1024x3 .f32 × Vec F S1024x3 .f32
  | 0, hn => pointOuts V c ⟨0, hn⟩ outUntouched
  | n + 1, hn => pointOuts V c ⟨n + 1, hn⟩ (outsAt3 c n (Nat.lt_of_succ_lt hn)).2

/-- At the first position: the step from the placeholder. -/
theorem outsAt3_zero (c : Dev nD) (t : Fin cfg3.N) (hz : t.val = 0) :
    outsAt3 V c t.val t.isLt = pointOuts V c t outUntouched := by
  obtain ⟨n, hn⟩ := t
  cases n with
  | zero => rfl
  | succ n => exact absurd hz (Nat.succ_ne_zero n)

/-- At a later position: the step from what the position before left. -/
theorem outsAt3_pos (c : Dev nD) (t : Fin cfg3.N) (hz : t.val ≠ 0) :
    outsAt3 V c t.val t.isLt = pointOuts V c t (outsAt3 V c (t.val - 1) (Nat.lt_of_le_of_lt (Nat.sub_le _ _) t.isLt)).2 := by
  obtain ⟨n, hn⟩ := t
  cases n with
  | zero => exact absurd rfl hz
  | succ n => rfl

/-- The step at a point of the FIRST case, -/
theorem pointOuts_first (c : Dev nD) (t : Fin cfg3.N) (xA : Vec F S1024x3 .f32) (h0 : t.val % 8 = 0) (h1 : ¬t.val % 8 = 7) :
    pointOuts V c t xA = (outUntouched, accAfterFirst c (grid3.coords t) (stQ t) (stQ_whole t) (stK t) (stK_whole t) (stV t) (stV_whole t) (stO t) (stO_whole t) accM (Memref.isWhole_whole _) ((resetCond_iff t).mpr h0) (fun h => h1 ((emitCond_iff t).mp h))
      (iblk3 V c 0 t) (iblk3 V c 1 t) (iblk3 V c 2 t)) := by
  unfold pointOuts; exact dif_pos h0

/-- of the MIDDLE case, -/
theorem pointOuts_middle (c : Dev nD) (t : Fin cfg3.N) (xA : Vec F S1024x3 .f32) (h0 : ¬t.val % 8 = 0) (h1 : ¬t.val % 8 = 7) :
    pointOuts V c t xA = (outUntouched, accAfterMiddle c (grid3.coords t) (stQ t) (stQ_whole t) (stK t) (stK_whole t) (stV t) (stV_whole t) (stO t) (stO_whole t) accM (Memref.isWhole_whole _) (fun h => h0 ((resetCond_iff t).mp h)) (fun h => h1 ((emitCond_iff t).mp h))
      (iblk3 V c 0 t) (iblk3 V c 1 t) (iblk3 V c 2 t) xA) := by
  unfold pointOuts; exact (dif_neg h0).trans (dif_neg h1)

/-- and of the LAST case. -/
theorem pointOuts_last (c : Dev nD) (t : Fin cfg3.N) (xA : Vec F S1024x3 .f32) (h0 : ¬t.val % 8 = 0) (h1 : t.val % 8 = 7) :
    pointOuts V c t xA = (outAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA,
     accAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA) := by
  unfold pointOuts; exact (dif_neg h0).trans (dif_pos h1)

/-! ## The region invariant, tracking the accumulator -/

/-- The region invariant before position `n`: before the first point what the launch hands the region (every scoped
    buffer that is no staging buffer at anything, the generator register at some state); afterwards the accumulator at
    what the point before left in it, every other such buffer unopened, and the generator register at some state. -/
def accInv (c : Dev nD) : (n : ℕ) → n ≤ cfg3.N → sProp 𝕄
  | 0, _ => Pipeline.ΦA spec3 c
  | n + 1, hn => iprop(iprop(iprop(owns (c : Thread nD τ) accM fullShare ((outsAt3 V c n hn).2))
      ∗ Pipeline.scopedRestBut (Ix := Unit) (Name := ℕ) (U := UR sig nD τ) (Lvl := ℕ) (Val := Elt F) spec3 c [cc3_scratch0])
      ∗ (∃ r, prngReg c r))

theorem accInv_zero (c : Dev nD) (n : ℕ) (h : n ≤ cfg3.N) (hz : n = 0) : accInv V c n h = Pipeline.ΦA spec3 c := by
  subst hz; rfl

theorem accInv_succ (c : Dev nD) (n : ℕ) (hn : n < cfg3.N) :
    accInv V c (n + 1) hn = iprop(iprop(iprop(owns (c : Thread nD τ) accM fullShare ((outsAt3 V c n hn).2))
      ∗ Pipeline.scopedRestBut (Ix := Unit) (Name := ℕ) (U := UR sig nD τ) (Lvl := ℕ) (Val := Elt F) spec3 c [cc3_scratch0])
      ∗ (∃ r, prngReg c r)) := rfl

theorem accInv_pos (c : Dev nD) (n : ℕ) (h : n ≤ cfg3.N) (hz : n ≠ 0) :
    accInv V c n h = iprop(iprop(iprop(owns (c : Thread nD τ) accM fullShare ((outsAt3 V c (n - 1) (by omega)).2))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-! ## The pipeline's proof data -/

/-- The proof data of the attention pipeline on core `c`: the arrays as the region finds them (`V`); after the body
    at point `t` the Q, K, V buffers at their blocks and the output buffer at `outsAt3`'s first component; the invariant
    `accInv`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := accInv V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem accInv_castSucc (c : Dev nD) (t : Fin cfg3.N) :
    (dat3 V c).Φ t.castSucc = accInv V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  beforeQ_of V (dat3 V c) (A_eq3 V c 0) (after3_0 V c) t d
theorem before3_1 (c : Dev nD) (t : Fin cfg3.N) (d) : (dat3 V c).before 1 t d = iblk3 V c 1 t :=
  beforeK_of V (dat3 V c) (A_eq3 V c 1) (after3_1 V c) t d
theorem before3_2 (c : Dev nD) (t : Fin cfg3.N) (d) : (dat3 V c).before 2 t d = iblk3 V c 2 t :=
  beforeV_of V (dat3 V c) (A_eq3 V c 2) (after3_2 V c) t d

/-! ## The body obligation, at a generic point -/

/-- What the body is called with at point `t` (the library's body obligation's precondition, window by window), -/
def bodyPre3 (c : Dev nD) (t : Fin cfg3.N) : sProp 𝕄 :=
  iprop((dat3 V c).Φ t.castSucc ∗ (dat3 V c).owesAt () t.castSucc
    ∗ (∃ d, owns (c : Thread nD τ) (stQ t) fullShare ((dat3 V c).before 0 t d))
    ∗ (∃ d, owns (c : Thread nD τ) (stK t) fullShare ((dat3 V c).before 1 t d))
    ∗ (∃ d, owns (c : Thread nD τ) (stV t) fullShare ((dat3 V c).before 2 t d))
    ∗ (∃ d, owns (c : Thread nD τ) (stO t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The Q, K, V memrefs hold their blocks; the inner coordinate says which case the point is
    in, and that case's run applies. The invariant hands the body the accumulator at what the point before left (at
    anything before the first point), every other scoped buffer and the generator register untouched, and takes the
    accumulator back at this point's contents (the case's pieces cover it). In the FIRST and MIDDLE cases the output
    tile is idle and handed back as found; in the LAST case it is taken back at the copy of the accumulator. The core
    owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = accInv V c (t.val + 1) t.isLt from rfl, accInv_succ]
  rw [show (dat3 V c).leavesExact 0 t = owns (c : Thread nD τ) (stQ t) fullShare ((dat3 V c).after 0 t) from by
    unfold Dat.leavesExact; rw [inLive_Q t], after3_0]
  rw [show (dat3 V c).leavesExact 1 t = owns (c : Thread nD τ) (stK t) fullShare ((dat3 V c).after 1 t) from by
    unfold Dat.leavesExact; rw [inLive_K t], after3_1]
  rw [show (dat3 V c).leavesExact 2 t = owns (c : Thread nD τ) (stV t) fullShare ((dat3 V c).after 2 t) from by
    unfold Dat.leavesExact; rw [inLive_V t], after3_2]
  by_cases h0 : t.val % 8 = 0
  · have h1 : ¬t.val % 8 = 7 := by omega
    rw [Dat.leavesExact_idle (dat3 V c) 3 t (outIdle_first t ((resetCond_iff t).mpr h0) (fun h => h1 ((emitCond_iff t).mp h))) (outKept_first t ((resetCond_iff t).mpr h0) (fun h => h1 ((emitCond_iff t).mp h)))]
    by_cases hz : t.val = 0
    · rw [outsAt3_zero V c t hz, pointOuts_first V c t _ h0 h1]
      unfold accAfterFirst; (try dsimp only)
      rw [accInv_castSucc V c t, accInv_zero V c _ _ hz, regionInv_split]
      iintro ⟨⟨⟨HA, Hrest⟩, Hg⟩, Ho, ⟨%d0, H0⟩, ⟨%d1, H1⟩, ⟨%d2, H2⟩, ⟨%d3, H3⟩⟩
      iapply ((runFirst c (grid3.coords t) _ _ _ _ _ _ _ _ _ _ ((resetCond_iff t).mpr h0) (fun h => h1 ((emitCond_iff t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [outsAt3_pos V c t hz, pointOuts_first V c t _ h0 h1]
      unfold accAfterFirst; (try dsimp only)
      rw [accInv_castSucc V c t, accInv_pos V c _ _ hz]
      iintro ⟨⟨⟨HA, Hrest⟩, Hg⟩, Ho, ⟨%d0, H0⟩, ⟨%d1, H1⟩, ⟨%d2, H2⟩, ⟨%d3, H3⟩⟩
      iapply ((runFirst c (grid3.coords t) _ _ _ _ _ _ _ _ _ _ ((resetCond_iff t).mpr h0) (fun h => h1 ((emitCond_iff t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat3 V c).leavesExact 3 t = owns (c : Thread nD τ) (stO t) fullShare ((dat3 V c).after 3 t) from by
        unfold Dat.leavesExact; rw [outLive_last t (fun h => h0 ((resetCond_iff t).mp h)) ((emitCond_iff t).mpr h1)], after3_3]
      rw [outsAt3_pos V c t hz, pointOuts_last V c t _ h0 h1]
      unfold outAfterLast accAfterLast; (try dsimp only)
      rw [accInv_castSucc V c t, accInv_pos V c _ _ hz]
      iintro ⟨⟨⟨HA, Hrest⟩, Hg⟩, Ho, ⟨%d0, H0⟩, ⟨%d1, H1⟩, ⟨%d2, H2⟩, ⟨%d3, H3⟩⟩
      iapply ((runLast c (grid3.coords t) _ _ _ _ _ _ _ _ _ _ (fun h => h0 ((resetCond_iff t).mp h)) ((emitCond_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · rw [Dat.leavesExact_idle (dat3 V c) 3 t (outIdle_middle t (fun h => h0 ((resetCond_iff t).mp h)) (fun h => h1 ((emitCond_iff t).mp h))) (outKept_middle t (fun h => h0 ((resetCond_iff t).mp h)) (fun h => h1 ((emitCond_iff t).mp h)))]
      rw [outsAt3_pos V c t hz, pointOuts_middle V c t _ h0 h1]
      unfold accAfterMiddle; (try dsimp only)
      rw [accInv_castSucc V c t, accInv_pos V c _ _ hz]
      iintro ⟨⟨⟨HA, Hrest⟩, Hg⟩, Ho, ⟨%d0, H0⟩, ⟨%d1, H1⟩, ⟨%d2, H2⟩, ⟨%d3, H3⟩⟩
      iapply ((runMiddle c (grid3.coords t) _ _ _ _ _ _ _ _ _ _ (fun h => h0 ((resetCond_iff t).mp h)) (fun h => h1 ((emitCond_iff t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_middle c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = accInv V c 0 (Nat.zero_le _) from rfl, accInv_zero V c 0 _ rfl]
  try exact Idealize.SL.BI.Entails.refl _

/-- After any point the invariant gives back what the launch handed over: the accumulator's named contents are
    forgotten. -/
theorem accInv_out (c : Dev nD) (t : Fin (cfg3.N + 1)) (ht : t.val ≠ 0) : (dat3 V c).Φ t ⊢ Pipeline.ΦA spec3 c := by
  rw [show (dat3 V c).Φ t = accInv V c t.val (Nat.le_of_lt_succ t.isLt) from rfl, accInv_pos V c _ _ ht, regionInv_split]
  iintro ⟨⟨HA, Hrest⟩, Hg⟩
  isplitl [HA Hrest]
  · isplitl [HA]
    · iexists _; iexact HA
    iexact Hrest
  iexact Hg

/-- The same after the last point. -/
theorem hout3 (c : Dev nD) : (dat3 V c).Φ (Fin.last cfg3.N) ⊢ Pipeline.ΦA spec3 c :=
  accInv_out V c _ (by rw [Fin.val_last]; have : cfg3.N = 64 := N_3; omega)

/-! ## What the accumulator and the output tile hold, in closed form over the payloads -/

/-- At a point that resets the accumulator (inner coordinate 0) it ends at the sum's payload over the point's Q, K, V
    blocks and the zero fill. -/
theorem outsAt3_scratch_first (c : Dev nD) (t : Fin cfg3.N) (h : t.val % 8 = 0) :
    (outsAt3 V c t.val t.isLt).2 = k3_pay2 (iblk3 V c 0 t) (iblk3 V c 1 t) (iblk3 V c 2 t) k3_pay1 := by
  have h1 : ¬t.val % 8 = 7 := by omega
  by_cases hz : t.val = 0
  · rw [outsAt3_zero V c t hz, pointOuts_first V c t _ h h1]; dsimp only
    exact accAfterFirst_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t)
  · rw [outsAt3_pos V c t hz, pointOuts_first V c t _ h h1]; dsimp only
    exact accAfterFirst_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t)

/-- At any other point it ends at the sum's payload over the point's blocks and what the point before left. -/
theorem outsAt3_scratch_next (c : Dev nD) (t : Fin cfg3.N) (h : t.val % 8 ≠ 0) :
    (outsAt3 V c t.val t.isLt).2 = k3_pay2 (iblk3 V c 0 t) (iblk3 V c 1 t) (iblk3 V c 2 t)
      (outsAt3 V c (t.val - 1) (Nat.lt_of_le_of_lt (Nat.sub_le _ _) t.isLt)).2 := by
  have hz : t.val ≠ 0 := by omega
  by_cases h1 : t.val % 8 = 7
  · rw [outsAt3_pos V c t hz, pointOuts_last V c t _ h h1]; dsimp only
    exact accAfterLast_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _
  · rw [outsAt3_pos V c t hz, pointOuts_middle V c t _ h h1]; dsimp only
    exact accAfterMiddle_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _

/-- At a point that copies the accumulator out (inner coordinate 7) the output tile ends at the accumulator's new
    contents. -/
theorem outsAt3_out_last (c : Dev nD) (t : Fin cfg3.N) (h : t.val % 8 = 7) :
    (outsAt3 V c t.val t.isLt).1 = (outsAt3 V c t.val t.isLt).2 := by
  have h0 : ¬t.val % 8 = 0 := by omega
  have hz : t.val ≠ 0 := by omega
  rw [outsAt3_pos V c t hz, pointOuts_last V c t _ h0 h]; dsimp only
  exact (outAfterLast_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _).trans
    (accAfterLast_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _).symm

end

end Cert.Kernel.Hand

end
-- ==== Proof.KRunW.lean ====
/-
  The run of the program's four kernel regions, in order: three sine networks, then the attention.

  Between two regions a core's unscoped buffers hold the launch contents with each finished region's arrays replaced by what its
  write-backs left (`W0` … `W4`). Each region is entered from those buffers beside the generator register and leaves them at
  the next contents; the attention region also tracks its accumulator, which it takes out of the scoped buffers and gives back.
  Read against a final state, the fold gives the frame (`frame`: no region writes an argument) and the result array as
  the attention region's final contents (`run_value`).
-/
import proofs.«178031_j19344532702252_1_alg».proof.Proof.Gen.Kernel.Launch
import proofs.«178031_j19344532702252_1_alg».proof.Proof.Gen.Kernel.Skeleton
import proofs.«178031_j19344532702252_1_alg».proof.Proof.Gen.Kernel.Points
import proofs.«178031_j19344532702252_1_alg».proof.Proof.MlpRegion0W
import proofs.«178031_j19344532702252_1_alg».proof.Proof.MlpRegion1W
import proofs.«178031_j19344532702252_1_alg».proof.Proof.MlpRegion2W
import proofs.«178031_j19344532702252_1_alg».proof.Proof.AttnRegionW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the four regions

## What the unscoped buffers hold between two regions -/

/-- Core `c`'s buffers at launch: what the first network's region is entered from. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- After region 0: its arrays at what its write-backs leave, every other buffer as it was entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After region 1: its arrays at what its write-backs leave, every other buffer as it was entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- After region 2: its arrays at what its write-backs leave, every other buffer as it was entered. -/
def W3 (c : Dev nD) : Valuation τ sig (Elt F) :=
  Pipeline.withArrays spec2 c (W2 m ρ c) fun w => (dat2 (E2 m ρ) c).arrAt w cfg2.N
theorem W3_arr (c : Dev nD) (w : Fin cfg2.W) :
    W3 m ρ c (Proc.devRef .tc (Pipeline.arrRef spec2 w)) = (dat2 (E2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev E3 : (c : Dev nD) → (b : Ref sig .tc) → Buf (Elt F) ((c : Thread nD τ).loc b) := fun c b => W3 m ρ c b
theorem hF2 (c : Dev nD) (w : Fin cfg2.W) : (dat2 (E2 m ρ) c).arrAt w cfg2.N = E3 m ρ c (Pipeline.arrRef spec2 w) :=
  (W3_arr m ρ c w).symm
theorem hrest2 (c : Dev nD) : ∀ b, b ∉ Finset.univ.image (Pipeline.arrRef spec2) → E3 m ρ c b = E2 m ρ c b :=
  fun b hb => W3_of_ne m ρ c b fun w e => hb (Finset.mem_image.mpr ⟨w, Finset.mem_univ _, e⟩)

/-- After region 3: its arrays at what its write-backs leave, every other buffer as it was entered. -/
def W4 (c : Dev nD) : Valuation τ sig (Elt F) :=
  Pipeline.withArrays spec3 c (W3 m ρ c) fun w => (dat3 (E3 m ρ) c).arrAt w cfg3.N
theorem W4_arr (c : Dev nD) (w : Fin cfg3.W) :
    W4 m ρ c (Proc.devRef .tc (Pipeline.arrRef spec3 w)) = (dat3 (E3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev E4 : (c : Dev nD) → (b : Ref sig .tc) → Buf (Elt F) ((c : Thread nD τ).loc b) := fun c b => W4 m ρ c b
theorem hF3 (c : Dev nD) (w : Fin cfg3.W) : (dat3 (E3 m ρ) c).arrAt w cfg3.N = E4 m ρ c (Pipeline.arrRef spec3 w) :=
  (W4_arr m ρ c w).symm
theorem hrest3 (c : Dev nD) : ∀ b, b ∉ Finset.univ.image (Pipeline.arrRef spec3) → E4 m ρ c b = E3 m ρ c b :=
  fun b hb => W4_of_ne m ρ c b fun w e => hb (Finset.mem_image.mpr ⟨w, Finset.mem_univ _, e⟩)

/-! ## The proof data of the four pipelines, each at its region's entry contents -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
abbrev 𝒱₀ : Variants := Variants.none
abbrev L : GSem nD τ sig → Finset Unit := fun _ => ∅
abbrev lv : GSem nD τ sig → Unit → ℕ := fun _ _ => 0
/-- What rides beside the buffers between regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 between the buffer contents before and after it: its arrays taken out of the unscoped buffers and put
    back at what the pipeline leaves; the generator register lent to the region's invariant and returned. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the buffer contents before and after it: its arrays taken out of the unscoped buffers and put
    back at what the pipeline leaves; the generator register lent to the region's invariant and returned. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the buffer contents before and after it: its arrays taken out of the unscoped buffers and put
    back at what the pipeline leaves; the generator register lent to the region's invariant and returned. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the buffer contents before and after it: its arrays taken out of the unscoped buffers and put
    back at what the pipeline leaves; the generator register lent to the region's invariant and returned. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec3 c ∗ ∃ r, prngReg c r) : sProp 𝕄)
        ⊢ (pdats m ρ 3 c).Φ 0 := by
      have h' := hin3 (E3 m ρ) c; unfold Pipeline.ΦA at h'; exact h'
    iintro ⟨Hp, -, Hr⟩
    iapply h
    isplitl [Hr]; · iexact Hr
    iexact Hp
  hout c := by
    rw [Pipeline.ownSems0_none]
    have h : (pdats m ρ 3 c).Φ (Fin.last _)
        ⊢ (iprop(Pipeline.scopedRest (Ix := Unit) (Name := ℕ) (U := UR sig nD τ) (Lvl := ℕ) (Val := Elt F) spec3 c ∗ ∃ r, prngReg c r) : sProp 𝕄) := by
      have h' := hout3 (E3 m ρ) c; unfold Pipeline.ΦA at h'; exact h'
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (E4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four regions, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- Every weakly fair execution of @main from `m` terminates, nothing faulting, and in every final state each unscoped
    buffer of a core holds what the fold over the four regions says (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## Reading the fold

No region writes an argument: a region stages it through an input window, whose array ends as it was entered, or does
not touch it. -/
theorem W1_main_arg0 (c : Dev nD) : W1 m ρ c (Proc.devRef .tc main_arg0) = m ((c : Thread nD τ).loc main_arg0) :=
  ((W1_arr m ρ c 0).trans (((dat0 (E0 m ρ) c).arrAt_in 0 rfl _).trans (A_eq0 (E0 m ρ) c 0))).trans rfl
theorem W2_main_arg0 (c : Dev nD) : W2 m ρ c (Proc.devRef .tc main_arg0) = m ((c : Thread nD τ).loc main_arg0) :=
  (W2_of_ne m ρ c main_arg0 (by decide)).trans <| ((W1_arr m ρ c 0).trans (((dat0 (E0 m ρ) c).arrAt_in 0 rfl _).trans (A_eq0 (E0 m ρ) c 0))).trans rfl
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <| ((W1_arr m ρ c 0).trans (((dat0 (E0 m ρ) c).arrAt_in 0 rfl _).trans (A_eq0 (E0 m ρ) c 0))).trans rfl
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_of_ne m ρ c main_arg0 (by decide)).trans <| ((W1_arr m ρ c 0).trans (((dat0 (E0 m ρ) c).arrAt_in 0 rfl _).trans (A_eq0 (E0 m ρ) c 0))).trans rfl
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  ((W2_arr m ρ c 0).trans (((dat1 (E1 m ρ) c).arrAt_in 0 rfl _).trans (A_eq1 (E1 m ρ) c 0))).trans <| (W1_of_ne m ρ c main_arg1 (by decide)).trans rfl
theorem W3_main_arg1 (c : Dev nD) : W3 m ρ c (Proc.devRef .tc main_arg1) = m ((c : Thread nD τ).loc main_arg1) :=
  ((W3_arr m ρ c 0).trans (((dat2 (E2 m ρ) c).arrAt_in 0 rfl _).trans (A_eq2 (E2 m ρ) c 0))).trans <| ((W2_arr m ρ c 0).trans (((dat1 (E1 m ρ) c).arrAt_in 0 rfl _).trans (A_eq1 (E1 m ρ) c 0))).trans <| (W1_of_ne m ρ c main_arg1 (by decide)).trans rfl
theorem W4_main_arg1 (c : Dev nD) : W4 m ρ c (Proc.devRef .tc main_arg1) = m ((c : Thread nD τ).loc main_arg1) :=
  (W4_of_ne m ρ c main_arg1 (by decide)).trans <| ((W3_arr m ρ c 0).trans (((dat2 (E2 m ρ) c).arrAt_in 0 rfl _).trans (A_eq2 (E2 m ρ) c 0))).trans <| ((W2_arr m ρ c 0).trans (((dat1 (E1 m ρ) c).arrAt_in 0 rfl _).trans (A_eq1 (E1 m ρ) c 0))).trans <| (W1_of_ne m ρ c main_arg1 (by decide)).trans rfl
theorem W1_main_arg2 (c : Dev nD) : W1 m ρ c (Proc.devRef .tc main_arg2) = m ((c : Thread nD τ).loc main_arg2) :=
  ((W1_arr m ρ c 1).trans (((dat0 (E0 m ρ) c).arrAt_in 1 rfl _).trans (A_eq0 (E0 m ρ) c 1))).trans rfl
theorem W2_main_arg2 (c : Dev nD) : W2 m ρ c (Proc.devRef .tc main_arg2) = m ((c : Thread nD τ).loc main_arg2) :=
  (W2_of_ne m ρ c main_arg2 (by decide)).trans <| ((W1_arr m ρ c 1).trans (((dat0 (E0 m ρ) c).arrAt_in 1 rfl _).trans (A_eq0 (E0 m ρ) c 1))).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| ((W1_arr m ρ c 1).trans (((dat0 (E0 m ρ) c).arrAt_in 1 rfl _).trans (A_eq0 (E0 m ρ) c 1))).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_of_ne m ρ c main_arg2 (by decide)).trans <| ((W1_arr m ρ c 1).trans (((dat0 (E0 m ρ) c).arrAt_in 1 rfl _).trans (A_eq0 (E0 m ρ) c 1))).trans rfl
theorem W1_main_arg3 (c : Dev nD) : W1 m ρ c (Proc.devRef .tc main_arg3) = m ((c : Thread nD τ).loc main_arg3) :=
  ((W1_arr m ρ c 2).trans (((dat0 (E0 m ρ) c).arrAt_in 2 rfl _).trans (A_eq0 (E0 m ρ) c 2))).trans rfl
theorem W2_main_arg3 (c : Dev nD) : W2 m ρ c (Proc.devRef .tc main_arg3) = m ((c : Thread nD τ).loc main_arg3) :=
  (W2_of_ne m ρ c main_arg3 (by decide)).trans <| ((W1_arr m ρ c 2).trans (((dat0 (E0 m ρ) c).arrAt_in 2 rfl _).trans (A_eq0 (E0 m ρ) c 2))).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| ((W1_arr m ρ c 2).trans (((dat0 (E0 m ρ) c).arrAt_in 2 rfl _).trans (A_eq0 (E0 m ρ) c 2))).trans rfl
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <| (W2_of_ne m ρ c main_arg3 (by decide)).trans <| ((W1_arr m ρ c 2).trans (((dat0 (E0 m ρ) c).arrAt_in 2 rfl _).trans (A_eq0 (E0 m ρ) c 2))).trans rfl
theorem W1_main_arg4 (c : Dev nD) : W1 m ρ c (Proc.devRef .tc main_arg4) = m ((c : Thread nD τ).loc main_arg4) :=
  ((W1_arr m ρ c 3).trans (((dat0 (E0 m ρ) c).arrAt_in 3 rfl _).trans (A_eq0 (E0 m ρ) c 3))).trans rfl
theorem W2_main_arg4 (c : Dev nD) : W2 m ρ c (Proc.devRef .tc main_arg4) = m ((c : Thread nD τ).loc main_arg4) :=
  (W2_of_ne m ρ c main_arg4 (by decide)).trans <| ((W1_arr m ρ c 3).trans (((dat0 (E0 m ρ) c).arrAt_in 3 rfl _).trans (A_eq0 (E0 m ρ) c 3))).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <| ((W1_arr m ρ c 3).trans (((dat0 (E0 m ρ) c).arrAt_in 3 rfl _).trans (A_eq0 (E0 m ρ) c 3))).trans rfl
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <| (W2_of_ne m ρ c main_arg4 (by decide)).trans <| ((W1_arr m ρ c 3).trans (((dat0 (E0 m ρ) c).arrAt_in 3 rfl _).trans (A_eq0 (E0 m ρ) c 3))).trans rfl
theorem W1_main_arg5 (c : Dev nD) : W1 m ρ c (Proc.devRef .tc main_arg5) = m ((c : Thread nD τ).loc main_arg5) :=
  ((W1_arr m ρ c 4).trans (((dat0 (E0 m ρ) c).arrAt_in 4 rfl _).trans (A_eq0 (E0 m ρ) c 4))).trans rfl
theorem W2_main_arg5 (c : Dev nD) : W2 m ρ c (Proc.devRef .tc main_arg5) = m ((c : Thread nD τ).loc main_arg5) :=
  (W2_of_ne m ρ c main_arg5 (by decide)).trans <| ((W1_arr m ρ c 4).trans (((dat0 (E0 m ρ) c).arrAt_in 4 rfl _).trans (A_eq0 (E0 m ρ) c 4))).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <| ((W1_arr m ρ c 4).trans (((dat0 (E0 m ρ) c).arrAt_in 4 rfl _).trans (A_eq0 (E0 m ρ) c 4))).trans rfl
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <| (W2_of_ne m ρ c main_arg5 (by decide)).trans <| ((W1_arr m ρ c 4).trans (((dat0 (E0 m ρ) c).arrAt_in 4 rfl _).trans (A_eq0 (E0 m ρ) c 4))).trans rfl
theorem W1_main_arg6 (c : Dev nD) : W1 m ρ c (Proc.devRef .tc main_arg6) = m ((c : Thread nD τ).loc main_arg6) :=
  ((W1_arr m ρ c 5).trans (((dat0 (E0 m ρ) c).arrAt_in 5 rfl _).trans (A_eq0 (E0 m ρ) c 5))).trans rfl
theorem W2_main_arg6 (c : Dev nD) : W2 m ρ c (Proc.devRef .tc main_arg6) = m ((c : Thread nD τ).loc main_arg6) :=
  (W2_of_ne m ρ c main_arg6 (by decide)).trans <| ((W1_arr m ρ c 5).trans (((dat0 (E0 m ρ) c).arrAt_in 5 rfl _).trans (A_eq0 (E0 m ρ) c 5))).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| ((W1_arr m ρ c 5).trans (((dat0 (E0 m ρ) c).arrAt_in 5 rfl _).trans (A_eq0 (E0 m ρ) c 5))).trans rfl
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <| (W2_of_ne m ρ c main_arg6 (by decide)).trans <| ((W1_arr m ρ c 5).trans (((dat0 (E0 m ρ) c).arrAt_in 5 rfl _).trans (A_eq0 (E0 m ρ) c 5))).trans rfl
theorem W1_main_arg7 (c : Dev nD) : W1 m ρ c (Proc.devRef .tc main_arg7) = m ((c : Thread nD τ).loc main_arg7) :=
  ((W1_arr m ρ c 6).trans (((dat0 (E0 m ρ) c).arrAt_in 6 rfl _).trans (A_eq0 (E0 m ρ) c 6))).trans rfl
theorem W2_main_arg7 (c : Dev nD) : W2 m ρ c (Proc.devRef .tc main_arg7) = m ((c : Thread nD τ).loc main_arg7) :=
  (W2_of_ne m ρ c main_arg7 (by decide)).trans <| ((W1_arr m ρ c 6).trans (((dat0 (E0 m ρ) c).arrAt_in 6 rfl _).trans (A_eq0 (E0 m ρ) c 6))).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <| ((W1_arr m ρ c 6).trans (((dat0 (E0 m ρ) c).arrAt_in 6 rfl _).trans (A_eq0 (E0 m ρ) c 6))).trans rfl
theorem W4_main_arg7 (c : Dev nD) : W4 m ρ c (Proc.devRef .tc main_arg7) = m ((c : Thread nD τ).loc main_arg7) :=
  (W4_of_ne m ρ c main_arg7 (by decide)).trans <| (W3_of_ne m ρ c main_arg7 (by decide)).trans <| (W2_of_ne m ρ c main_arg7 (by decide)).trans <| ((W1_arr m ρ c 6).trans (((dat0 (E0 m ρ) c).arrAt_in 6 rfl _).trans (A_eq0 (E0 m ρ) c 6))).trans rfl
theorem W1_main_arg8 (c : Dev nD) : W1 m ρ c (Proc.devRef .tc main_arg8) = m ((c : Thread nD τ).loc main_arg8) :=
  (W1_of_ne m ρ c main_arg8 (by decide)).trans rfl
theorem W2_main_arg8 (c : Dev nD) : W2 m ρ c (Proc.devRef .tc main_arg8) = m ((c : Thread nD τ).loc main_arg8) :=
  ((W2_arr m ρ c 1).trans (((dat1 (E1 m ρ) c).arrAt_in 1 rfl _).trans (A_eq1 (E1 m ρ) c 1))).trans <| (W1_of_ne m ρ c main_arg8 (by decide)).trans rfl
theorem W3_main_arg8 (c : Dev nD) : W3 m ρ c (Proc.devRef .tc main_arg8) = m ((c : Thread nD τ).loc main_arg8) :=
  (W3_of_ne m ρ c main_arg8 (by decide)).trans <| ((W2_arr m ρ c 1).trans (((dat1 (E1 m ρ) c).arrAt_in 1 rfl _).trans (A_eq1 (E1 m ρ) c 1))).trans <| (W1_of_ne m ρ c main_arg8 (by decide)).trans rfl
theorem W4_main_arg8 (c : Dev nD) : W4 m ρ c (Proc.devRef .tc main_arg8) = m ((c : Thread nD τ).loc main_arg8) :=
  (W4_of_ne m ρ c main_arg8 (by decide)).trans <| (W3_of_ne m ρ c main_arg8 (by decide)).trans <| ((W2_arr m ρ c 1).trans (((dat1 (E1 m ρ) c).arrAt_in 1 rfl _).trans (A_eq1 (E1 m ρ) c 1))).trans <| (W1_of_ne m ρ c main_arg8 (by decide)).trans rfl
theorem W1_main_arg9 (c : Dev nD) : W1 m ρ c (Proc.devRef .tc main_arg9) = m ((c : Thread nD τ).loc main_arg9) :=
  (W1_of_ne m ρ c main_arg9 (by decide)).trans rfl
theorem W2_main_arg9 (c : Dev nD) : W2 m ρ c (Proc.devRef .tc main_arg9) = m ((c : Thread nD τ).loc main_arg9) :=
  ((W2_arr m ρ c 2).trans (((dat1 (E1 m ρ) c).arrAt_in 2 rfl _).trans (A_eq1 (E1 m ρ) c 2))).trans <| (W1_of_ne m ρ c main_arg9 (by decide)).trans rfl
theorem W3_main_arg9 (c : Dev nD) : W3 m ρ c (Proc.devRef .tc main_arg9) = m ((c : Thread nD τ).loc main_arg9) :=
  (W3_of_ne m ρ c main_arg9 (by decide)).trans <| ((W2_arr m ρ c 2).trans (((dat1 (E1 m ρ) c).arrAt_in 2 rfl _).trans (A_eq1 (E1 m ρ) c 2))).trans <| (W1_of_ne m ρ c main_arg9 (by decide)).trans rfl
theorem W4_main_arg9 (c : Dev nD) : W4 m ρ c (Proc.devRef .tc main_arg9) = m ((c : Thread nD τ).loc main_arg9) :=
  (W4_of_ne m ρ c main_arg9 (by decide)).trans <| (W3_of_ne m ρ c main_arg9 (by decide)).trans <| ((W2_arr m ρ c 2).trans (((dat1 (E1 m ρ) c).arrAt_in 2 rfl _).trans (A_eq1 (E1 m ρ) c 2))).trans <| (W1_of_ne m ρ c main_arg9 (by decide)).trans rfl
theorem W1_main_arg10 (c : Dev nD) : W1 m ρ c (Proc.devRef .tc main_arg10) = m ((c : Thread nD τ).loc main_arg10) :=
  (W1_of_ne m ρ c main_arg10 (by decide)).trans rfl
theorem W2_main_arg10 (c : Dev nD) : W2 m ρ c (Proc.devRef .tc main_arg10) = m ((c : Thread nD τ).loc main_arg10) :=
  ((W2_arr m ρ c 3).trans (((dat1 (E1 m ρ) c).arrAt_in 3 rfl _).trans (A_eq1 (E1 m ρ) c 3))).trans <| (W1_of_ne m ρ c main_arg10 (by decide)).trans rfl
theorem W3_main_arg10 (c : Dev nD) : W3 m ρ c (Proc.devRef .tc main_arg10) = m ((c : Thread nD τ).loc main_arg10) :=
  (W3_of_ne m ρ c main_arg10 (by decide)).trans <| ((W2_arr m ρ c 3).trans (((dat1 (E1 m ρ) c).arrAt_in 3 rfl _).trans (A_eq1 (E1 m ρ) c 3))).trans <| (W1_of_ne m ρ c main_arg10 (by decide)).trans rfl
theorem W4_main_arg10 (c : Dev nD) : W4 m ρ c (Proc.devRef .tc main_arg10) = m ((c : Thread nD τ).loc main_arg10) :=
  (W4_of_ne m ρ c main_arg10 (by decide)).trans <| (W3_of_ne m ρ c main_arg10 (by decide)).trans <| ((W2_arr m ρ c 3).trans (((dat1 (E1 m ρ) c).arrAt_in 3 rfl _).trans (A_eq1 (E1 m ρ) c 3))).trans <| (W1_of_ne m ρ c main_arg10 (by decide)).trans rfl
theorem W1_main_arg11 (c : Dev nD) : W1 m ρ c (Proc.devRef .tc main_arg11) = m ((c : Thread nD τ).loc main_arg11) :=
  (W1_of_ne m ρ c main_arg11 (by decide)).trans rfl
theorem W2_main_arg11 (c : Dev nD) : W2 m ρ c (Proc.devRef .tc main_arg11) = m ((c : Thread nD τ).loc main_arg11) :=
  ((W2_arr m ρ c 4).trans (((dat1 (E1 m ρ) c).arrAt_in 4 rfl _).trans (A_eq1 (E1 m ρ) c 4))).trans <| (W1_of_ne m ρ c main_arg11 (by decide)).trans rfl
theorem W3_main_arg11 (c : Dev nD) : W3 m ρ c (Proc.devRef .tc main_arg11) = m ((c : Thread nD τ).loc main_arg11) :=
  (W3_of_ne m ρ c main_arg11 (by decide)).trans <| ((W2_arr m ρ c 4).trans (((dat1 (E1 m ρ) c).arrAt_in 4 rfl _).trans (A_eq1 (E1 m ρ) c 4))).trans <| (W1_of_ne m ρ c main_arg11 (by decide)).trans rfl
theorem W4_main_arg11 (c : Dev nD) : W4 m ρ c (Proc.devRef .tc main_arg11) = m ((c : Thread nD τ).loc main_arg11) :=
  (W4_of_ne m ρ c main_arg11 (by decide)).trans <| (W3_of_ne m ρ c main_arg11 (by decide)).trans <| ((W2_arr m ρ c 4).trans (((dat1 (E1 m ρ) c).arrAt_in 4 rfl _).trans (A_eq1 (E1 m ρ) c 4))).trans <| (W1_of_ne m ρ c main_arg11 (by decide)).trans rfl
theorem W1_main_arg12 (c : Dev nD) : W1 m ρ c (Proc.devRef .tc main_arg12) = m ((c : Thread nD τ).loc main_arg12) :=
  (W1_of_ne m ρ c main_arg12 (by decide)).trans rfl
theorem W2_main_arg12 (c : Dev nD) : W2 m ρ c (Proc.devRef .tc main_arg12) = m ((c : Thread nD τ).loc main_arg12) :=
  ((W2_arr m ρ c 5).trans (((dat1 (E1 m ρ) c).arrAt_in 5 rfl _).trans (A_eq1 (E1 m ρ) c 5))).trans <| (W1_of_ne m ρ c main_arg12 (by decide)).trans rfl
theorem W3_main_arg12 (c : Dev nD) : W3 m ρ c (Proc.devRef .tc main_arg12) = m ((c : Thread nD τ).loc main_arg12) :=
  (W3_of_ne m ρ c main_arg12 (by decide)).trans <| ((W2_arr m ρ c 5).trans (((dat1 (E1 m ρ) c).arrAt_in 5 rfl _).trans (A_eq1 (E1 m ρ) c 5))).trans <| (W1_of_ne m ρ c main_arg12 (by decide)).trans rfl
theorem W4_main_arg12 (c : Dev nD) : W4 m ρ c (Proc.devRef .tc main_arg12) = m ((c : Thread nD τ).loc main_arg12) :=
  (W4_of_ne m ρ c main_arg12 (by decide)).trans <| (W3_of_ne m ρ c main_arg12 (by decide)).trans <| ((W2_arr m ρ c 5).trans (((dat1 (E1 m ρ) c).arrAt_in 5 rfl _).trans (A_eq1 (E1 m ρ) c 5))).trans <| (W1_of_ne m ρ c main_arg12 (by decide)).trans rfl
theorem W1_main_arg13 (c : Dev nD) : W1 m ρ c (Proc.devRef .tc main_arg13) = m ((c : Thread nD τ).loc main_arg13) :=
  (W1_of_ne m ρ c main_arg13 (by decide)).trans rfl
theorem W2_main_arg13 (c : Dev nD) : W2 m ρ c (Proc.devRef .tc main_arg13) = m ((c : Thread nD τ).loc main_arg13) :=
  ((W2_arr m ρ c 6).trans (((dat1 (E1 m ρ) c).arrAt_in 6 rfl _).trans (A_eq1 (E1 m ρ) c 6))).trans <| (W1_of_ne m ρ c main_arg13 (by decide)).trans rfl
theorem W3_main_arg13 (c : Dev nD) : W3 m ρ c (Proc.devRef .tc main_arg13) = m ((c : Thread nD τ).loc main_arg13) :=
  (W3_of_ne m ρ c main_arg13 (by decide)).trans <| ((W2_arr m ρ c 6).trans (((dat1 (E1 m ρ) c).arrAt_in 6 rfl _).trans (A_eq1 (E1 m ρ) c 6))).trans <| (W1_of_ne m ρ c main_arg13 (by decide)).trans rfl
theorem W4_main_arg13 (c : Dev nD) : W4 m ρ c (Proc.devRef .tc main_arg13) = m ((c : Thread nD τ).loc main_arg13) :=
  (W4_of_ne m ρ c main_arg13 (by decide)).trans <| (W3_of_ne m ρ c main_arg13 (by decide)).trans <| ((W2_arr m ρ c 6).trans (((dat1 (E1 m ρ) c).arrAt_in 6 rfl _).trans (A_eq1 (E1 m ρ) c 6))).trans <| (W1_of_ne m ρ c main_arg13 (by decide)).trans rfl
theorem W1_main_arg14 (c : Dev nD) : W1 m ρ c (Proc.devRef .tc main_arg14) = m ((c : Thread nD τ).loc main_arg14) :=
  (W1_of_ne m ρ c main_arg14 (by decide)).trans rfl
theorem W2_main_arg14 (c : Dev nD) : W2 m ρ c (Proc.devRef .tc main_arg14) = m ((c : Thread nD τ).loc main_arg14) :=
  (W2_of_ne m ρ c main_arg14 (by decide)).trans <| (W1_of_ne m ρ c main_arg14 (by decide)).trans rfl
theorem W3_main_arg14 (c : Dev nD) : W3 m ρ c (Proc.devRef .tc main_arg14) = m ((c : Thread nD τ).loc main_arg14) :=
  ((W3_arr m ρ c 1).trans (((dat2 (E2 m ρ) c).arrAt_in 1 rfl _).trans (A_eq2 (E2 m ρ) c 1))).trans <| (W2_of_ne m ρ c main_arg14 (by decide)).trans <| (W1_of_ne m ρ c main_arg14 (by decide)).trans rfl
theorem W4_main_arg14 (c : Dev nD) : W4 m ρ c (Proc.devRef .tc main_arg14) = m ((c : Thread nD τ).loc main_arg14) :=
  (W4_of_ne m ρ c main_arg14 (by decide)).trans <| ((W3_arr m ρ c 1).trans (((dat2 (E2 m ρ) c).arrAt_in 1 rfl _).trans (A_eq2 (E2 m ρ) c 1))).trans <| (W2_of_ne m ρ c main_arg14 (by decide)).trans <| (W1_of_ne m ρ c main_arg14 (by decide)).trans rfl
theorem W1_main_arg15 (c : Dev nD) : W1 m ρ c (Proc.devRef .tc main_arg15) = m ((c : Thread nD τ).loc main_arg15) :=
  (W1_of_ne m ρ c main_arg15 (by decide)).trans rfl
theorem W2_main_arg15 (c : Dev nD) : W2 m ρ c (Proc.devRef .tc main_arg15) = m ((c : Thread nD τ).loc main_arg15) :=
  (W2_of_ne m ρ c main_arg15 (by decide)).trans <| (W1_of_ne m ρ c main_arg15 (by decide)).trans rfl
theorem W3_main_arg15 (c : Dev nD) : W3 m ρ c (Proc.devRef .tc main_arg15) = m ((c : Thread nD τ).loc main_arg15) :=
  ((W3_arr m ρ c 2).trans (((dat2 (E2 m ρ) c).arrAt_in 2 rfl _).trans (A_eq2 (E2 m ρ) c 2))).trans <| (W2_of_ne m ρ c main_arg15 (by decide)).trans <| (W1_of_ne m ρ c main_arg15 (by decide)).trans rfl
theorem W4_main_arg15 (c : Dev nD) : W4 m ρ c (Proc.devRef .tc main_arg15) = m ((c : Thread nD τ).loc main_arg15) :=
  (W4_of_ne m ρ c main_arg15 (by decide)).trans <| ((W3_arr m ρ c 2).trans (((dat2 (E2 m ρ) c).arrAt_in 2 rfl _).trans (A_eq2 (E2 m ρ) c 2))).trans <| (W2_of_ne m ρ c main_arg15 (by decide)).trans <| (W1_of_ne m ρ c main_arg15 (by decide)).trans rfl
theorem W1_main_arg16 (c : Dev nD) : W1 m ρ c (Proc.devRef .tc main_arg16) = m ((c : Thread nD τ).loc main_arg16) :=
  (W1_of_ne m ρ c main_arg16 (by decide)).trans rfl
theorem W2_main_arg16 (c : Dev nD) : W2 m ρ c (Proc.devRef .tc main_arg16) = m ((c : Thread nD τ).loc main_arg16) :=
  (W2_of_ne m ρ c main_arg16 (by decide)).trans <| (W1_of_ne m ρ c main_arg16 (by decide)).trans rfl
theorem W3_main_arg16 (c : Dev nD) : W3 m ρ c (Proc.devRef .tc main_arg16) = m ((c : Thread nD τ).loc main_arg16) :=
  ((W3_arr m ρ c 3).trans (((dat2 (E2 m ρ) c).arrAt_in 3 rfl _).trans (A_eq2 (E2 m ρ) c 3))).trans <| (W2_of_ne m ρ c main_arg16 (by decide)).trans <| (W1_of_ne m ρ c main_arg16 (by decide)).trans rfl
theorem W4_main_arg16 (c : Dev nD) : W4 m ρ c (Proc.devRef .tc main_arg16) = m ((c : Thread nD τ).loc main_arg16) :=
  (W4_of_ne m ρ c main_arg16 (by decide)).trans <| ((W3_arr m ρ c 3).trans (((dat2 (E2 m ρ) c).arrAt_in 3 rfl _).trans (A_eq2 (E2 m ρ) c 3))).trans <| (W2_of_ne m ρ c main_arg16 (by decide)).trans <| (W1_of_ne m ρ c main_arg16 (by decide)).trans rfl
theorem W1_main_arg17 (c : Dev nD) : W1 m ρ c (Proc.devRef .tc main_arg17) = m ((c : Thread nD τ).loc main_arg17) :=
  (W1_of_ne m ρ c main_arg17 (by decide)).trans rfl
theorem W2_main_arg17 (c : Dev nD) : W2 m ρ c (Proc.devRef .tc main_arg17) = m ((c : Thread nD τ).loc main_arg17) :=
  (W2_of_ne m ρ c main_arg17 (by decide)).trans <| (W1_of_ne m ρ c main_arg17 (by decide)).trans rfl
theorem W3_main_arg17 (c : Dev nD) : W3 m ρ c (Proc.devRef .tc main_arg17) = m ((c : Thread nD τ).loc main_arg17) :=
  ((W3_arr m ρ c 4).trans (((dat2 (E2 m ρ) c).arrAt_in 4 rfl _).trans (A_eq2 (E2 m ρ) c 4))).trans <| (W2_of_ne m ρ c main_arg17 (by decide)).trans <| (W1_of_ne m ρ c main_arg17 (by decide)).trans rfl
theorem W4_main_arg17 (c : Dev nD) : W4 m ρ c (Proc.devRef .tc main_arg17) = m ((c : Thread nD τ).loc main_arg17) :=
  (W4_of_ne m ρ c main_arg17 (by decide)).trans <| ((W3_arr m ρ c 4).trans (((dat2 (E2 m ρ) c).arrAt_in 4 rfl _).trans (A_eq2 (E2 m ρ) c 4))).trans <| (W2_of_ne m ρ c main_arg17 (by decide)).trans <| (W1_of_ne m ρ c main_arg17 (by decide)).trans rfl
theorem W1_main_arg18 (c : Dev nD) : W1 m ρ c (Proc.devRef .tc main_arg18) = m ((c : Thread nD τ).loc main_arg18) :=
  (W1_of_ne m ρ c main_arg18 (by decide)).trans rfl
theorem W2_main_arg18 (c : Dev nD) : W2 m ρ c (Proc.devRef .tc main_arg18) = m ((c : Thread nD τ).loc main_arg18) :=
  (W2_of_ne m ρ c main_arg18 (by decide)).trans <| (W1_of_ne m ρ c main_arg18 (by decide)).trans rfl
theorem W3_main_arg18 (c : Dev nD) : W3 m ρ c (Proc.devRef .tc main_arg18) = m ((c : Thread nD τ).loc main_arg18) :=
  ((W3_arr m ρ c 5).trans (((dat2 (E2 m ρ) c).arrAt_in 5 rfl _).trans (A_eq2 (E2 m ρ) c 5))).trans <| (W2_of_ne m ρ c main_arg18 (by decide)).trans <| (W1_of_ne m ρ c main_arg18 (by decide)).trans rfl
theorem W4_main_arg18 (c : Dev nD) : W4 m ρ c (Proc.devRef .tc main_arg18) = m ((c : Thread nD τ).loc main_arg18) :=
  (W4_of_ne m ρ c main_arg18 (by decide)).trans <| ((W3_arr m ρ c 5).trans (((dat2 (E2 m ρ) c).arrAt_in 5 rfl _).trans (A_eq2 (E2 m ρ) c 5))).trans <| (W2_of_ne m ρ c main_arg18 (by decide)).trans <| (W1_of_ne m ρ c main_arg18 (by decide)).trans rfl
theorem W1_main_arg19 (c : Dev nD) : W1 m ρ c (Proc.devRef .tc main_arg19) = m ((c : Thread nD τ).loc main_arg19) :=
  (W1_of_ne m ρ c main_arg19 (by decide)).trans rfl
theorem W2_main_arg19 (c : Dev nD) : W2 m ρ c (Proc.devRef .tc main_arg19) = m ((c : Thread nD τ).loc main_arg19) :=
  (W2_of_ne m ρ c main_arg19 (by decide)).trans <| (W1_of_ne m ρ c main_arg19 (by decide)).trans rfl
theorem W3_main_arg19 (c : Dev nD) : W3 m ρ c (Proc.devRef .tc main_arg19) = m ((c : Thread nD τ).loc main_arg19) :=
  ((W3_arr m ρ c 6).trans (((dat2 (E2 m ρ) c).arrAt_in 6 rfl _).trans (A_eq2 (E2 m ρ) c 6))).trans <| (W2_of_ne m ρ c main_arg19 (by decide)).trans <| (W1_of_ne m ρ c main_arg19 (by decide)).trans rfl
theorem W4_main_arg19 (c : Dev nD) : W4 m ρ c (Proc.devRef .tc main_arg19) = m ((c : Thread nD τ).loc main_arg19) :=
  (W4_of_ne m ρ c main_arg19 (by decide)).trans <| ((W3_arr m ρ c 6).trans (((dat2 (E2 m ρ) c).arrAt_in 6 rfl _).trans (A_eq2 (E2 m ρ) c 6))).trans <| (W2_of_ne m ρ c main_arg19 (by decide)).trans <| (W1_of_ne m ρ c main_arg19 (by decide)).trans rfl

/-- The three networks' results reach the attention region as their own regions left them. -/
theorem W3_main_v0 (c : Dev nD) : W3 m ρ c (Proc.devRef .tc main_v0) = (dat0 (E0 m ρ) c).arrAt 7 cfg0.N :=
  (W3_of_ne m ρ c main_v0 (by decide)).trans <| (W2_of_ne m ρ c main_v0 (by decide)).trans <| W1_arr m ρ c 7
theorem W3_main_v1 (c : Dev nD) : W3 m ρ c (Proc.devRef .tc main_v1) = (dat1 (E1 m ρ) c).arrAt 7 cfg1.N :=
  (W3_of_ne m ρ c main_v1 (by decide)).trans <| W2_arr m ρ c 7
theorem W3_main_v2 (c : Dev nD) : W3 m ρ c (Proc.devRef .tc main_v2) = (dat2 (E2 m ρ) c).arrAt 7 cfg2.N :=
  W3_arr m ρ c 7
/-- The result array ends at what the attention region's write-backs leave. -/
theorem W4_main_v3 (c : Dev nD) : W4 m ρ c (Proc.devRef .tc main_v3) = (dat3 (E3 m ρ) c).arrAt 3 cfg3.N :=
  W4_arr m ρ c 3

/-- The frame: every execution ends, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c)⟩) (run_all m ρ)

/-- The run with its result named: the result array ends at the attention region's final contents. -/
theorem run_value : θ_run defs (onTc (τ := τ) (main (F := F))) ⟨m, fun _ => 0, ρ⟩ (fun r => ∀ c : Dev nD,
      r.2.mem ((c.tc : Thread nD τ).loc main_v3) = (dat3 (E3 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v3 (by decide))).trans (W4_main_v3 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c)⟩) (run_all m ρ)

end Cert.Kernel.Hand

end
-- ==== Proof.MlpRegion0.lean ====
import proofs.«178031_j19344532702252_1_alg».proof.Proof.Gen.KernelIdeal.Launch
import proofs.«178031_j19344532702252_1_alg».proof.Proof.Gen.KernelIdeal.Skeleton
import proofs.«178031_j19344532702252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: a multilayer perceptron applied to one tile of rows, read and written in whole blocks

The region runs one body at each of 8 grid points over 8 windows. Window 0 is a tile of 1024 input rows
(1024 × 3); windows 1–6 are the whole weight and bias arrays (3 × 512 and 512 for the first layer, 3 × 512 × 512
and 3 × 512 for the three hidden layers, 512 × 512 and 512 for the last layer); window 7 is the tile of
1024 result rows (1024 × 512). The body reads every input buffer through fixed rectangles — the whole buffer,
or one hidden layer's slab of window 3 and row of window 4 —, applies the layers (an affine map followed by a
sine, the last layer affine only) and overwrites the whole output buffer once. No input buffer is written, and
nothing the output buffer held before is used.

So, at contents `V` of the arrays when the region is entered, the output buffer after the body at a point is a
closed function `out0_7` of the seven input blocks at that point, and every input buffer still reads its block.
This file states that function, proves the body's triple against it, and packages both as the pipeline's proof
data with its body obligation.
-/

-- membership of an index in a rectangle with extents 1024 and 512 recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the contents of every buffer of the core when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer reads its block at every point, whether the block was moved in at
    that point or at an earlier one with the same block index, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer reads its block at every point, whether the block was moved in at
    that point or at an earlier one with the same block index, for any proof data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer reads its block at every point, whether the block was moved in at
    that point or at an earlier one with the same block index, for any proof data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer reads its block at every point, whether the block was moved in at
    that point or at an earlier one with the same block index, for any proof data whose array is `V`'s and whose
    body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer reads its block at every point, whether the block was moved in at
    that point or at an earlier one with the same block index, for any proof data whose array is `V`'s and whose
    body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer reads its block at every point, whether the block was moved in at
    that point or at an earlier one with the same block index, for any proof data whose array is `V`'s and whose
    body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer reads its block at every point, whether the block was moved in at
    that point or at an earlier one with the same block index, for any proof data whose array is `V`'s and whose
    body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole tile of input rows. -/
abbrev rows0 : Rect S1024x3 := Rect.unit (s := S1024x3) ![0, 0] S1024x3.size inb_S1024x3_S1024x3_0_0
/-- The whole first-layer weight matrix. -/
abbrev wIn0 : Rect S3x512 := Rect.unit (s := S3x512) ![0, 0] S3x512.size inb_S3x512_S3x512_0_0
/-- The whole first-layer bias. -/
abbrev bIn0 : Rect S512 := Rect.unit (s := S512) ![0] S512.size inb_S512_S512_0
/-- The weight matrix of hidden layer 0, 1, 2: one 512 × 512 slab of window 3. -/
abbrev wHid0_0 : Rect S3x512x512 := Rect.unit (s := S3x512x512) ![0, 0, 0] S1x512x512.size inb_S3x512x512_S1x512x512_0_0_0
abbrev wHid0_1 : Rect S3x512x512 := Rect.unit (s := S3x512x512) ![1, 0, 0] S1x512x512.size inb_S3x512x512_S1x512x512_1_0_0
abbrev wHid0_2 : Rect S3x512x512 := Rect.unit (s := S3x512x512) ![2, 0, 0] S1x512x512.size inb_S3x512x512_S1x512x512_2_0_0
/-- The bias of hidden layer 0, 1, 2: one row of window 4. -/
abbrev bHid0_0 : Rect S3x512 := Rect.unit (s := S3x512) ![0, 0] S1x512.size inb_S3x512_S1x512_0_0
abbrev bHid0_1 : Rect S3x512 := Rect.unit (s := S3x512) ![1, 0] S1x512.size inb_S3x512_S1x512_1_0
abbrev bHid0_2 : Rect S3x512 := Rect.unit (s := S3x512) ![2, 0] S1x512.size inb_S3x512_S1x512_2_0
/-- The whole last-layer weight matrix. -/
abbrev wOut0 : Rect S512x512 := Rect.unit (s := S512x512) ![0, 0] S512x512.size inb_S512x512_S512x512_0_0
/-- The whole last-layer bias. -/
abbrev bOut0 : Rect S512 := Rect.unit (s := S512) ![0] S512.size inb_S512_S512_0
/-- The whole tile of result rows. -/
abbrev res0 : Rect S1024x512 := Rect.unit (s := S1024x512) ![0, 0] S1024x512.size inb_S1024x512_S1024x512_0_0

/-! ## What the body leaves in the output buffer -/

/-- Window 7's staging buffer after the body, from the seven input blocks: its one store, of the whole block.
    The stored value is the last layer (`k0_pay1`) applied to the third hidden layer's product
    (`k0_pay2`, from the rows, the first layer and the three hidden weight slabs and the first two hidden
    biases), the third hidden bias, and the last layer's weights and bias. -/
def out0_7 (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) : Vec F S1024x512 .f32 :=
  View.canon [⟨res0, k0_pay1
    (k0_pay2 (View.ld x0 rows0) (View.ld x1 wIn0) (View.ld x2 bIn0) (View.ld x3 wHid0_0) (View.ld x4 bHid0_0)
      (View.ld x3 wHid0_1) (View.ld x4 bHid0_1) (View.ld x3 wHid0_2))
    (View.ld x4 bHid0_2) (View.ld x5 wOut0) (View.ld x6 bOut0)⟩]

/-- The one store is of the whole block, so it covers every index of the buffer. -/
theorem cover0_7 (p0 : Vec F S1024x512 .f32) (y : S1024x512.Idx) :
    ∃ pc ∈ ([⟨res0, p0⟩] : List (View.Piece (Elt F) S1024x512 .f32)), y ∈ pc.1.set :=
  View.cover_of_tiled [⟨res0, p0⟩] S1024x512.size (by rfl) y

/-! ## The body's triple -/

set_option maxHeartbeats 4000000 in
/-- The body on whole staging buffers, the seven inputs' reading `x0 … x6` and the output's holding anything, runs
    to a state where every input buffer reads what it read and the output buffer reads `out0_7 x0 … x6`: each
    load reads its rectangle of the buffer's contents, and the final store overwrites the whole output buffer. -/
theorem sound_kernel0 (c : Dev nD) (E : Set ℕ) (i : grid0.Coords) (arg0 : Memref sig .tc .vmem S1024x3 .f32) (harg0 : arg0.IsWhole) (arg1 : Memref sig .tc .vmem S3x512 .f32) (harg1 : arg1.IsWhole) (arg2 : Memref sig .tc .vmem S512 .f32) (harg2 : arg2.IsWhole) (arg3 : Memref sig .tc .vmem S3x512x512 .f32) (harg3 : arg3.IsWhole) (arg4 : Memref sig .tc .vmem S3x512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1024x512 .f32) (harg7 : arg7.IsWhole)
    (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of the region's pipeline on core `c`: the arrays as the region finds them; after the body at
    point `t` every input buffer at its block and the output buffer at `out0_7` of the input blocks; the
    invariant that of a body which touches nothing but its windows' buffers; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the contents at the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Every input's current staging buffer reads its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, what the core owes, and every window's current
    staging buffer at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same, every buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the input buffers read their blocks, so the body's triple applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand
-- ==== Proof.MlpRegion1.lean ====
import proofs.«178031_j19344532702252_1_alg».proof.Proof.Gen.KernelIdeal.Launch
import proofs.«178031_j19344532702252_1_alg».proof.Proof.Gen.KernelIdeal.Skeleton
import proofs.«178031_j19344532702252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: a multilayer perceptron applied to one tile of rows, read and written in whole blocks

The region runs one body at each of 8 grid points over 8 windows. Window 0 is a tile of 1024 input rows
(1024 × 3); windows 1–6 are the whole weight and bias arrays (3 × 512 and 512 for the first layer, 3 × 512 × 512
and 3 × 512 for the three hidden layers, 512 × 512 and 512 for the last layer); window 7 is the tile of
1024 result rows (1024 × 512). The body reads every input buffer through fixed rectangles — the whole buffer,
or one hidden layer's slab of window 3 and row of window 4 —, applies the layers (an affine map followed by a
sine, the last layer affine only) and overwrites the whole output buffer once. No input buffer is written, and
nothing the output buffer held before is used.

So, at contents `V` of the arrays when the region is entered, the output buffer after the body at a point is a
closed function `out1_7` of the seven input blocks at that point, and every input buffer still reads its block.
This file states that function, proves the body's triple against it, and packages both as the pipeline's proof
data with its body obligation.
-/

-- membership of an index in a rectangle with extents 1024 and 512 recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the contents of every buffer of the core when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer reads its block at every point, whether the block was moved in at
    that point or at an earlier one with the same block index, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer reads its block at every point, whether the block was moved in at
    that point or at an earlier one with the same block index, for any proof data whose array is `V`'s and whose
    body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer reads its block at every point, whether the block was moved in at
    that point or at an earlier one with the same block index, for any proof data whose array is `V`'s and whose
    body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer reads its block at every point, whether the block was moved in at
    that point or at an earlier one with the same block index, for any proof data whose array is `V`'s and whose
    body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer reads its block at every point, whether the block was moved in at
    that point or at an earlier one with the same block index, for any proof data whose array is `V`'s and whose
    body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer reads its block at every point, whether the block was moved in at
    that point or at an earlier one with the same block index, for any proof data whose array is `V`'s and whose
    body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer reads its block at every point, whether the block was moved in at
    that point or at an earlier one with the same block index, for any proof data whose array is `V`'s and whose
    body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- The whole tile of input rows. -/
abbrev rows1 : Rect S1024x3 := Rect.unit (s := S1024x3) ![0, 0] S1024x3.size inb_S1024x3_S1024x3_0_0
/-- The whole first-layer weight matrix. -/
abbrev wIn1 : Rect S3x512 := Rect.unit (s := S3x512) ![0, 0] S3x512.size inb_S3x512_S3x512_0_0
/-- The whole first-layer bias. -/
abbrev bIn1 : Rect S512 := Rect.unit (s := S512) ![0] S512.size inb_S512_S512_0
/-- The weight matrix of hidden layer 0, 1, 2: one 512 × 512 slab of window 3. -/
abbrev wHid1_0 : Rect S3x512x512 := Rect.unit (s := S3x512x512) ![0, 0, 0] S1x512x512.size inb_S3x512x512_S1x512x512_0_0_0
abbrev wHid1_1 : Rect S3x512x512 := Rect.unit (s := S3x512x512) ![1, 0, 0] S1x512x512.size inb_S3x512x512_S1x512x512_1_0_0
abbrev wHid1_2 : Rect S3x512x512 := Rect.unit (s := S3x512x512) ![2, 0, 0] S1x512x512.size inb_S3x512x512_S1x512x512_2_0_0
/-- The bias of hidden layer 0, 1, 2: one row of window 4. -/
abbrev bHid1_0 : Rect S3x512 := Rect.unit (s := S3x512) ![0, 0] S1x512.size inb_S3x512_S1x512_0_0
abbrev bHid1_1 : Rect S3x512 := Rect.unit (s := S3x512) ![1, 0] S1x512.size inb_S3x512_S1x512_1_0
abbrev bHid1_2 : Rect S3x512 := Rect.unit (s := S3x512) ![2, 0] S1x512.size inb_S3x512_S1x512_2_0
/-- The whole last-layer weight matrix. -/
abbrev wOut1 : Rect S512x512 := Rect.unit (s := S512x512) ![0, 0] S512x512.size inb_S512x512_S512x512_0_0
/-- The whole last-layer bias. -/
abbrev bOut1 : Rect S512 := Rect.unit (s := S512) ![0] S512.size inb_S512_S512_0
/-- The whole tile of result rows. -/
abbrev res1 : Rect S1024x512 := Rect.unit (s := S1024x512) ![0, 0] S1024x512.size inb_S1024x512_S1024x512_0_0

/-! ## What the body leaves in the output buffer -/

/-- Window 7's staging buffer after the body, from the seven input blocks: its one store, of the whole block.
    The stored value is the last layer (`k1_pay1`) applied to the third hidden layer's product
    (`k1_pay2`, from the rows, the first layer and the three hidden weight slabs and the first two hidden
    biases), the third hidden bias, and the last layer's weights and bias. -/
def out1_7 (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) : Vec F S1024x512 .f32 :=
  View.canon [⟨res1, k1_pay1
    (k1_pay2 (View.ld x0 rows1) (View.ld x1 wIn1) (View.ld x2 bIn1) (View.ld x3 wHid1_0) (View.ld x4 bHid1_0)
      (View.ld x3 wHid1_1) (View.ld x4 bHid1_1) (View.ld x3 wHid1_2))
    (View.ld x4 bHid1_2) (View.ld x5 wOut1) (View.ld x6 bOut1)⟩]

/-- The one store is of the whole block, so it covers every index of the buffer. -/
theorem cover1_7 (p0 : Vec F S1024x512 .f32) (y : S1024x512.Idx) :
    ∃ pc ∈ ([⟨res1, p0⟩] : List (View.Piece (Elt F) S1024x512 .f32)), y ∈ pc.1.set :=
  View.cover_of_tiled [⟨res1, p0⟩] S1024x512.size (by rfl) y

/-! ## The body's triple -/

set_option maxHeartbeats 4000000 in
/-- The body on whole staging buffers, the seven inputs' reading `x0 … x6` and the output's holding anything, runs
    to a state where every input buffer reads what it read and the output buffer reads `out1_7 x0 … x6`: each
    load reads its rectangle of the buffer's contents, and the final store overwrites the whole output buffer. -/
theorem sound_kernel1 (c : Dev nD) (E : Set ℕ) (i : grid1.Coords) (arg0 : Memref sig .tc .vmem S1024x3 .f32) (harg0 : arg0.IsWhole) (arg1 : Memref sig .tc .vmem S3x512 .f32) (harg1 : arg1.IsWhole) (arg2 : Memref sig .tc .vmem S512 .f32) (harg2 : arg2.IsWhole) (arg3 : Memref sig .tc .vmem S3x512x512 .f32) (harg3 : arg3.IsWhole) (arg4 : Memref sig .tc .vmem S3x512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S1024x512 .f32) (harg7 : arg7.IsWhole)
    (x0 : Vec F S1024x3 .f32) (x1 : Vec F S3x512 .f32) (x2 : Vec F S512 .f32) (x3 : Vec F S3x512x512 .f32) (x4 : Vec F S3x512 .f32) (x5 : Vec F S512x512 .f32) (x6 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the region's pipeline on core `c`: the arrays as the region finds them; after the body at
    point `t` every input buffer at its block and the output buffer at `out1_7` of the input blocks; the
    invariant that of a body which touches nothing but its windows' buffers; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the contents at the region's entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Every input's current staging buffer reads its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, what the core owes, and every window's current
    staging buffer at what the pipeline put there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, every buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the input buffers read their blocks, so the body's triple applies at those blocks; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.MlpRegion2.lean ====
import proofs.«178031_j19344532702252_1_alg».proof.Proof.Gen.KernelIdeal.Launch
import proofs.«178031_j19344532702252_1_alg».proof.Proof.Gen.KernelIdeal.Skeleton
import proofs.«178031_j19344532702252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: a multilayer perceptron applied to one tile of rows, read and written in whole blocks

The region runs one body at each of 8 grid points over 8 windows. Window 0 is a tile of 1024 input rows
(1024 × 3); windows 1–6 are the whole weight and bias arrays (3 × 512 and 512 for the first layer, 3 × 512 × 512
and 3 × 512 for the three hidden layers, 512 × 3 and 3 for the last layer); window 7 is the tile of
1024 result rows (1024 × 3). The body reads every input buffer through fixed rectangles — the whole buffer,
or one hidden layer's slab of window 3 and row of window 4 —, applies the layers (an affine map followed by a
sine, the last layer affine only) and overwrites the whole output buffer once. No input buffer is written, and
nothing the output buffer held before is used.

So, at contents `V` of the arrays when the region is entered, the output buffer after the body at a point is a
closed function `out2_7` of the seven input blocks at that point, and every input buffer still reads its block.
This file states that function, proves the body's triple against it, and packages both as the pipeline's proof
data with its body obligation.
-/

-- membership of an index in a rectangle with extents 1024 and 512 recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
-- the contents of every buffer of the core when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer reads its block at every point, whether the block was moved in at
    that point or at an earlier one with the same block index, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer reads its block at every point, whether the block was moved in at
    that point or at an earlier one with the same block index, for any proof data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer reads its block at every point, whether the block was moved in at
    that point or at an earlier one with the same block index, for any proof data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer reads its block at every point, whether the block was moved in at
    that point or at an earlier one with the same block index, for any proof data whose array is `V`'s and whose
    body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer reads its block at every point, whether the block was moved in at
    that point or at an earlier one with the same block index, for any proof data whose array is `V`'s and whose
    body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer reads its block at every point, whether the block was moved in at
    that point or at an earlier one with the same block index, for any proof data whose array is `V`'s and whose
    body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer reads its block at every point, whether the block was moved in at
    that point or at an earlier one with the same block index, for any proof data whose array is `V`'s and whose
    body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through -/

/-- The whole tile of input rows. -/
abbrev rows2 : Rect S1024x3 := Rect.unit (s := S1024x3) ![0, 0] S1024x3.size inb_S1024x3_S1024x3_0_0
/-- The whole first-layer weight matrix. -/
abbrev wIn2 : Rect S3x512 := Rect.unit (s := S3x512) ![0, 0] S3x512.size inb_S3x512_S3x512_0_0
/-- The whole first-layer bias. -/
abbrev bIn2 : Rect S512 := Rect.unit (s := S512) ![0] S512.size inb_S512_S512_0
/-- The weight matrix of hidden layer 0, 1, 2: one 512 × 512 slab of window 3. -/
abbrev wHid2_0 : Rect S3x512x512 := Rect.unit (s := S3x512x512) ![0, 0, 0] S1x512x512.size inb_S3x512x512_S1x512x512_0_0_0
abbrev wHid2_1 : Rect S3x512x512 := Rect.unit (s := S3x512x512) ![1, 0, 0] S1x512x512.size inb_S3x512x512_S1x512x512_1_0_0
abbrev wHid2_2 : Rect S3x512x512 := Rect.unit (s := S3x512x512) ![2, 0, 0] S1x512x512.size inb_S3x512x512_S1x512x512_2_0_0
/-- The bias of hidden layer 0, 1, 2: one row of window 4. -/
abbrev bHid2_0 : Rect S3x512 := Rect.unit (s := S3x512) ![0, 0] S1x512.size inb_S3x512_S1x512_0_0
abbrev bHid2_1 : Rect S3x512 := Rect.unit (s := S3x512) ![1, 0] S1x512.size inb_S3x512_S1x512_1_0
abbrev bHid2_2 : Rect S3x512 := Rect.unit (s := S3x512) ![2, 0] S1x512.size inb_S3x512_S1x512_2_0
/-- The whole last-layer weight matrix. -/
abbrev wOut2 : Rect S512x3 := Rect.unit (s := S512x3) ![0, 0] S512x3.size inb_S512x3_S512x3_0_0
/-- The whole last-layer bias. -/
abbrev bOut2 : Rect S3 := Rect.unit (s := S3) ![0] S3.size inb_S3_S3_0
/-- The whole tile of result rows. -/
abbrev res2 : Rect S1024x3 := Rect.unit (s := S1024x3) ![0, 0] S1024x3.size inb_S1024x3_S1024x3_0_0

/-! ## What the body leaves in the output buffer -/

/-- Window 7's staging buffer after the body, from the seven input blocks: its one store, of the whole block.
    The stored value is the last layer (`k2_pay1`) applied to the third hidden layer's product
    (`k2_pay2`, from the rows, the first layer and the three hidden weight slabs and the first two hidden
    biases), the third hidden bias, and the last layer's weights and bias. -/
def out2_7 (x0 : Vec F S1024x3 .f32) (x1 : Vec F S3x512 .f32) (x2 : Vec F S512 .f32) (x3 : Vec F S3x512x512 .f32) (x4 : Vec F S3x512 .f32) (x5 : Vec F S512x3 .f32) (x6 : Vec F S3 .f32) : Vec F S1024x3 .f32 :=
  View.canon [⟨res2, k2_pay1
    (k2_pay2 (View.ld x0 rows2) (View.ld x1 wIn2) (View.ld x2 bIn2) (View.ld x3 wHid2_0) (View.ld x4 bHid2_0)
      (View.ld x3 wHid2_1) (View.ld x4 bHid2_1) (View.ld x3 wHid2_2))
    (View.ld x4 bHid2_2) (View.ld x5 wOut2) (View.ld x6 bOut2)⟩]

/-- The one store is of the whole block, so it covers every index of the buffer. -/
theorem cover2_7 (p0 : Vec F S1024x3 .f32) (y : S1024x3.Idx) :
    ∃ pc ∈ ([⟨res2, p0⟩] : List (View.Piece (Elt F) S1024x3 .f32)), y ∈ pc.1.set :=
  View.cover_of_tiled [⟨res2, p0⟩] S1024x3.size (by rfl) y

/-! ## The body's triple -/

set_option maxHeartbeats 4000000 in
/-- The body on whole staging buffers, the seven inputs' reading `x0 … x6` and the output's holding anything, runs
    to a state where every input buffer reads what it read and the output buffer reads `out2_7 x0 … x6`: each
    load reads its rectangle of the buffer's contents, and the final store overwrites the whole output buffer. -/
theorem sound_kernel2 (c : Dev nD) (E : Set ℕ) (i : grid2.Coords) (arg0 : Memref sig .tc .vmem S1024x3 .f32) (harg0 : arg0.IsWhole) (arg1 : Memref sig .tc .vmem S3x512 .f32) (harg1 : arg1.IsWhole) (arg2 : Memref sig .tc .vmem S512 .f32) (harg2 : arg2.IsWhole) (arg3 : Memref sig .tc .vmem S3x512x512 .f32) (harg3 : arg3.IsWhole) (arg4 : Memref sig .tc .vmem S3x512 .f32) (harg4 : arg4.IsWhole) (arg5 : Memref sig .tc .vmem S512x3 .f32) (harg5 : arg5.IsWhole) (arg6 : Memref sig .tc .vmem S3 .f32) (harg6 : arg6.IsWhole) (arg7 : Memref sig .tc .vmem S1024x3 .f32) (harg7 : arg7.IsWhole)
    (x0 : Vec F S1024x3 .f32) (x1 : Vec F S3x512 .f32) (x2 : Vec F S512 .f32) (x3 : Vec F S3x512x512 .f32) (x4 : Vec F S3x512 .f32) (x5 : Vec F S512x3 .f32) (x6 : Vec F S3 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__mlp_kernel i arg0 harg0 arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the region's pipeline on core `c`: the arrays as the region finds them; after the body at
    point `t` every input buffer at its block and the output buffer at `out2_7` of the input blocks; the
    invariant that of a body which touches nothing but its windows' buffers; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the contents at the region's entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Every input's current staging buffer reads its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`: the invariant, what the core owes, and every window's current
    staging buffer at what the pipeline put there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns: the same, every buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the input buffers read their blocks, so the body's triple applies at those blocks; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand
-- ==== Proof.AttnRuns.lean ====
import proofs.«178031_j19344532702252_1_alg».proof.Proof.Gen.KernelIdeal.Launch
import proofs.«178031_j19344532702252_1_alg».proof.Proof.Gen.KernelIdeal.Skeleton
import proofs.«178031_j19344532702252_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel (pallas_call 3): what its three control cases share

The grid is 8 × 8; point `t` has inner coordinate `n = t.val % 8`. The body resets its scratch accumulator when
`n = 0`, adds `logistic(Q·Kᵀ)·V` of the point's tiles to it at every point, and copies it to the output tile when
`n = 7`. So a point is in one of three cases: FIRST (`n = 0`), MIDDLE (`0 < n < 7`), LAST (`n = 7`). -/

/-! ## The two conditions of the body, in closed form over the grid -/

/-- The body's first `scf.if` (the accumulator is reset): the inner coordinate is 0. -/
abbrev resetCond (i : grid3.Coords) : Prop :=
  (Scalar.cmpi .ne (Scalar.extui (Scalar.cmpi .eq (BitVec.ofNat 32 (i 1).val) 0#32)) 0#32) = 1#1

/-- It holds exactly at the points ≡ 0 (mod 8). -/
theorem resetCond_iff : ∀ t : Fin cfg3.N, resetCond (grid3.coords t) ↔ t.val % 8 = 0 :=
  (by decide +kernel : ∀ t : Fin grid3.N, resetCond (grid3.coords t) ↔ t.val % 8 = 0)

/-- The body's second `scf.if` (the accumulator is copied to the output tile): the inner coordinate is 7. -/
abbrev emitCond (i : grid3.Coords) : Prop := k3_cond2 i = 1#1

/-- It holds exactly at the points ≡ 7 (mod 8). -/
theorem emitCond_iff : ∀ t : Fin cfg3.N, emitCond (grid3.coords t) ↔ t.val % 8 = 7 :=
  (by decide +kernel : ∀ t : Fin grid3.N, emitCond (grid3.coords t) ↔ t.val % 8 = 7)

/-! ## Where the output window is idle -/

/-- In the FIRST case the output window is idle: nothing is stored into its buffer, -/
theorem outIdle_first : ∀ t : Fin cfg3.N, resetCond (grid3.coords t) → ¬emitCond (grid3.coords t) → cfg3.idle 3 (grid3.coords t) = true := by decide +kernel
/-- and the pipeline does not write the buffer back. -/
theorem outKept_first : ∀ t : Fin cfg3.N, resetCond (grid3.coords t) → ¬emitCond (grid3.coords t) → (cfg3.win 3).flush t = false := by decide +kernel
/-- The same in the MIDDLE case. -/
theorem outIdle_middle : ∀ t : Fin cfg3.N, ¬resetCond (grid3.coords t) → ¬emitCond (grid3.coords t) → cfg3.idle 3 (grid3.coords t) = true := by decide +kernel
theorem outKept_middle : ∀ t : Fin cfg3.N, ¬resetCond (grid3.coords t) → ¬emitCond (grid3.coords t) → (cfg3.win 3).flush t = false := by decide +kernel
/-- In the LAST case the output window is live: the body stores the accumulator into it. -/
theorem outLive_last : ∀ t : Fin cfg3.N, ¬resetCond (grid3.coords t) → emitCond (grid3.coords t) → cfg3.idle 3 (grid3.coords t) = false := by decide +kernel
/-- The three input windows are never idle. -/
theorem inLive_Q : ∀ t : Fin cfg3.N, cfg3.idle 0 (grid3.coords t) = false := by decide +kernel
theorem inLive_K : ∀ t : Fin cfg3.N, cfg3.idle 1 (grid3.coords t) = false := by decide +kernel
theorem inLive_V : ∀ t : Fin cfg3.N, cfg3.idle 2 (grid3.coords t) = false := by decide +kernel

/-! ## The memrefs the body is called on -/

/-- The current staging memrefs of the Q, K, V and output windows at point `t`, as the pipeline passes them, with
    their wholeness. -/
abbrev stQ (t : Fin cfg3.N) : Memref sig .tc .vmem S1024x512 .f32 := win3_0.stage (cfg3.slots t 0)
abbrev stQ_whole (t : Fin cfg3.N) : (stQ t).IsWhole := hstage3_0 ((cfg3.slots t 0).cast nbuf3_0)
abbrev stK (t : Fin cfg3.N) : Memref sig .tc .vmem S1024x512 .f32 := win3_1.stage (cfg3.slots t 1)
abbrev stK_whole (t : Fin cfg3.N) : (stK t).IsWhole := hstage3_1 ((cfg3.slots t 1).cast nbuf3_1)
abbrev stV (t : Fin cfg3.N) : Memref sig .tc .vmem S1024x3 .f32 := win3_2.stage (cfg3.slots t 2)
abbrev stV_whole (t : Fin cfg3.N) : (stV t).IsWhole := hstage3_2 ((cfg3.slots t 2).cast nbuf3_2)
abbrev stO (t : Fin cfg3.N) : Memref sig .tc .vmem S1024x3 .f32 := win3_3.stage (cfg3.slots t 3)
abbrev stO_whole (t : Fin cfg3.N) : (stO t).IsWhole := hstage3_3 ((cfg3.slots t 3).cast nbuf3_3)

/-- The scratch accumulator: a whole scoped buffer of the call's own, passed beside the windows. -/
abbrev accM : Memref sig .tc .vmem S1024x3 .f32 := Memref.whole cc3_scratch0
/-- The accumulator as a view: what it holds is stated through it. -/
abbrev accV : View sig .tc .vmem S1024x3 .f32 := accM.view
/-- One staging buffer of the output window, through which the output tile's contents are stated (the choice does
    not matter: the stores cover the tile). -/
abbrev outV : View sig .tc .vmem S1024x3 .f32 := (Memref.whole cc3_stg3_0 : Memref sig .tc .vmem S1024x3 .f32).view

/-! ## The region invariant with the accumulator split off -/

/-- What the launch hands the region, with the accumulator as a memref owned at some contents and every other scoped
    buffer left unopened. -/
theorem regionInv_split (c : Dev nD) :
    (Pipeline.ΦA spec3 c : sProp 𝕄)
      = iprop(iprop(iprop((∃ d, owns (c : Thread nD τ) accM fullShare d))
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [accM, owns_whole]; try rfl

end Cert.KernelIdeal.Hand

end
-- ==== Proof.AttnRunFirst.lean ====
import proofs.«178031_j19344532702252_1_alg».proof.Proof.AttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's body in the FIRST case (inner coordinate 0)

The accumulator is reset to zero, then the point's contribution `logistic(Q·Kᵀ)·V` is added to it; the output
tile is not touched. -/

set_option maxHeartbeats 1000000 in
/-- The body at a point with inner coordinate 0, on whole memrefs: the Q, K and V tiles at contents `xQ`, `xK`,
    `xV`, the output tile at any contents `xo` (handed back as found), the accumulator at anything. It runs to the
    continuation holding the inputs and the output tile as they were and the accumulator with the pieces `.2.1`
    written — the pieces are what the symbolic run of the body's skeleton finds (the zero fill, then the sum). The first
    component (the output tile's pieces) is empty: nothing is stored there. -/
noncomputable def runFirst (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i)
    (xQ : Vec F S1024x512 .f32) (xK : Vec F S1024x512 .f32) (xV : Vec F S1024x3 .f32) :
    Σ' (LO : List (View.Piece (Elt F) S1024x3 .f32)), { LA : List (View.Piece (Elt F) S1024x3 .f32) //
      ∀ (xo : Vec F S1024x3 .f32) (E : Set ℕ) (K : PUnit → sProp 𝕄),
        iprop(owns (c : Thread nD τ) arg2 fullShare xQ ∗ owns (c : Thread nD τ) arg3 fullShare xK ∗ owns (c : Thread nD τ) arg4 fullShare xV
            ∗ owns (c : Thread nD τ) arg5 fullShare xo ∗ (∃ d, owns (c : Thread nD τ) arg6 fullShare d)
            ∗ (iprop(owns (c : Thread nD τ) arg2 fullShare xQ ∗ owns (c : Thread nD τ) arg3 fullShare xK ∗ owns (c : Thread nD τ) arg4 fullShare xV
                ∗ owns (c : Thread nD τ) arg5 fullShare xo
                ∗ (∃ f, arg6.view.loc (c : Thread nD τ) ↦[arg6.view.set]{fullShare} arg6.view.writes (Elt F) f LA)) -∗ K ⟨⟩))
          ⊢ wp frame (wpE (defs₀ (F := F)) Variants.none c none) E (cc3__attn_kernel i arg2 harg2 arg3 harg3 arg4 harg4 arg5 harg5 arg6 harg6) K } := by
  refine ⟨[], ?_, fun xo E K => ?run⟩
  case run =>
    simp only [cc3__attn_kernel_eq_skeleton]; unfold cc3__attn_kernel_skel
    unfold owns
    iintro ⟨⟨%fQ, %hfQ, HQ⟩, ⟨%fK, %hfK, HK⟩, ⟨%fV, %hfV, HV⟩, ⟨%fO, %hfO, HO⟩, ⟨%dA, %fA, -, HA⟩, Hk⟩
    obtain rfl := harg2.eq_unread hfQ; obtain rfl := harg3.eq_unread hfK; obtain rfl := harg4.eq_unread hfV
    obtain rfl := harg5.eq_unread hfO
    sl_exec (disch := first | exact hc0 | exact hc1)
    sl_step
    iapply Hk
    isplitl [HQ]
    · iexists _; isplitr; · ipureintro; exact harg2.read_unread _
      iexact HQ
    isplitl [HK]
    · iexists _; isplitr; · ipureintro; exact harg3.read_unread _
      iexact HK
    isplitl [HV]
    · iexists _; isplitr; · ipureintro; exact harg4.read_unread _
      iexact HV
    isplitl [HO]
    · iexists _; isplitr; · ipureintro; exact harg5.read_unread _
      iexact HO
    iexists _; iexact HA

end Cert.KernelIdeal.Hand

end
-- ==== Proof.AttnRunMiddle.lean ====
import proofs.«178031_j19344532702252_1_alg».proof.Proof.AttnRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's body in the MIDDLE case (inner coordinate strictly between 0 and 7)

The point's contribution `logistic(Q·Kᵀ)·V` is added to the accumulator as the point before left it; the output
tile is not touched. -/

set_option maxHeartbeats 1000000 in
/-- The body at a point with inner coordinate neither 0 nor 7, on whole memrefs: the Q, K and V tiles at contents
    `xQ`, `xK`, `xV`, the output tile at any contents `xo` (handed back as found), the accumulator at `xA`, what
    the point before left. It runs to the continuation holding the inputs and the output tile as they were and the
    accumulator with the pieces `.2.1` written (the sum, found by the symbolic run of the body's skeleton). The first
    component (the output tile's pieces) is empty. -/
noncomputable def runMiddle (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i)
    (xQ : Vec F S1024x512 .f32) (xK : Vec F S1024x512 .f32) (xV : Vec F S1024x3 .f32) (xA : Vec F S1024x3 .f32) :
    Σ' (LO : List (View.Piece (Elt F) S1024x3 .f32)), { LA : List (View.Piece (Elt F) S1024x3 .f32) //
      ∀ (xo : Vec F S1024x3 .f32) (E : Set ℕ) (K : PUnit → sProp 𝕄),
        iprop(owns (c : Thread nD τ) arg2 fullShare xQ ∗ owns (c : Thread nD τ) arg3 fullShare xK ∗ owns (c : Thread nD τ) arg4 fullShare xV
            ∗ owns (c : Thread nD τ) arg5 fullShare xo ∗ owns (c : Thread nD τ) arg6 fullShare xA
            ∗ (iprop(owns (c : Thread nD τ) arg2 fullShare xQ ∗ owns (c : Thread nD τ) arg3 fullShare xK ∗ owns (c : Thread nD τ) arg4 fullShare xV
                ∗ owns (c : Thread nD τ) arg5 fullShare xo
                ∗ (∃ f, arg6.view.loc (c : Thread nD τ) ↦[arg6.view.set]{fullShare} arg6.view.writes (Elt F) f LA)) -∗ K ⟨⟩))
          ⊢ wp frame (wpE (defs₀ (F := F)) Variants.none c none) E (cc3__attn_kernel i arg2 harg2 arg3 harg3 arg4 harg4 arg5 harg5 arg6 harg6) K } := by
  refine ⟨[], ?_, fun xo E K => ?run⟩
  case run =>
    simp only [cc3__attn_kernel_eq_skeleton]; unfold cc3__attn_kernel_skel
    unfold owns
    iintro ⟨⟨%fQ, %hfQ, HQ⟩, ⟨%fK, %hfK, HK⟩, ⟨%fV, %hfV, HV⟩, ⟨%fO, %hfO, HO⟩, ⟨%fA, %hfA, HA⟩, Hk⟩
    obtain rfl := harg2.eq_unread hfQ; obtain rfl := harg3.eq_unread hfK; obtain rfl := harg4.eq_unread hfV
    obtain rfl := harg5.eq_unread hfO; obtain rfl := harg6.eq_unread hfA
    sl_exec (disch := first | exact hc0 | exact hc1)
    sl_step
    iapply Hk
    isplitl [HQ]
    · iexists _; isplitr; · ipureintro; exact harg2.read_unread _
      iexact HQ
    isplitl [HK]
    · iexists _; isplitr; · ipureintro; exact harg3.read_unread _
      iexact HK
    isplitl [HV]
    · iexists _; isplitr; · ipureintro; exact harg4.read_unread _
      iexact HV
    isplitl [HO]
    · iexists _; isplitr; · ipureintro; exact harg5.read_unread _
      iexact HO
    iexists _; iexact HA

end Cert.KernelIdeal.Hand

end
-- ==== Proof.AttnRunLast.lean ====
import proofs.«178031_j19344532702252_1_alg».proof.Proof.AttnRunMiddle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's body in the LAST case (inner coordinate 7)

The point's contribution `logistic(Q·Kᵀ)·V` is added to the accumulator as the point before left it, and the
accumulator is then copied whole into the output tile. -/

set_option maxHeartbeats 1000000 in
/-- The body at a point with inner coordinate 7, on whole memrefs: the Q, K and V tiles at contents `xQ`, `xK`,
    `xV`, the output tile at anything, the accumulator at `xA`, what the point before left. It runs to the continuation
    holding the inputs as they were, the output tile with the pieces `.1` written (the copy of the accumulator) and the
    accumulator with the pieces `.2.1` written (the sum); both lists are found by the symbolic run of the body's
    skeleton. -/
noncomputable def runLast (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i)
    (xQ : Vec F S1024x512 .f32) (xK : Vec F S1024x512 .f32) (xV : Vec F S1024x3 .f32) (xA : Vec F S1024x3 .f32) :
    Σ' (LO : List (View.Piece (Elt F) S1024x3 .f32)), { LA : List (View.Piece (Elt F) S1024x3 .f32) //
      ∀ (E : Set ℕ) (K : PUnit → sProp 𝕄),
        iprop(owns (c : Thread nD τ) arg2 fullShare xQ ∗ owns (c : Thread nD τ) arg3 fullShare xK ∗ owns (c : Thread nD τ) arg4 fullShare xV
            ∗ (∃ d, owns (c : Thread nD τ) arg5 fullShare d) ∗ owns (c : Thread nD τ) arg6 fullShare xA
            ∗ (iprop(owns (c : Thread nD τ) arg2 fullShare xQ ∗ owns (c : Thread nD τ) arg3 fullShare xK ∗ owns (c : Thread nD τ) arg4 fullShare xV
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LA)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%fQ, %hfQ, HQ⟩, ⟨%fK, %hfK, HK⟩, ⟨%fV, %hfV, HV⟩, ⟨%dO, %fO, -, HO⟩, ⟨%fA, %hfA, HA⟩, Hk⟩
    obtain rfl := harg2.eq_unread hfQ; obtain rfl := harg3.eq_unread hfK; obtain rfl := harg4.eq_unread hfV
    obtain rfl := harg6.eq_unread hfA
    sl_exec (disch := first | exact hc0 | exact hc1)
    sl_step
    iapply Hk
    isplitl [HQ]
    · iexists _; isplitr; · ipureintro; exact harg2.read_unread _
      iexact HQ
    isplitl [HK]
    · iexists _; isplitr; · ipureintro; exact harg3.read_unread _
      iexact HK
    isplitl [HV]
    · iexists _; isplitr; · ipureintro; exact harg4.read_unread _
      iexact HV
    isplitl [HO]; · iexists _; iexact HO
    iexists _; iexact HA

end Cert.KernelIdeal.Hand

end
-- ==== Proof.AttnRegion.lean ====
import proofs.«178031_j19344532702252_1_alg».proof.Proof.AttnRunLast
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's region (pallas_call 3) as a pipeline with a carried accumulator

Stated at a parameter `V`: the core's buffer contents when the region is entered. -/

/-! ## What each case leaves in the accumulator and in the output tile -/

/-- The FIRST case's pieces cover the accumulator (the zero fill and the sum are both whole-tile stores). -/
theorem accCover_first (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i) (xQ : Vec F S1024x512 .f32) (xK : Vec F S1024x512 .f32) (xV : Vec F S1024x3 .f32) (y : S1024x3.Idx) :
    ∃ pc ∈ (runFirst c i arg2 harg2 arg3 harg3 arg4 harg4 arg5 harg5 arg6 harg6 hc0 hc1 xQ xK xV).2.1, y ∈ pc.1.set :=
  View.cover_of_tiledL (runFirst c i arg2 harg2 arg3 harg3 arg4 harg4 arg5 harg5 arg6 harg6 hc0 hc1 xQ xK xV).2.1 S1024x3.size (by sl_kernel_rfl) y

/-- What the FIRST case leaves in the accumulator: its pieces read back. -/
def accAfterFirst (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i) (xQ : Vec F S1024x512 .f32) (xK : Vec F S1024x512 .f32) (xV : Vec F S1024x3 .f32) : Vec F S1024x3 .f32 :=
  accV.read (Elt F) (accV.writes (Elt F) accV.junk (runFirst c i arg2 harg2 arg3 harg3 arg4 harg4 arg5 harg5 arg6 harg6 hc0 hc1 xQ xK xV).2.1)

/-- The MIDDLE case's pieces cover the accumulator. -/
theorem accCover_middle (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i) (xQ : Vec F S1024x512 .f32) (xK : Vec F S1024x512 .f32) (xV : Vec F S1024x3 .f32) (xA : Vec F S1024x3 .f32) (y : S1024x3.Idx) :
    ∃ pc ∈ (runMiddle c i arg2 harg2 arg3 harg3 arg4 harg4 arg5 harg5 arg6 harg6 hc0 hc1 xQ xK xV xA).2.1, y ∈ pc.1.set :=
  View.cover_of_tiledL (runMiddle c i arg2 harg2 arg3 harg3 arg4 harg4 arg5 harg5 arg6 harg6 hc0 hc1 xQ xK xV xA).2.1 S1024x3.size (by sl_kernel_rfl) y

/-- What the MIDDLE case leaves in the accumulator. -/
def accAfterMiddle (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i) (xQ : Vec F S1024x512 .f32) (xK : Vec F S1024x512 .f32) (xV : Vec F S1024x3 .f32) (xA : Vec F S1024x3 .f32) : Vec F S1024x3 .f32 :=
  accV.read (Elt F) (accV.writes (Elt F) accV.junk (runMiddle c i arg2 harg2 arg3 harg3 arg4 harg4 arg5 harg5 arg6 harg6 hc0 hc1 xQ xK xV xA).2.1)

/-- The LAST case's pieces cover the accumulator, -/
theorem accCover_last (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) (y : S1024x3.Idx) :
    ∃ pc ∈ (runLast c i arg2 harg2 arg3 harg3 arg4 harg4 arg5 harg5 arg6 harg6 hc0 hc1 xQ xK xV xA).2.1, y ∈ pc.1.set :=
  View.cover_of_tiledL (runLast c i arg2 harg2 arg3 harg3 arg4 harg4 arg5 harg5 arg6 harg6 hc0 hc1 xQ xK xV xA).2.1 S1024x3.size (by sl_kernel_rfl) y

/-- and its one store into the output tile covers the tile. -/
theorem outCover_last (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) (y : S1024x3.Idx) :
    ∃ pc ∈ (runLast c i arg2 harg2 arg3 harg3 arg4 harg4 arg5 harg5 arg6 harg6 hc0 hc1 xQ xK xV xA).1, y ∈ pc.1.set :=
  View.cover_of_tiledL (runLast c i arg2 harg2 arg3 harg3 arg4 harg4 arg5 harg5 arg6 harg6 hc0 hc1 xQ xK xV xA).1 S1024x3.size (by sl_kernel_rfl) y

/-- What the LAST case leaves in the accumulator. -/
def accAfterLast (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) : Vec F S1024x3 .f32 :=
  accV.read (Elt F) (accV.writes (Elt F) accV.junk (runLast c i arg2 harg2 arg3 harg3 arg4 harg4 arg5 harg5 arg6 harg6 hc0 hc1 xQ xK xV xA).2.1)

/-- What the LAST case leaves in the output tile. -/
def outAfterLast (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) : Vec F S1024x3 .f32 :=
  outV.read (Elt F) (outV.writes (Elt F) outV.junk (runLast c i arg2 harg2 arg3 harg3 arg4 harg4 arg5 harg5 arg6 harg6 hc0 hc1 xQ xK xV xA).1)

/-- The output tile's contents at a point that stores nothing into it: a placeholder nothing consults (at such a
    point the tile is neither written back nor read at the next point). -/
def outUntouched : Vec F S1024x3 .f32 := outV.read (Elt F) (outV.writes (Elt F) outV.junk [])

/-! ## The cases' contents in closed form

Each case's found pieces are whole-tile stores through the rectangle at zero offsets, and every load reads a whole
buffer: so what a case leaves is its last store's payload, over the contents themselves. -/

/-- The zero offsets, as the printed rectangles spell them. -/
theorem zeroOff : (![0, 0] : Fin 2 → Nat) = fun _ => 0 := funext fun a => by fin_cases a <;> rfl

/-- A load of a whole buffer holding `X` through the whole-shape rectangle at zero offsets reads `X`. -/
theorem readWhole {sp : Space} {S : Shape} (m : Memref sig .tc sp S .f32) (h : m.IsWhole) {off : Fin S.rank → Nat}
    (hz : off = fun _ => 0) (inb : ∀ a, off a + S.size a ≤ S.size a) (X : Vec F S .f32) :
    View.readAt (Elt F) m.view (Rect.unit off S.size inb).toLoadRect (h.unread X) = X :=
  (View.readAt_eq_ld _ _ _).trans
    ((congrArg (fun Y => View.ld Y (Rect.unit off S.size inb)) (h.read_unread X)).trans (View.ld_unit_zero hz inb X))

/-- MIDDLE: the accumulator ends at the sum's payload over the blocks and the accumulator as found. -/
theorem accAfterMiddle_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : ¬emitCond i) (xQ : Vec F S1024x512 .f32) (xK : Vec F S1024x512 .f32) (xV : Vec F S1024x3 .f32) (xA : Vec F S1024x3 .f32) :
    accAfterMiddle c i arg2 harg2 arg3 harg3 arg4 harg4 arg5 harg5 arg6 harg6 hc0 hc1 xQ xK xV xA = k3_pay2 xQ xK xV xA := by
  unfold accAfterMiddle
  rw [View.read_writes_eq_canon _ _ _ (accCover_middle c i arg2 harg2 arg3 harg3 arg4 harg4 arg5 harg5 arg6 harg6 hc0 hc1 xQ xK xV xA)]
  unfold runMiddle
  dsimp only
  sl_unfold_words
  rw [View.canon_unit_zero (S := S1024x3) zeroOff]
  rw [readWhole arg2 harg2 zeroOff, readWhole arg3 harg3 zeroOff, readWhole arg4 harg4 zeroOff, readWhole arg6 harg6 zeroOff]

/-- LAST: the accumulator ends at the same payload, -/
theorem accAfterLast_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) :
    accAfterLast c i arg2 harg2 arg3 harg3 arg4 harg4 arg5 harg5 arg6 harg6 hc0 hc1 xQ xK xV xA = k3_pay2 xQ xK xV xA := by
  unfold accAfterLast
  rw [View.read_writes_eq_canon _ _ _ (accCover_last c i arg2 harg2 arg3 harg3 arg4 harg4 arg5 harg5 arg6 harg6 hc0 hc1 xQ xK xV xA)]
  unfold runLast
  dsimp only
  sl_unfold_words
  rw [View.canon_unit_zero (S := S1024x3) zeroOff]
  rw [readWhole arg2 harg2 zeroOff, readWhole arg3 harg3 zeroOff, readWhole arg4 harg4 zeroOff, readWhole arg6 harg6 zeroOff]

/-- and the output tile at the accumulator's new contents (the copy reads back the store just made). -/
theorem outAfterLast_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : ¬resetCond i) (hc1 : emitCond i) (xQ : Vec F S1024x512 .f32) (xK : Vec F S1024x512 .f32) (xV : Vec F S1024x3 .f32) (xA : Vec F S1024x3 .f32) :
    outAfterLast c i arg2 harg2 arg3 harg3 arg4 harg4 arg5 harg5 arg6 harg6 hc0 hc1 xQ xK xV xA = k3_pay2 xQ xK xV xA := by
  unfold outAfterLast
  rw [View.read_writes_eq_canon _ _ _ (outCover_last c i arg2 harg2 arg3 harg3 arg4 harg4 arg5 harg5 arg6 harg6 hc0 hc1 xQ xK xV xA)]
  unfold runLast
  dsimp only
  sl_unfold_words
  rw [View.canon_unit_zero (S := S1024x3) zeroOff, View.readCov_unit_zero (S := S1024x3) _ zeroOff]
  rw [readWhole arg2 harg2 zeroOff, readWhole arg3 harg3 zeroOff, readWhole arg4 harg4 zeroOff, readWhole arg6 harg6 zeroOff]

/-- FIRST: the accumulator ends at the sum's payload over the blocks and the zero fill. -/
theorem accAfterFirst_eq (c : Dev nD) (i : grid3.Coords)
    (arg2 : Memref sig .tc .vmem S1024x512 .f32) (harg2 : arg2.IsWhole) (arg3 : Memref sig .tc .vmem S1024x512 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole)
    (hc0 : resetCond i) (hc1 : ¬emitCond i) (xQ : Vec F S1024x512 .f32) (xK : Vec F S1024x512 .f32) (xV : Vec F S1024x3 .f32) :
    accAfterFirst c i arg2 harg2 arg3 harg3 arg4 harg4 arg5 harg5 arg6 harg6 hc0 hc1 xQ xK xV = k3_pay2 xQ xK xV k3_pay1 := by
  unfold accAfterFirst
  rw [View.read_writes_eq_canon _ _ _ (accCover_first c i arg2 harg2 arg3 harg3 arg4 harg4 arg5 harg5 arg6 harg6 hc0 hc1 xQ xK xV)]
  unfold runFirst
  dsimp only
  sl_unfold_words
  rw [View.canon_cons_unit_zero (S := S1024x3) zeroOff, View.readCov_unit_zero (S := S1024x3) _ zeroOff]
  rw [readWhole arg2 harg2 zeroOff, readWhole arg3 harg3 zeroOff, readWhole arg4 harg4 zeroOff]

section
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The Q window's current staging buffer holds its block at every point, fetched there or not (it is fetched only
    when the outer coordinate moves; in between its block index does not move), for any proof data whose array is
    `V`'s and whose body leaves the block in place. -/
theorem beforeQ_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the K window (fetched at every point) -/
theorem beforeK_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- and for the V window (fetched at every point). -/
theorem beforeV_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the output tile and the accumulator hold after each point -/

/-- One point's step: from the accumulator `xA` as the point before left it (unused when the point resets it), the
    output tile's and the accumulator's contents after the body at point `t` — the case the closed forms of the two
    conditions select, run on the point's memrefs and the point's Q, K, V blocks. -/
def pointOuts (c : Dev nD) (t : Fin cfg3.N) (xA : Vec F S1024x3 .f32) : Vec F S1024x3 .f32 × Vec F S1024x3 .f32 :=
  if h0 : t.val % 8 = 0 then
    (outUntouched, accAfterFirst c (grid3.coords t) (stQ t) (stQ_whole t) (stK t) (stK_whole t) (stV t) (stV_whole t) (stO t) (stO_whole t) accM (Memref.isWhole_whole _) ((resetCond_iff t).mpr h0) (fun h => by have := (emitCond_iff t).mp h; omega)
      (iblk3 V c 0 t) (iblk3 V c 1 t) (iblk3 V c 2 t))
  else if h1 : t.val % 8 = 7 then
    (outAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA,
     accAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA)
  else
    (outUntouched, accAfterMiddle c (grid3.coords t) (stQ t) (stQ_whole t) (stK t) (stK_whole t) (stV t) (stV_whole t) (stO t) (stO_whole t) accM (Memref.isWhole_whole _) (fun h => h0 ((resetCond_iff t).mp h)) (fun h => h1 ((emitCond_iff t).mp h))
      (iblk3 V c 0 t) (iblk3 V c 1 t) (iblk3 V c 2 t) xA)

/-- THE ACCUMULATION. What the output window's current staging buffer (`.1`) and the accumulator (`.2`) hold after
    the body at position `n`: the point's step from what the point before left in the accumulator (at position 0,
    which resets it, from a placeholder). -/
def outsAt3 (c : Dev nD) : (n : ℕ) → n < cfg3.N → Vec F S1024x3 .f32 × Vec F S1024x3 .f32
  | 0, hn => pointOuts V c ⟨0, hn⟩ outUntouched
  | n + 1, hn => pointOuts V c ⟨n + 1, hn⟩ (outsAt3 c n (Nat.lt_of_succ_lt hn)).2

/-- At the first position: the step from the placeholder. -/
theorem outsAt3_zero (c : Dev nD) (t : Fin cfg3.N) (hz : t.val = 0) :
    outsAt3 V c t.val t.isLt = pointOuts V c t outUntouched := by
  obtain ⟨n, hn⟩ := t
  cases n with
  | zero => rfl
  | succ n => exact absurd hz (Nat.succ_ne_zero n)

/-- At a later position: the step from what the position before left. -/
theorem outsAt3_pos (c : Dev nD) (t : Fin cfg3.N) (hz : t.val ≠ 0) :
    outsAt3 V c t.val t.isLt = pointOuts V c t (outsAt3 V c (t.val - 1) (Nat.lt_of_le_of_lt (Nat.sub_le _ _) t.isLt)).2 := by
  obtain ⟨n, hn⟩ := t
  cases n with
  | zero => exact absurd rfl hz
  | succ n => rfl

/-- The step at a point of the FIRST case, -/
theorem pointOuts_first (c : Dev nD) (t : Fin cfg3.N) (xA : Vec F S1024x3 .f32) (h0 : t.val % 8 = 0) (h1 : ¬t.val % 8 = 7) :
    pointOuts V c t xA = (outUntouched, accAfterFirst c (grid3.coords t) (stQ t) (stQ_whole t) (stK t) (stK_whole t) (stV t) (stV_whole t) (stO t) (stO_whole t) accM (Memref.isWhole_whole _) ((resetCond_iff t).mpr h0) (fun h => h1 ((emitCond_iff t).mp h))
      (iblk3 V c 0 t) (iblk3 V c 1 t) (iblk3 V c 2 t)) := by
  unfold pointOuts; exact dif_pos h0

/-- of the MIDDLE case, -/
theorem pointOuts_middle (c : Dev nD) (t : Fin cfg3.N) (xA : Vec F S1024x3 .f32) (h0 : ¬t.val % 8 = 0) (h1 : ¬t.val % 8 = 7) :
    pointOuts V c t xA = (outUntouched, accAfterMiddle c (grid3.coords t) (stQ t) (stQ_whole t) (stK t) (stK_whole t) (stV t) (stV_whole t) (stO t) (stO_whole t) accM (Memref.isWhole_whole _) (fun h => h0 ((resetCond_iff t).mp h)) (fun h => h1 ((emitCond_iff t).mp h))
      (iblk3 V c 0 t) (iblk3 V c 1 t) (iblk3 V c 2 t) xA) := by
  unfold pointOuts; exact (dif_neg h0).trans (dif_neg h1)

/-- and of the LAST case. -/
theorem pointOuts_last (c : Dev nD) (t : Fin cfg3.N) (xA : Vec F S1024x3 .f32) (h0 : ¬t.val % 8 = 0) (h1 : t.val % 8 = 7) :
    pointOuts V c t xA = (outAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA,
     accAfterLast c (grid3.coords t) (stQ t) (stQ_whole t) (stK t) (stK_whole t) (stV t) (stV_whole t) (stO t) (stO_whole t) accM (Memref.isWhole_whole _) (fun h => h0 ((resetCond_iff t).mp h)) ((emitCond_iff t).mpr h1)
      (iblk3 V c 0 t) (iblk3 V c 1 t) (iblk3 V c 2 t) xA) := by
  unfold pointOuts; exact (dif_neg h0).trans (dif_pos h1)

/-! ## The region invariant, tracking the accumulator -/

/-- The region invariant before position `n`: before the first point what the launch hands the region (every scoped
    buffer that is no staging buffer at anything, the generator register at some state); afterwards the accumulator at
    what the point before left in it, every other such buffer unopened, and the generator register at some state. -/
def accInv (c : Dev nD) : (n : ℕ) → n ≤ cfg3.N → sProp 𝕄
  | 0, _ => Pipeline.ΦA spec3 c
  | n + 1, hn => iprop(iprop(iprop(owns (c : Thread nD τ) accM fullShare ((outsAt3 V c n hn).2))
      ∗ Pipeline.scopedRestBut (Ix := Unit) (Name := ℕ) (U := UR sig nD τ) (Lvl := ℕ) (Val := Elt F) spec3 c [cc3_scratch0])
      ∗ (∃ r, prngReg c r))

theorem accInv_zero (c : Dev nD) (n : ℕ) (h : n ≤ cfg3.N) (hz : n = 0) : accInv V c n h = Pipeline.ΦA spec3 c := by
  subst hz; rfl

theorem accInv_succ (c : Dev nD) (n : ℕ) (hn : n < cfg3.N) :
    accInv V c (n + 1) hn = iprop(iprop(iprop(owns (c : Thread nD τ) accM fullShare ((outsAt3 V c n hn).2))
      ∗ Pipeline.scopedRestBut (Ix := Unit) (Name := ℕ) (U := UR sig nD τ) (Lvl := ℕ) (Val := Elt F) spec3 c [cc3_scratch0])
      ∗ (∃ r, prngReg c r)) := rfl

theorem accInv_pos (c : Dev nD) (n : ℕ) (h : n ≤ cfg3.N) (hz : n ≠ 0) :
    accInv V c n h = iprop(iprop(iprop(owns (c : Thread nD τ) accM fullShare ((outsAt3 V c (n - 1) (by omega)).2))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-! ## The pipeline's proof data -/

/-- The proof data of the attention pipeline on core `c`: the arrays as the region finds them (`V`); after the body
    at point `t` the Q, K, V buffers at their blocks and the output buffer at `outsAt3`'s first component; the invariant
    `accInv`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := accInv V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem accInv_castSucc (c : Dev nD) (t : Fin cfg3.N) :
    (dat3 V c).Φ t.castSucc = accInv V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  beforeQ_of V (dat3 V c) (A_eq3 V c 0) (after3_0 V c) t d
theorem before3_1 (c : Dev nD) (t : Fin cfg3.N) (d) : (dat3 V c).before 1 t d = iblk3 V c 1 t :=
  beforeK_of V (dat3 V c) (A_eq3 V c 1) (after3_1 V c) t d
theorem before3_2 (c : Dev nD) (t : Fin cfg3.N) (d) : (dat3 V c).before 2 t d = iblk3 V c 2 t :=
  beforeV_of V (dat3 V c) (A_eq3 V c 2) (after3_2 V c) t d

/-! ## The body obligation, at a generic point -/

/-- What the body is called with at point `t` (the library's body obligation's precondition, window by window), -/
def bodyPre3 (c : Dev nD) (t : Fin cfg3.N) : sProp 𝕄 :=
  iprop((dat3 V c).Φ t.castSucc ∗ (dat3 V c).owesAt () t.castSucc
    ∗ (∃ d, owns (c : Thread nD τ) (stQ t) fullShare ((dat3 V c).before 0 t d))
    ∗ (∃ d, owns (c : Thread nD τ) (stK t) fullShare ((dat3 V c).before 1 t d))
    ∗ (∃ d, owns (c : Thread nD τ) (stV t) fullShare ((dat3 V c).before 2 t d))
    ∗ (∃ d, owns (c : Thread nD τ) (stO t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The Q, K, V memrefs hold their blocks; the inner coordinate says which case the point is
    in, and that case's run applies. The invariant hands the body the accumulator at what the point before left (at
    anything before the first point), every other scoped buffer and the generator register untouched, and takes the
    accumulator back at this point's contents (the case's pieces cover it). In the FIRST and MIDDLE cases the output
    tile is idle and handed back as found; in the LAST case it is taken back at the copy of the accumulator. The core
    owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = accInv V c (t.val + 1) t.isLt from rfl, accInv_succ]
  rw [show (dat3 V c).leavesExact 0 t = owns (c : Thread nD τ) (stQ t) fullShare ((dat3 V c).after 0 t) from by
    unfold Dat.leavesExact; rw [inLive_Q t], after3_0]
  rw [show (dat3 V c).leavesExact 1 t = owns (c : Thread nD τ) (stK t) fullShare ((dat3 V c).after 1 t) from by
    unfold Dat.leavesExact; rw [inLive_K t], after3_1]
  rw [show (dat3 V c).leavesExact 2 t = owns (c : Thread nD τ) (stV t) fullShare ((dat3 V c).after 2 t) from by
    unfold Dat.leavesExact; rw [inLive_V t], after3_2]
  by_cases h0 : t.val % 8 = 0
  · have h1 : ¬t.val % 8 = 7 := by omega
    rw [Dat.leavesExact_idle (dat3 V c) 3 t (outIdle_first t ((resetCond_iff t).mpr h0) (fun h => h1 ((emitCond_iff t).mp h))) (outKept_first t ((resetCond_iff t).mpr h0) (fun h => h1 ((emitCond_iff t).mp h)))]
    by_cases hz : t.val = 0
    · rw [outsAt3_zero V c t hz, pointOuts_first V c t _ h0 h1]
      unfold accAfterFirst; (try dsimp only)
      rw [accInv_castSucc V c t, accInv_zero V c _ _ hz, regionInv_split]
      iintro ⟨⟨⟨HA, Hrest⟩, Hg⟩, Ho, ⟨%d0, H0⟩, ⟨%d1, H1⟩, ⟨%d2, H2⟩, ⟨%d3, H3⟩⟩
      iapply ((runFirst c (grid3.coords t) _ _ _ _ _ _ _ _ _ _ ((resetCond_iff t).mpr h0) (fun h => h1 ((emitCond_iff t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [outsAt3_pos V c t hz, pointOuts_first V c t _ h0 h1]
      unfold accAfterFirst; (try dsimp only)
      rw [accInv_castSucc V c t, accInv_pos V c _ _ hz]
      iintro ⟨⟨⟨HA, Hrest⟩, Hg⟩, Ho, ⟨%d0, H0⟩, ⟨%d1, H1⟩, ⟨%d2, H2⟩, ⟨%d3, H3⟩⟩
      iapply ((runFirst c (grid3.coords t) _ _ _ _ _ _ _ _ _ _ ((resetCond_iff t).mpr h0) (fun h => h1 ((emitCond_iff t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_first c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat3 V c).leavesExact 3 t = owns (c : Thread nD τ) (stO t) fullShare ((dat3 V c).after 3 t) from by
        unfold Dat.leavesExact; rw [outLive_last t (fun h => h0 ((resetCond_iff t).mp h)) ((emitCond_iff t).mpr h1)], after3_3]
      rw [outsAt3_pos V c t hz, pointOuts_last V c t _ h0 h1]
      unfold outAfterLast accAfterLast; (try dsimp only)
      rw [accInv_castSucc V c t, accInv_pos V c _ _ hz]
      iintro ⟨⟨⟨HA, Hrest⟩, Hg⟩, Ho, ⟨%d0, H0⟩, ⟨%d1, H1⟩, ⟨%d2, H2⟩, ⟨%d3, H3⟩⟩
      iapply ((runLast c (grid3.coords t) _ _ _ _ _ _ _ _ _ _ (fun h => h0 ((resetCond_iff t).mp h)) ((emitCond_iff t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%e3, H3⟩, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_last c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · rw [Dat.leavesExact_idle (dat3 V c) 3 t (outIdle_middle t (fun h => h0 ((resetCond_iff t).mp h)) (fun h => h1 ((emitCond_iff t).mp h))) (outKept_middle t (fun h => h0 ((resetCond_iff t).mp h)) (fun h => h1 ((emitCond_iff t).mp h)))]
      rw [outsAt3_pos V c t hz, pointOuts_middle V c t _ h0 h1]
      unfold accAfterMiddle; (try dsimp only)
      rw [accInv_castSucc V c t, accInv_pos V c _ _ hz]
      iintro ⟨⟨⟨HA, Hrest⟩, Hg⟩, Ho, ⟨%d0, H0⟩, ⟨%d1, H1⟩, ⟨%d2, H2⟩, ⟨%d3, H3⟩⟩
      iapply ((runMiddle c (grid3.coords t) _ _ _ _ _ _ _ _ _ _ (fun h => h0 ((resetCond_iff t).mp h)) (fun h => h1 ((emitCond_iff t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HA]; · iexact HA
      iintro ⟨H0, H1, H2, H3, ⟨%eA, HA⟩⟩
      isplitl [HA Hrest Hg]
      · isplitl [HA Hrest]
        · isplitl [HA]
          · unfold owns; iexists _; isplitr
            swap; · iexact HA
            ipureintro; exact View.read_writes_of_cover _ _ _ _ _ (accCover_middle c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = accInv V c 0 (Nat.zero_le _) from rfl, accInv_zero V c 0 _ rfl]
  try exact Idealize.SL.BI.Entails.refl _

/-- After any point the invariant gives back what the launch handed over: the accumulator's named contents are
    forgotten. -/
theorem accInv_out (c : Dev nD) (t : Fin (cfg3.N + 1)) (ht : t.val ≠ 0) : (dat3 V c).Φ t ⊢ Pipeline.ΦA spec3 c := by
  rw [show (dat3 V c).Φ t = accInv V c t.val (Nat.le_of_lt_succ t.isLt) from rfl, accInv_pos V c _ _ ht, regionInv_split]
  iintro ⟨⟨HA, Hrest⟩, Hg⟩
  isplitl [HA Hrest]
  · isplitl [HA]
    · iexists _; iexact HA
    iexact Hrest
  iexact Hg

/-- The same after the last point. -/
theorem hout3 (c : Dev nD) : (dat3 V c).Φ (Fin.last cfg3.N) ⊢ Pipeline.ΦA spec3 c :=
  accInv_out V c _ (by rw [Fin.val_last]; have : cfg3.N = 64 := N_3; omega)

/-! ## What the accumulator and the output tile hold, in closed form over the payloads -/

/-- At a point that resets the accumulator (inner coordinate 0) it ends at the sum's payload over the point's Q, K, V
    blocks and the zero fill. -/
theorem outsAt3_scratch_first (c : Dev nD) (t : Fin cfg3.N) (h : t.val % 8 = 0) :
    (outsAt3 V c t.val t.isLt).2 = k3_pay2 (iblk3 V c 0 t) (iblk3 V c 1 t) (iblk3 V c 2 t) k3_pay1 := by
  have h1 : ¬t.val % 8 = 7 := by omega
  by_cases hz : t.val = 0
  · rw [outsAt3_zero V c t hz, pointOuts_first V c t _ h h1]; dsimp only
    exact accAfterFirst_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t)
  · rw [outsAt3_pos V c t hz, pointOuts_first V c t _ h h1]; dsimp only
    exact accAfterFirst_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t)

/-- At any other point it ends at the sum's payload over the point's blocks and what the point before left. -/
theorem outsAt3_scratch_next (c : Dev nD) (t : Fin cfg3.N) (h : t.val % 8 ≠ 0) :
    (outsAt3 V c t.val t.isLt).2 = k3_pay2 (iblk3 V c 0 t) (iblk3 V c 1 t) (iblk3 V c 2 t)
      (outsAt3 V c (t.val - 1) (Nat.lt_of_le_of_lt (Nat.sub_le _ _) t.isLt)).2 := by
  have hz : t.val ≠ 0 := by omega
  by_cases h1 : t.val % 8 = 7
  · rw [outsAt3_pos V c t hz, pointOuts_last V c t _ h h1]; dsimp only
    exact accAfterLast_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _
  · rw [outsAt3_pos V c t hz, pointOuts_middle V c t _ h h1]; dsimp only
    exact accAfterMiddle_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _

/-- At a point that copies the accumulator out (inner coordinate 7) the output tile ends at the accumulator's new
    contents. -/
theorem outsAt3_out_last (c : Dev nD) (t : Fin cfg3.N) (h : t.val % 8 = 7) :
    (outsAt3 V c t.val t.isLt).1 = (outsAt3 V c t.val t.isLt).2 := by
  have h0 : ¬t.val % 8 = 0 := by omega
  have hz : t.val ≠ 0 := by omega
  rw [outsAt3_pos V c t hz, pointOuts_last V c t _ h0 h]; dsimp only
  exact (outAfterLast_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _).trans
    (accAfterLast_eq c (grid3.coords t) (stQ t) (stQ_whole t) (stK t) (stK_whole t) (stV t) (stV_whole t) (stO t) (stO_whole t) accM (Memref.isWhole_whole _) _ _ (iblk3 V c 0 t) (iblk3 V c 1 t) (iblk3 V c 2 t) _).symm

end

end Cert.KernelIdeal.Hand

end
-- ==== Proof.KRun.lean ====
/-
  The run of the program's four kernel regions, in order: three sine networks, then the attention.

  Between two regions a core's unscoped buffers hold the launch contents with each finished region's arrays replaced by what its
  write-backs left (`W0` … `W4`). Each region is entered from those buffers beside the generator register and leaves them at
  the next contents; the attention region also tracks its accumulator, which it takes out of the scoped buffers and gives back.
  Read against a final state, the fold gives the frame (`frame`: no region writes an argument) and the result array as
  the attention region's final contents (`run_value`).
-/
import proofs.«178031_j19344532702252_1_alg».proof.Proof.Gen.KernelIdeal.Launch
import proofs.«178031_j19344532702252_1_alg».proof.Proof.Gen.KernelIdeal.Skeleton
import proofs.«178031_j19344532702252_1_alg».proof.Proof.Gen.KernelIdeal.Points
import proofs.«178031_j19344532702252_1_alg».proof.Proof.MlpRegion0
import proofs.«178031_j19344532702252_1_alg».proof.Proof.MlpRegion1
import proofs.«178031_j19344532702252_1_alg».proof.Proof.MlpRegion2
import proofs.«178031_j19344532702252_1_alg».proof.Proof.AttnRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the four regions

## What the unscoped buffers hold between two regions -/

/-- Core `c`'s buffers at launch: what the first network's region is entered from. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b

/-- After region 0: its arrays at what its write-backs leave, every other buffer as it was entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After region 1: its arrays at what its write-backs leave, every other buffer as it was entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-- After region 2: its arrays at what its write-backs leave, every other buffer as it was entered. -/
def W3 (c : Dev nD) : Valuation τ sig (Elt F) :=
  Pipeline.withArrays spec2 c (W2 m ρ c) fun w => (dat2 (E2 m ρ) c).arrAt w cfg2.N
theorem W3_arr (c : Dev nD) (w : Fin cfg2.W) :
    W3 m ρ c (Proc.devRef .tc (Pipeline.arrRef spec2 w)) = (dat2 (E2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev E3 : (c : Dev nD) → (b : Ref sig .tc) → Buf (Elt F) ((c : Thread nD τ).loc b) := fun c b => W3 m ρ c b
theorem hF2 (c : Dev nD) (w : Fin cfg2.W) : (dat2 (E2 m ρ) c).arrAt w cfg2.N = E3 m ρ c (Pipeline.arrRef spec2 w) :=
  (W3_arr m ρ c w).symm
theorem hrest2 (c : Dev nD) : ∀ b, b ∉ Finset.univ.image (Pipeline.arrRef spec2) → E3 m ρ c b = E2 m ρ c b :=
  fun b hb => W3_of_ne m ρ c b fun w e => hb (Finset.mem_image.mpr ⟨w, Finset.mem_univ _, e⟩)

/-- After region 3: its arrays at what its write-backs leave, every other buffer as it was entered. -/
def W4 (c : Dev nD) : Valuation τ sig (Elt F) :=
  Pipeline.withArrays spec3 c (W3 m ρ c) fun w => (dat3 (E3 m ρ) c).arrAt w cfg3.N
theorem W4_arr (c : Dev nD) (w : Fin cfg3.W) :
    W4 m ρ c (Proc.devRef .tc (Pipeline.arrRef spec3 w)) = (dat3 (E3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev E4 : (c : Dev nD) → (b : Ref sig .tc) → Buf (Elt F) ((c : Thread nD τ).loc b) := fun c b => W4 m ρ c b
theorem hF3 (c : Dev nD) (w : Fin cfg3.W) : (dat3 (E3 m ρ) c).arrAt w cfg3.N = E4 m ρ c (Pipeline.arrRef spec3 w) :=
  (W4_arr m ρ c w).symm
theorem hrest3 (c : Dev nD) : ∀ b, b ∉ Finset.univ.image (Pipeline.arrRef spec3) → E4 m ρ c b = E3 m ρ c b :=
  fun b hb => W4_of_ne m ρ c b fun w e => hb (Finset.mem_image.mpr ⟨w, Finset.mem_univ _, e⟩)

/-! ## The proof data of the four pipelines, each at its region's entry contents -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
abbrev 𝒱₀ : Variants := Variants.none
abbrev L : GSem nD τ sig → Finset Unit := fun _ => ∅
abbrev lv : GSem nD τ sig → Unit → ℕ := fun _ _ => 0
/-- What rides beside the buffers between regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 between the buffer contents before and after it: its arrays taken out of the unscoped buffers and put
    back at what the pipeline leaves; the generator register lent to the region's invariant and returned. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the buffer contents before and after it: its arrays taken out of the unscoped buffers and put
    back at what the pipeline leaves; the generator register lent to the region's invariant and returned. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the buffer contents before and after it: its arrays taken out of the unscoped buffers and put
    back at what the pipeline leaves; the generator register lent to the region's invariant and returned. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (E3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the buffer contents before and after it: its arrays taken out of the unscoped buffers and put
    back at what the pipeline leaves; the generator register lent to the region's invariant and returned. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec3 c ∗ ∃ r, prngReg c r) : sProp 𝕄)
        ⊢ (pdats m ρ 3 c).Φ 0 := by
      have h' := hin3 (E3 m ρ) c; unfold Pipeline.ΦA at h'; exact h'
    iintro ⟨Hp, -, Hr⟩
    iapply h
    isplitl [Hr]; · iexact Hr
    iexact Hp
  hout c := by
    rw [Pipeline.ownSems0_none]
    have h : (pdats m ρ 3 c).Φ (Fin.last _)
        ⊢ (iprop(Pipeline.scopedRest (Ix := Unit) (Name := ℕ) (U := UR sig nD τ) (Lvl := ℕ) (Val := Elt F) spec3 c ∗ ∃ r, prngReg c r) : sProp 𝕄) := by
      have h' := hout3 (E3 m ρ) c; unfold Pipeline.ΦA at h'; exact h'
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (E4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four regions, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- Every weakly fair execution of @main from `m` terminates, nothing faulting, and in every final state each unscoped
    buffer of a core holds what the fold over the four regions says (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## Reading the fold

No region writes an argument: a region stages it through an input window, whose array ends as it was entered, or does
not touch it. -/
theorem W1_main_arg0 (c : Dev nD) : W1 m ρ c (Proc.devRef .tc main_arg0) = m ((c : Thread nD τ).loc main_arg0) :=
  ((W1_arr m ρ c 0).trans (((dat0 (E0 m ρ) c).arrAt_in 0 rfl _).trans (A_eq0 (E0 m ρ) c 0))).trans rfl
theorem W2_main_arg0 (c : Dev nD) : W2 m ρ c (Proc.devRef .tc main_arg0) = m ((c : Thread nD τ).loc main_arg0) :=
  (W2_of_ne m ρ c main_arg0 (by decide)).trans <| ((W1_arr m ρ c 0).trans (((dat0 (E0 m ρ) c).arrAt_in 0 rfl _).trans (A_eq0 (E0 m ρ) c 0))).trans rfl
theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <| ((W1_arr m ρ c 0).trans (((dat0 (E0 m ρ) c).arrAt_in 0 rfl _).trans (A_eq0 (E0 m ρ) c 0))).trans rfl
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_of_ne m ρ c main_arg0 (by decide)).trans <| ((W1_arr m ρ c 0).trans (((dat0 (E0 m ρ) c).arrAt_in 0 rfl _).trans (A_eq0 (E0 m ρ) c 0))).trans rfl
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  ((W2_arr m ρ c 0).trans (((dat1 (E1 m ρ) c).arrAt_in 0 rfl _).trans (A_eq1 (E1 m ρ) c 0))).trans <| (W1_of_ne m ρ c main_arg1 (by decide)).trans rfl
theorem W3_main_arg1 (c : Dev nD) : W3 m ρ c (Proc.devRef .tc main_arg1) = m ((c : Thread nD τ).loc main_arg1) :=
  ((W3_arr m ρ c 0).trans (((dat2 (E2 m ρ) c).arrAt_in 0 rfl _).trans (A_eq2 (E2 m ρ) c 0))).trans <| ((W2_arr m ρ c 0).trans (((dat1 (E1 m ρ) c).arrAt_in 0 rfl _).trans (A_eq1 (E1 m ρ) c 0))).trans <| (W1_of_ne m ρ c main_arg1 (by decide)).trans rfl
theorem W4_main_arg1 (c : Dev nD) : W4 m ρ c (Proc.devRef .tc main_arg1) = m ((c : Thread nD τ).loc main_arg1) :=
  (W4_of_ne m ρ c main_arg1 (by decide)).trans <| ((W3_arr m ρ c 0).trans (((dat2 (E2 m ρ) c).arrAt_in 0 rfl _).trans (A_eq2 (E2 m ρ) c 0))).trans <| ((W2_arr m ρ c 0).trans (((dat1 (E1 m ρ) c).arrAt_in 0 rfl _).trans (A_eq1 (E1 m ρ) c 0))).trans <| (W1_of_ne m ρ c main_arg1 (by decide)).trans rfl
theorem W1_main_arg2 (c : Dev nD) : W1 m ρ c (Proc.devRef .tc main_arg2) = m ((c : Thread nD τ).loc main_arg2) :=
  ((W1_arr m ρ c 1).trans (((dat0 (E0 m ρ) c).arrAt_in 1 rfl _).trans (A_eq0 (E0 m ρ) c 1))).trans rfl
theorem W2_main_arg2 (c : Dev nD) : W2 m ρ c (Proc.devRef .tc main_arg2) = m ((c : Thread nD τ).loc main_arg2) :=
  (W2_of_ne m ρ c main_arg2 (by decide)).trans <| ((W1_arr m ρ c 1).trans (((dat0 (E0 m ρ) c).arrAt_in 1 rfl _).trans (A_eq0 (E0 m ρ) c 1))).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <| ((W1_arr m ρ c 1).trans (((dat0 (E0 m ρ) c).arrAt_in 1 rfl _).trans (A_eq0 (E0 m ρ) c 1))).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_of_ne m ρ c main_arg2 (by decide)).trans <| ((W1_arr m ρ c 1).trans (((dat0 (E0 m ρ) c).arrAt_in 1 rfl _).trans (A_eq0 (E0 m ρ) c 1))).trans rfl
theorem W1_main_arg3 (c : Dev nD) : W1 m ρ c (Proc.devRef .tc main_arg3) = m ((c : Thread nD τ).loc main_arg3) :=
  ((W1_arr m ρ c 2).trans (((dat0 (E0 m ρ) c).arrAt_in 2 rfl _).trans (A_eq0 (E0 m ρ) c 2))).trans rfl
theorem W2_main_arg3 (c : Dev nD) : W2 m ρ c (Proc.devRef .tc main_arg3) = m ((c : Thread nD τ).loc main_arg3) :=
  (W2_of_ne m ρ c main_arg3 (by decide)).trans <| ((W1_arr m ρ c 2).trans (((dat0 (E0 m ρ) c).arrAt_in 2 rfl _).trans (A_eq0 (E0 m ρ) c 2))).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| ((W1_arr m ρ c 2).trans (((dat0 (E0 m ρ) c).arrAt_in 2 rfl _).trans (A_eq0 (E0 m ρ) c 2))).trans rfl
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <| (W2_of_ne m ρ c main_arg3 (by decide)).trans <| ((W1_arr m ρ c 2).trans (((dat0 (E0 m ρ) c).arrAt_in 2 rfl _).trans (A_eq0 (E0 m ρ) c 2))).trans rfl
theorem W1_main_arg4 (c : Dev nD) : W1 m ρ c (Proc.devRef .tc main_arg4) = m ((c : Thread nD τ).loc main_arg4) :=
  ((W1_arr m ρ c 3).trans (((dat0 (E0 m ρ) c).arrAt_in 3 rfl _).trans (A_eq0 (E0 m ρ) c 3))).trans rfl
theorem W2_main_arg4 (c : Dev nD) : W2 m ρ c (Proc.devRef .tc main_arg4) = m ((c : Thread nD τ).loc main_arg4) :=
  (W2_of_ne m ρ c main_arg4 (by decide)).trans <| ((W1_arr m ρ c 3).trans (((dat0 (E0 m ρ) c).arrAt_in 3 rfl _).trans (A_eq0 (E0 m ρ) c 3))).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <| ((W1_arr m ρ c 3).trans (((dat0 (E0 m ρ) c).arrAt_in 3 rfl _).trans (A_eq0 (E0 m ρ) c 3))).trans rfl
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <| (W2_of_ne m ρ c main_arg4 (by decide)).trans <| ((W1_arr m ρ c 3).trans (((dat0 (E0 m ρ) c).arrAt_in 3 rfl _).trans (A_eq0 (E0 m ρ) c 3))).trans rfl
theorem W1_main_arg5 (c : Dev nD) : W1 m ρ c (Proc.devRef .tc main_arg5) = m ((c : Thread nD τ).loc main_arg5) :=
  ((W1_arr m ρ c 4).trans (((dat0 (E0 m ρ) c).arrAt_in 4 rfl _).trans (A_eq0 (E0 m ρ) c 4))).trans rfl
theorem W2_main_arg5 (c : Dev nD) : W2 m ρ c (Proc.devRef .tc main_arg5) = m ((c : Thread nD τ).loc main_arg5) :=
  (W2_of_ne m ρ c main_arg5 (by decide)).trans <| ((W1_arr m ρ c 4).trans (((dat0 (E0 m ρ) c).arrAt_in 4 rfl _).trans (A_eq0 (E0 m ρ) c 4))).trans rfl
theorem W3_main_arg5 (c : Dev nD) : W3 m ρ c (Proc.devRef .tc main_arg5) = m ((c : Thread nD τ).loc main_arg5) :=
  (W3_of_ne m ρ c main_arg5 (by decide)).trans <| (W2_of_ne m ρ c main_arg5 (by decide)).trans <| ((W1_arr m ρ c 4).trans (((dat0 (E0 m ρ) c).arrAt_in 4 rfl _).trans (A_eq0 (E0 m ρ) c 4))).trans rfl
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <| (W2_of_ne m ρ c main_arg5 (by decide)).trans <| ((W1_arr m ρ c 4).trans (((dat0 (E0 m ρ) c).arrAt_in 4 rfl _).trans (A_eq0 (E0 m ρ) c 4))).trans rfl
theorem W1_main_arg6 (c : Dev nD) : W1 m ρ c (Proc.devRef .tc main_arg6) = m ((c : Thread nD τ).loc main_arg6) :=
  ((W1_arr m ρ c 5).trans (((dat0 (E0 m ρ) c).arrAt_in 5 rfl _).trans (A_eq0 (E0 m ρ) c 5))).trans rfl
theorem W2_main_arg6 (c : Dev nD) : W2 m ρ c (Proc.devRef .tc main_arg6) = m ((c : Thread nD τ).loc main_arg6) :=
  (W2_of_ne m ρ c main_arg6 (by decide)).trans <| ((W1_arr m ρ c 5).trans (((dat0 (E0 m ρ) c).arrAt_in 5 rfl _).trans (A_eq0 (E0 m ρ) c 5))).trans rfl
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans <| ((W1_arr m ρ c 5).trans (((dat0 (E0 m ρ) c).arrAt_in 5 rfl _).trans (A_eq0 (E0 m ρ) c 5))).trans rfl
theorem W4_main_arg6 (c : Dev nD) : W4 m ρ c (Proc.devRef .tc main_arg6) = m ((c : Thread nD τ).loc main_arg6) :=
  (W4_of_ne m ρ c main_arg6 (by decide)).trans <| (W3_of_ne m ρ c main_arg6 (by decide)).trans <| (W2_of_ne m ρ c main_arg6 (by decide)).trans <| ((W1_arr m ρ c 5).trans (((dat0 (E0 m ρ) c).arrAt_in 5 rfl _).trans (A_eq0 (E0 m ρ) c 5))).trans rfl
theorem W1_main_arg7 (c : Dev nD) : W1 m ρ c (Proc.devRef .tc main_arg7) = m ((c : Thread nD τ).loc main_arg7) :=
  ((W1_arr m ρ c 6).trans (((dat0 (E0 m ρ) c).arrAt_in 6 rfl _).trans (A_eq0 (E0 m ρ) c 6))).trans rfl
theorem W2_main_arg7 (c : Dev nD) : W2 m ρ c (Proc.devRef .tc main_arg7) = m ((c : Thread nD τ).loc main_arg7) :=
  (W2_of_ne m ρ c main_arg7 (by decide)).trans <| ((W1_arr m ρ c 6).trans (((dat0 (E0 m ρ) c).arrAt_in 6 rfl _).trans (A_eq0 (E0 m ρ) c 6))).trans rfl
theorem W3_main_arg7 (c : Dev nD) : W3 m ρ c (Proc.devRef .tc main_arg7) = m ((c : Thread nD τ).loc main_arg7) :=
  (W3_of_ne m ρ c main_arg7 (by decide)).trans <| (W2_of_ne m ρ c main_arg7 (by decide)).trans <| ((W1_arr m ρ c 6).trans (((dat0 (E0 m ρ) c).arrAt_in 6 rfl _).trans (A_eq0 (E0 m ρ) c 6))).trans rfl
theorem W4_main_arg7 (c : Dev nD) : W4 m ρ c (Proc.devRef .tc main_arg7) = m ((c : Thread nD τ).loc main_arg7) :=
  (W4_of_ne m ρ c main_arg7 (by decide)).trans <| (W3_of_ne m ρ c main_arg7 (by decide)).trans <| (W2_of_ne m ρ c main_arg7 (by decide)).trans <| ((W1_arr m ρ c 6).trans (((dat0 (E0 m ρ) c).arrAt_in 6 rfl _).trans (A_eq0 (E0 m ρ) c 6))).trans rfl
theorem W1_main_arg8 (c : Dev nD) : W1 m ρ c (Proc.devRef .tc main_arg8) = m ((c : Thread nD τ).loc main_arg8) :=
  (W1_of_ne m ρ c main_arg8 (by decide)).trans rfl
theorem W2_main_arg8 (c : Dev nD) : W2 m ρ c (Proc.devRef .tc main_arg8) = m ((c : Thread nD τ).loc main_arg8) :=
  ((W2_arr m ρ c 1).trans (((dat1 (E1 m ρ) c).arrAt_in 1 rfl _).trans (A_eq1 (E1 m ρ) c 1))).trans <| (W1_of_ne m ρ c main_arg8 (by decide)).trans rfl
theorem W3_main_arg8 (c : Dev nD) : W3 m ρ c (Proc.devRef .tc main_arg8) = m ((c : Thread nD τ).loc main_arg8) :=
  (W3_of_ne m ρ c main_arg8 (by decide)).trans <| ((W2_arr m ρ c 1).trans (((dat1 (E1 m ρ) c).arrAt_in 1 rfl _).trans (A_eq1 (E1 m ρ) c 1))).trans <| (W1_of_ne m ρ c main_arg8 (by decide)).trans rfl
theorem W4_main_arg8 (c : Dev nD) : W4 m ρ c (Proc.devRef .tc main_arg8) = m ((c : Thread nD τ).loc main_arg8) :=
  (W4_of_ne m ρ c main_arg8 (by decide)).trans <| (W3_of_ne m ρ c main_arg8 (by decide)).trans <| ((W2_arr m ρ c 1).trans (((dat1 (E1 m ρ) c).arrAt_in 1 rfl _).trans (A_eq1 (E1 m ρ) c 1))).trans <| (W1_of_ne m ρ c main_arg8 (by decide)).trans rfl
theorem W1_main_arg9 (c : Dev nD) : W1 m ρ c (Proc.devRef .tc main_arg9) = m ((c : Thread nD τ).loc main_arg9) :=
  (W1_of_ne m ρ c main_arg9 (by decide)).trans rfl
theorem W2_main_arg9 (c : Dev nD) : W2 m ρ c (Proc.devRef .tc main_arg9) = m ((c : Thread nD τ).loc main_arg9) :=
  ((W2_arr m ρ c 2).trans (((dat1 (E1 m ρ) c).arrAt_in 2 rfl _).trans (A_eq1 (E1 m ρ) c 2))).trans <| (W1_of_ne m ρ c main_arg9 (by decide)).trans rfl
theorem W3_main_arg9 (c : Dev nD) : W3 m ρ c (Proc.devRef .tc main_arg9) = m ((c : Thread nD τ).loc main_arg9) :=
  (W3_of_ne m ρ c main_arg9 (by decide)).trans <| ((W2_arr m ρ c 2).trans (((dat1 (E1 m ρ) c).arrAt_in 2 rfl _).trans (A_eq1 (E1 m ρ) c 2))).trans <| (W1_of_ne m ρ c main_arg9 (by decide)).trans rfl
theorem W4_main_arg9 (c : Dev nD) : W4 m ρ c (Proc.devRef .tc main_arg9) = m ((c : Thread nD τ).loc main_arg9) :=
  (W4_of_ne m ρ c main_arg9 (by decide)).trans <| (W3_of_ne m ρ c main_arg9 (by decide)).trans <| ((W2_arr m ρ c 2).trans (((dat1 (E1 m ρ) c).arrAt_in 2 rfl _).trans (A_eq1 (E1 m ρ) c 2))).trans <| (W1_of_ne m ρ c main_arg9 (by decide)).trans rfl
theorem W1_main_arg10 (c : Dev nD) : W1 m ρ c (Proc.devRef .tc main_arg10) = m ((c : Thread nD τ).loc main_arg10) :=
  (W1_of_ne m ρ c main_arg10 (by decide)).trans rfl
theorem W2_main_arg10 (c : Dev nD) : W2 m ρ c (Proc.devRef .tc main_arg10) = m ((c : Thread nD τ).loc main_arg10) :=
  ((W2_arr m ρ c 3).trans (((dat1 (E1 m ρ) c).arrAt_in 3 rfl _).trans (A_eq1 (E1 m ρ) c 3))).trans <| (W1_of_ne m ρ c main_arg10 (by decide)).trans rfl
theorem W3_main_arg10 (c : Dev nD) : W3 m ρ c (Proc.devRef .tc main_arg10) = m ((c : Thread nD τ).loc main_arg10) :=
  (W3_of_ne m ρ c main_arg10 (by decide)).trans <| ((W2_arr m ρ c 3).trans (((dat1 (E1 m ρ) c).arrAt_in 3 rfl _).trans (A_eq1 (E1 m ρ) c 3))).trans <| (W1_of_ne m ρ c main_arg10 (by decide)).trans rfl
theorem W4_main_arg10 (c : Dev nD) : W4 m ρ c (Proc.devRef .tc main_arg10) = m ((c : Thread nD τ).loc main_arg10) :=
  (W4_of_ne m ρ c main_arg10 (by decide)).trans <| (W3_of_ne m ρ c main_arg10 (by decide)).trans <| ((W2_arr m ρ c 3).trans (((dat1 (E1 m ρ) c).arrAt_in 3 rfl _).trans (A_eq1 (E1 m ρ) c 3))).trans <| (W1_of_ne m ρ c main_arg10 (by decide)).trans rfl
theorem W1_main_arg11 (c : Dev nD) : W1 m ρ c (Proc.devRef .tc main_arg11) = m ((c : Thread nD τ).loc main_arg11) :=
  (W1_of_ne m ρ c main_arg11 (by decide)).trans rfl
theorem W2_main_arg11 (c : Dev nD) : W2 m ρ c (Proc.devRef .tc main_arg11) = m ((c : Thread nD τ).loc main_arg11) :=
  ((W2_arr m ρ c 4).trans (((dat1 (E1 m ρ) c).arrAt_in 4 rfl _).trans (A_eq1 (E1 m ρ) c 4))).trans <| (W1_of_ne m ρ c main_arg11 (by decide)).trans rfl
theorem W3_main_arg11 (c : Dev nD) : W3 m ρ c (Proc.devRef .tc main_arg11) = m ((c : Thread nD τ).loc main_arg11) :=
  (W3_of_ne m ρ c main_arg11 (by decide)).trans <| ((W2_arr m ρ c 4).trans (((dat1 (E1 m ρ) c).arrAt_in 4 rfl _).trans (A_eq1 (E1 m ρ) c 4))).trans <| (W1_of_ne m ρ c main_arg11 (by decide)).trans rfl
theorem W4_main_arg11 (c : Dev nD) : W4 m ρ c (Proc.devRef .tc main_arg11) = m ((c : Thread nD τ).loc main_arg11) :=
  (W4_of_ne m ρ c main_arg11 (by decide)).trans <| (W3_of_ne m ρ c main_arg11 (by decide)).trans <| ((W2_arr m ρ c 4).trans (((dat1 (E1 m ρ) c).arrAt_in 4 rfl _).trans (A_eq1 (E1 m ρ) c 4))).trans <| (W1_of_ne m ρ c main_arg11 (by decide)).trans rfl
theorem W1_main_arg12 (c : Dev nD) : W1 m ρ c (Proc.devRef .tc main_arg12) = m ((c : Thread nD τ).loc main_arg12) :=
  (W1_of_ne m ρ c main_arg12 (by decide)).trans rfl
theorem W2_main_arg12 (c : Dev nD) : W2 m ρ c (Proc.devRef .tc main_arg12) = m ((c : Thread nD τ).loc main_arg12) :=
  ((W2_arr m ρ c 5).trans (((dat1 (E1 m ρ) c).arrAt_in 5 rfl _).trans (A_eq1 (E1 m ρ) c 5))).trans <| (W1_of_ne m ρ c main_arg12 (by decide)).trans rfl
theorem W3_main_arg12 (c : Dev nD) : W3 m ρ c (Proc.devRef .tc main_arg12) = m ((c : Thread nD τ).loc main_arg12) :=
  (W3_of_ne m ρ c main_arg12 (by decide)).trans <| ((W2_arr m ρ c 5).trans (((dat1 (E1 m ρ) c).arrAt_in 5 rfl _).trans (A_eq1 (E1 m ρ) c 5))).trans <| (W1_of_ne m ρ c main_arg12 (by decide)).trans rfl
theorem W4_main_arg12 (c : Dev nD) : W4 m ρ c (Proc.devRef .tc main_arg12) = m ((c : Thread nD τ).loc main_arg12) :=
  (W4_of_ne m ρ c main_arg12 (by decide)).trans <| (W3_of_ne m ρ c main_arg12 (by decide)).trans <| ((W2_arr m ρ c 5).trans (((dat1 (E1 m ρ) c).arrAt_in 5 rfl _).trans (A_eq1 (E1 m ρ) c 5))).trans <| (W1_of_ne m ρ c main_arg12 (by decide)).trans rfl
theorem W1_main_arg13 (c : Dev nD) : W1 m ρ c (Proc.devRef .tc main_arg13) = m ((c : Thread nD τ).loc main_arg13) :=
  (W1_of_ne m ρ c main_arg13 (by decide)).trans rfl
theorem W2_main_arg13 (c : Dev nD) : W2 m ρ c (Proc.devRef .tc main_arg13) = m ((c : Thread nD τ).loc main_arg13) :=
  ((W2_arr m ρ c 6).trans (((dat1 (E1 m ρ) c).arrAt_in 6 rfl _).trans (A_eq1 (E1 m ρ) c 6))).trans <| (W1_of_ne m ρ c main_arg13 (by decide)).trans rfl
theorem W3_main_arg13 (c : Dev nD) : W3 m ρ c (Proc.devRef .tc main_arg13) = m ((c : Thread nD τ).loc main_arg13) :=
  (W3_of_ne m ρ c main_arg13 (by decide)).trans <| ((W2_arr m ρ c 6).trans (((dat1 (E1 m ρ) c).arrAt_in 6 rfl _).trans (A_eq1 (E1 m ρ) c 6))).trans <| (W1_of_ne m ρ c main_arg13 (by decide)).trans rfl
theorem W4_main_arg13 (c : Dev nD) : W4 m ρ c (Proc.devRef .tc main_arg13) = m ((c : Thread nD τ).loc main_arg13) :=
  (W4_of_ne m ρ c main_arg13 (by decide)).trans <| (W3_of_ne m ρ c main_arg13 (by decide)).trans <| ((W2_arr m ρ c 6).trans (((dat1 (E1 m ρ) c).arrAt_in 6 rfl _).trans (A_eq1 (E1 m ρ) c 6))).trans <| (W1_of_ne m ρ c main_arg13 (by decide)).trans rfl
theorem W1_main_arg14 (c : Dev nD) : W1 m ρ c (Proc.devRef .tc main_arg14) = m ((c : Thread nD τ).loc main_arg14) :=
  (W1_of_ne m ρ c main_arg14 (by decide)).trans rfl
theorem W2_main_arg14 (c : Dev nD) : W2 m ρ c (Proc.devRef .tc main_arg14) = m ((c : Thread nD τ).loc main_arg14) :=
  (W2_of_ne m ρ c main_arg14 (by decide)).trans <| (W1_of_ne m ρ c main_arg14 (by decide)).trans rfl
theorem W3_main_arg14 (c : Dev nD) : W3 m ρ c (Proc.devRef .tc main_arg14) = m ((c : Thread nD τ).loc main_arg14) :=
  ((W3_arr m ρ c 1).trans (((dat2 (E2 m ρ) c).arrAt_in 1 rfl _).trans (A_eq2 (E2 m ρ) c 1))).trans <| (W2_of_ne m ρ c main_arg14 (by decide)).trans <| (W1_of_ne m ρ c main_arg14 (by decide)).trans rfl
theorem W4_main_arg14 (c : Dev nD) : W4 m ρ c (Proc.devRef .tc main_arg14) = m ((c : Thread nD τ).loc main_arg14) :=
  (W4_of_ne m ρ c main_arg14 (by decide)).trans <| ((W3_arr m ρ c 1).trans (((dat2 (E2 m ρ) c).arrAt_in 1 rfl _).trans (A_eq2 (E2 m ρ) c 1))).trans <| (W2_of_ne m ρ c main_arg14 (by decide)).trans <| (W1_of_ne m ρ c main_arg14 (by decide)).trans rfl
theorem W1_main_arg15 (c : Dev nD) : W1 m ρ c (Proc.devRef .tc main_arg15) = m ((c : Thread nD τ).loc main_arg15) :=
  (W1_of_ne m ρ c main_arg15 (by decide)).trans rfl
theorem W2_main_arg15 (c : Dev nD) : W2 m ρ c (Proc.devRef .tc main_arg15) = m ((c : Thread nD τ).loc main_arg15) :=
  (W2_of_ne m ρ c main_arg15 (by decide)).trans <| (W1_of_ne m ρ c main_arg15 (by decide)).trans rfl
theorem W3_main_arg15 (c : Dev nD) : W3 m ρ c (Proc.devRef .tc main_arg15) = m ((c : Thread nD τ).loc main_arg15) :=
  ((W3_arr m ρ c 2).trans (((dat2 (E2 m ρ) c).arrAt_in 2 rfl _).trans (A_eq2 (E2 m ρ) c 2))).trans <| (W2_of_ne m ρ c main_arg15 (by decide)).trans <| (W1_of_ne m ρ c main_arg15 (by decide)).trans rfl
theorem W4_main_arg15 (c : Dev nD) : W4 m ρ c (Proc.devRef .tc main_arg15) = m ((c : Thread nD τ).loc main_arg15) :=
  (W4_of_ne m ρ c main_arg15 (by decide)).trans <| ((W3_arr m ρ c 2).trans (((dat2 (E2 m ρ) c).arrAt_in 2 rfl _).trans (A_eq2 (E2 m ρ) c 2))).trans <| (W2_of_ne m ρ c main_arg15 (by decide)).trans <| (W1_of_ne m ρ c main_arg15 (by decide)).trans rfl
theorem W1_main_arg16 (c : Dev nD) : W1 m ρ c (Proc.devRef .tc main_arg16) = m ((c : Thread nD τ).loc main_arg16) :=
  (W1_of_ne m ρ c main_arg16 (by decide)).trans rfl
theorem W2_main_arg16 (c : Dev nD) : W2 m ρ c (Proc.devRef .tc main_arg16) = m ((c : Thread nD τ).loc main_arg16) :=
  (W2_of_ne m ρ c main_arg16 (by decide)).trans <| (W1_of_ne m ρ c main_arg16 (by decide)).trans rfl
theorem W3_main_arg16 (c : Dev nD) : W3 m ρ c (Proc.devRef .tc main_arg16) = m ((c : Thread nD τ).loc main_arg16) :=
  ((W3_arr m ρ c 3).trans (((dat2 (E2 m ρ) c).arrAt_in 3 rfl _).trans (A_eq2 (E2 m ρ) c 3))).trans <| (W2_of_ne m ρ c main_arg16 (by decide)).trans <| (W1_of_ne m ρ c main_arg16 (by decide)).trans rfl
theorem W4_main_arg16 (c : Dev nD) : W4 m ρ c (Proc.devRef .tc main_arg16) = m ((c : Thread nD τ).loc main_arg16) :=
  (W4_of_ne m ρ c main_arg16 (by decide)).trans <| ((W3_arr m ρ c 3).trans (((dat2 (E2 m ρ) c).arrAt_in 3 rfl _).trans (A_eq2 (E2 m ρ) c 3))).trans <| (W2_of_ne m ρ c main_arg16 (by decide)).trans <| (W1_of_ne m ρ c main_arg16 (by decide)).trans rfl
theorem W1_main_arg17 (c : Dev nD) : W1 m ρ c (Proc.devRef .tc main_arg17) = m ((c : Thread nD τ).loc main_arg17) :=
  (W1_of_ne m ρ c main_arg17 (by decide)).trans rfl
theorem W2_main_arg17 (c : Dev nD) : W2 m ρ c (Proc.devRef .tc main_arg17) = m ((c : Thread nD τ).loc main_arg17) :=
  (W2_of_ne m ρ c main_arg17 (by decide)).trans <| (W1_of_ne m ρ c main_arg17 (by decide)).trans rfl
theorem W3_main_arg17 (c : Dev nD) : W3 m ρ c (Proc.devRef .tc main_arg17) = m ((c : Thread nD τ).loc main_arg17) :=
  ((W3_arr m ρ c 4).trans (((dat2 (E2 m ρ) c).arrAt_in 4 rfl _).trans (A_eq2 (E2 m ρ) c 4))).trans <| (W2_of_ne m ρ c main_arg17 (by decide)).trans <| (W1_of_ne m ρ c main_arg17 (by decide)).trans rfl
theorem W4_main_arg17 (c : Dev nD) : W4 m ρ c (Proc.devRef .tc main_arg17) = m ((c : Thread nD τ).loc main_arg17) :=
  (W4_of_ne m ρ c main_arg17 (by decide)).trans <| ((W3_arr m ρ c 4).trans (((dat2 (E2 m ρ) c).arrAt_in 4 rfl _).trans (A_eq2 (E2 m ρ) c 4))).trans <| (W2_of_ne m ρ c main_arg17 (by decide)).trans <| (W1_of_ne m ρ c main_arg17 (by decide)).trans rfl
theorem W1_main_arg18 (c : Dev nD) : W1 m ρ c (Proc.devRef .tc main_arg18) = m ((c : Thread nD τ).loc main_arg18) :=
  (W1_of_ne m ρ c main_arg18 (by decide)).trans rfl
theorem W2_main_arg18 (c : Dev nD) : W2 m ρ c (Proc.devRef .tc main_arg18) = m ((c : Thread nD τ).loc main_arg18) :=
  (W2_of_ne m ρ c main_arg18 (by decide)).trans <| (W1_of_ne m ρ c main_arg18 (by decide)).trans rfl
theorem W3_main_arg18 (c : Dev nD) : W3 m ρ c (Proc.devRef .tc main_arg18) = m ((c : Thread nD τ).loc main_arg18) :=
  ((W3_arr m ρ c 5).trans (((dat2 (E2 m ρ) c).arrAt_in 5 rfl _).trans (A_eq2 (E2 m ρ) c 5))).trans <| (W2_of_ne m ρ c main_arg18 (by decide)).trans <| (W1_of_ne m ρ c main_arg18 (by decide)).trans rfl
theorem W4_main_arg18 (c : Dev nD) : W4 m ρ c (Proc.devRef .tc main_arg18) = m ((c : Thread nD τ).loc main_arg18) :=
  (W4_of_ne m ρ c main_arg18 (by decide)).trans <| ((W3_arr m ρ c 5).trans (((dat2 (E2 m ρ) c).arrAt_in 5 rfl _).trans (A_eq2 (E2 m ρ) c 5))).trans <| (W2_of_ne m ρ c main_arg18 (by decide)).trans <| (W1_of_ne m ρ c main_arg18 (by decide)).trans rfl
theorem W1_main_arg19 (c : Dev nD) : W1 m ρ c (Proc.devRef .tc main_arg19) = m ((c : Thread nD τ).loc main_arg19) :=
  (W1_of_ne m ρ c main_arg19 (by decide)).trans rfl
theorem W2_main_arg19 (c : Dev nD) : W2 m ρ c (Proc.devRef .tc main_arg19) = m ((c : Thread nD τ).loc main_arg19) :=
  (W2_of_ne m ρ c main_arg19 (by decide)).trans <| (W1_of_ne m ρ c main_arg19 (by decide)).trans rfl
theorem W3_main_arg19 (c : Dev nD) : W3 m ρ c (Proc.devRef .tc main_arg19) = m ((c : Thread nD τ).loc main_arg19) :=
  ((W3_arr m ρ c 6).trans (((dat2 (E2 m ρ) c).arrAt_in 6 rfl _).trans (A_eq2 (E2 m ρ) c 6))).trans <| (W2_of_ne m ρ c main_arg19 (by decide)).trans <| (W1_of_ne m ρ c main_arg19 (by decide)).trans rfl
theorem W4_main_arg19 (c : Dev nD) : W4 m ρ c (Proc.devRef .tc main_arg19) = m ((c : Thread nD τ).loc main_arg19) :=
  (W4_of_ne m ρ c main_arg19 (by decide)).trans <| ((W3_arr m ρ c 6).trans (((dat2 (E2 m ρ) c).arrAt_in 6 rfl _).trans (A_eq2 (E2 m ρ) c 6))).trans <| (W2_of_ne m ρ c main_arg19 (by decide)).trans <| (W1_of_ne m ρ c main_arg19 (by decide)).trans rfl

/-- The three networks' results reach the attention region as their own regions left them. -/
theorem W3_main_v0 (c : Dev nD) : W3 m ρ c (Proc.devRef .tc main_v0) = (dat0 (E0 m ρ) c).arrAt 7 cfg0.N :=
  (W3_of_ne m ρ c main_v0 (by decide)).trans <| (W2_of_ne m ρ c main_v0 (by decide)).trans <| W1_arr m ρ c 7
theorem W3_main_v1 (c : Dev nD) : W3 m ρ c (Proc.devRef .tc main_v1) = (dat1 (E1 m ρ) c).arrAt 7 cfg1.N :=
  (W3_of_ne m ρ c main_v1 (by decide)).trans <| W2_arr m ρ c 7
theorem W3_main_v2 (c : Dev nD) : W3 m ρ c (Proc.devRef .tc main_v2) = (dat2 (E2 m ρ) c).arrAt 7 cfg2.N :=
  W3_arr m ρ c 7
/-- The result array ends at what the attention region's write-backs leave. -/
theorem W4_main_v3 (c : Dev nD) : W4 m ρ c (Proc.devRef .tc main_v3) = (dat3 (E3 m ρ) c).arrAt 3 cfg3.N :=
  W4_arr m ρ c 3

/-- The frame: every execution ends, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c)⟩) (run_all m ρ)

/-- The run with its result named: the result array ends at the attention region's final contents. -/
theorem run_value : θ_run defs (onTc (τ := τ) (main (F := F))) ⟨m, fun _ => 0, ρ⟩ (fun r => ∀ c : Dev nD,
      r.2.mem ((c.tc : Thread nD τ).loc main_v3) = (dat3 (E3 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v3 (by decide))).trans (W4_main_v3 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c),
    (h c _ (mem_uc main_arg19 (by decide))).trans (W4_main_arg19 m ρ c)⟩) (run_all m ρ)

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«178031_j19344532702252_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.LibDenseRows.lean ====
/-
  Dense layers on extended-real matrices indexed by literal rank-2 shapes, and their row-locality.

  * `mm a b`: rows times columns, entry `(p, q)` is `Σ_k a[p, k] · b[k, q]`; `dense x W b`: `x · W` plus the bias row `b` (a
    `[1, N]` matrix) added to every row; `silu z = z · logistic z`; `mlp x W₁ b₁ W₂ b₂ = dense (silu ∘ dense x W₁ b₁) W₂ b₂`;
    `row v`: a vector as a one-row matrix.
  * ROW-LOCALITY (`mm_rows`, `dense_rows`, `mlp_rows`, `mm_at`): row `p` of the result depends on row `p` of the left
    operand only — so a tile of rows is computed from the same tile of the operand, and a selection of rows may be
    taken before or after a product: `mm_gather_rows`, `(h · W)[r] = h[r] · W` for a row gather with any start indices.
  * A matrix-unit product into a zero accumulator (`matmul_eq_mm`) and the host's general product (`dotGeneral_eq_mm`,
    `host_dot_eq_mm`) are both `mm`; a kernel body's dense layer over a broadcast bias row is `dense` (`dense_vec`), its
    `x · logistic x` is `silu` (`silu_vec`); the host's dense layer with the bias vector broadcast twice is `dense … (row b)`
    (`host_dense`), jax's expansion `z · (1 / (1 + e^(−z)))` is `silu` (`host_silu`), a bias vector reshaped to one row is
    `row` (`shapeCast_row`). Generic extents throughout.
-/
import proofs.«178031_j19344532702252_1_alg».proof.Proof.LibDotGeneralEntry
import proofs.«178031_j19344532702252_1_alg».proof.Proof.LibGatherScatterRows
import proofs.«178031_j19344532702252_1_alg».proof.Proof.LibBroadcastEntry

noncomputable section

open scoped BigOperators

namespace Cert.Spec

open Idealize.ShloMosaic Idealize.ShloMosaic.ValueIdx

/-- An `M × N` matrix of extended reals, indexed as the printed programs index a rank-2 array. -/
abbrev Mat (M N : Nat) : Type := (⟨2, ![M, N]⟩ : Shape).Idx → EReal

/-- Rows times columns. -/
def mm {M K N : Nat} (a : Mat M K) (b : Mat K N) : Mat M N :=
  fun i => ∑ k : Fin K, a (ix2 (i 0) k) * b (ix2 k (i 1))

theorem mm_ix2 {M K N : Nat} (a : Mat M K) (b : Mat K N) (p : Fin M) (q : Fin N) :
    mm a b (ix2 p q) = ∑ k : Fin K, a (ix2 p k) * b (ix2 k q) := rfl

/-- The sigmoid-weighted unit. -/
def silu (z : EReal) : EReal := z * Ideal.logistic z

/-- A dense layer: the product plus a bias row. -/
def dense {M K N : Nat} (x : Mat M K) (W : Mat K N) (b : Mat 1 N) : Mat M N :=
  fun i => mm x W i + b (ix2 (0 : Fin 1) (i 1))

/-- Two dense layers with the sigmoid-weighted unit between them. -/
def mlp {M K H N : Nat} (x : Mat M K) (W₁ : Mat K H) (b₁ : Mat 1 H) (W₂ : Mat H N) (b₂ : Mat 1 N) : Mat M N :=
  dense (fun i => silu (dense x W₁ b₁ i)) W₂ b₂

/-- A vector laid out as a one-row matrix. -/
def row {N : Nat} (v : (⟨1, ![N]⟩ : Shape).Idx → EReal) : Mat 1 N := fun j => v (ix1 (j 1))

/-! ## Row-locality -/

theorem mm_rows {M M' K N : Nat} (a : Mat M K) (a' : Mat M' K) (b : Mat K N) (p : Fin M) (p' : Fin M') (q : Fin N)
    (h : ∀ k, a (ix2 p k) = a' (ix2 p' k)) : mm a b (ix2 p q) = mm a' b (ix2 p' q) := by
  rw [mm_ix2, mm_ix2]
  exact Finset.sum_congr rfl fun k _ => by rw [h k]

theorem dense_rows {M M' K N : Nat} (x : Mat M K) (x' : Mat M' K) (W : Mat K N) (b : Mat 1 N) (p : Fin M) (p' : Fin M')
    (q : Fin N) (h : ∀ k, x (ix2 p k) = x' (ix2 p' k)) : dense x W b (ix2 p q) = dense x' W b (ix2 p' q) := by
  show mm x W (ix2 p q) + _ = mm x' W (ix2 p' q) + _
  rw [mm_rows x x' W p p' q h]
  rfl

theorem mlp_rows {M M' K H N : Nat} (x : Mat M K) (x' : Mat M' K) (W₁ : Mat K H) (b₁ : Mat 1 H) (W₂ : Mat H N)
    (b₂ : Mat 1 N) (p : Fin M) (p' : Fin M') (q : Fin N) (h : ∀ k, x (ix2 p k) = x' (ix2 p' k)) :
    mlp x W₁ b₁ W₂ b₂ (ix2 p q) = mlp x' W₁ b₁ W₂ b₂ (ix2 p' q) :=
  dense_rows _ _ W₂ b₂ p p' q fun k => by
    show silu (dense x W₁ b₁ (ix2 p k)) = silu (dense x' W₁ b₁ (ix2 p' k))
    rw [dense_rows x x' W₁ b₁ p p' k h]

/-! ## Row-locality, between a tile's entry and the array's entry it sits at -/

theorem mm_at {B M K N : Nat} (xb : Mat B K) (x : Mat M K) (W : Mat K N) (j : (⟨2, ![B, N]⟩ : Shape).Idx)
    (i : (⟨2, ![M, N]⟩ : Shape).Idx) (hq : i 1 = j 1) (hx : ∀ k, xb (ix2 (j 0) k) = x (ix2 (i 0) k)) :
    mm xb W j = mm x W i := by
  obtain ⟨p, q, rfl⟩ : ∃ (p : Fin B) (q : Fin N), j = ix2 p q := ⟨j 0, j 1, eq_ix2 j⟩
  obtain ⟨p', q', rfl⟩ : ∃ (p' : Fin M) (q' : Fin N), i = ix2 p' q' := ⟨i 0, i 1, eq_ix2 i⟩
  have e : q' = q := hq
  subst e
  exact mm_rows xb x W p p' q' hx

/-! ## The two matrix products of the programs are `mm` -/

/-- The matrix unit's product of two matrices into the zero accumulator. -/
theorem matmul_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂) :
    FloatOps.matmul D prec a b (constant ⟨2, ![M, N]⟩ .f32 0x00000000#32) = mm a b := by
  funext i
  rw [eq_ix2 i]
  exact Ideal.matmul_rows_cols D hlb hln hlc hrb hrn hrc prec a b (i 0) (i 1)

/-- The host's general product of two matrices. -/
theorem dotGeneral_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁)
    (b : FVec Ideal ⟨2, ![K, N]⟩ φ₂) :
    FloatOps.dotGeneral D prec sched a b = mm a b := by
  funext i
  rw [eq_ix2 i]
  exact Ideal.dotGeneral_rows_cols D hlb hln hlc hrb hrn hrc prec sched a b (i 0) (i 1)

/-- The same, in the spelling a printed host line has. -/
theorem host_dot_eq_mm {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (a : FVec Ideal ⟨2, ![M, K]⟩ φ₁) (b : FVec Ideal ⟨2, ![K, N]⟩ φ₂) :
    Host.dotGeneral D none a b = mm a b :=
  dotGeneral_eq_mm D hlb hln hlc hrb hrn hrc none .single a b

/-! ## Selecting rows commutes with a product on the right -/

/-- Rows taken out of a product are the product of the rows taken: `(h · W)[r(e)] = (h[r(·)] · W)[e]`, whatever the
    row selection `r` the start indices denote (read signed, clamped into the table). -/
theorem mm_gather_rows {N E C C' w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (h : Mat N C) (W : Mat C C') (idx : IVec ⟨2, ![E, 1]⟩ w) :
    Host.gather (rowsGatherDims N E C' wf') (mm h W) idx = mm (Host.gather (rowsGatherDims N E C wf) h idx) W := by
  funext i
  obtain ⟨e, c, rfl⟩ : ∃ (e : Fin E) (c : Fin C'), i = ix2 e c := ⟨i 0, i 1, eq_ix2 i⟩
  rw [gather_rows_apply hN wf' (mm h W) idx e c, mm_ix2, mm_ix2]
  exact Finset.sum_congr rfl fun k _ => by rw [gather_rows_apply hN wf h idx e k]

/-! ## A kernel body's dense layer and its sigmoid-weighted unit, as whole tiles -/

/-- The matrix unit's product into the zero accumulator plus a bias row broadcast over the tile's rows. -/
theorem dense_vec {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    addf (FloatOps.matmul D none x W (constant ⟨2, ![M, N]⟩ .f32 0x00000000#32)) (broadcastTo ⟨2, ![M, N]⟩ b hb)
      = dense x W b := by
  rw [matmul_eq_mm D hlb hln hlc hrb hrn hrc]
  funext i
  obtain ⟨p, q, rfl⟩ : ∃ (p : Fin M) (q : Fin N), i = ix2 p q := ⟨i 0, i 1, eq_ix2 i⟩
  show mm x W (ix2 p q) + broadcastTo ⟨2, ![M, N]⟩ b hb (ix2 p q) = mm x W (ix2 p q) + b (ix2 (0 : Fin 1) q)
  rw [broadcastTo_1b_ab_apply]

/-- A tile times its logistic, entry by entry. -/
theorem silu_vec {s : Shape} (z : FVec Ideal s .f32) : mulf z (logistic z) = fun i => silu (z i) := rfl

/-! ## The reference's spelling of the sigmoid-weighted unit and of a bias -/

/-- `1` as the programs write it. -/
theorem ofBits_one : Ideal.ofBits .f32 0x3F800000#32 = (1 : EReal) := by
  simp [Ideal.ofBits, Ideal.ieee, -EReal.coe_mul]; norm_num

/-- jax's expansion `z · (1 / (1 + e^(−z)))` on the host is the sigmoid-weighted unit. -/
theorem host_silu {s : Shape} (z : FVec Ideal s .f32) (h1 : (⟨0, ![]⟩ : Shape).BroadcastsInDim s ![]) :
    mulf z (Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf z))))
      = fun i => silu (z i) := by
  funext i
  have e1 : broadcastInDim s ![] h1 (constant (F := Ideal) ⟨0, ![]⟩ .f32 0x3F800000#32) i = (1 : EReal) := by
    rw [broadcastInDim_scalar_apply]
    exact ofBits_one
  show z i * Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(z i))) = silu (z i)
  rw [e1]
  rfl

/-- The host's dense layer: the general product plus the bias vector broadcast as a row over every row. -/
theorem host_dense {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D none x W) (broadcastInDim ⟨2, ![M, N]⟩ ![0, 1] h2 (broadcastInDim ⟨2, ![1, N]⟩ ![1] h1 b))
      = dense x W (row b) := by
  funext i
  show FloatOps.dotGeneral D none .single x W i + _ = mm x W i + row b (ix2 (0 : Fin 1) (i 1))
  rw [dotGeneral_eq_mm D hlb hln hlc hrb hrn hrc]
  refine congrArg (mm x W i + ·) ?_
  obtain ⟨p, q, rfl⟩ : ∃ (p : Fin M) (q : Fin N), i = ix2 p q := ⟨i 0, i 1, eq_ix2 i⟩
  rw [broadcastInDim_1b_ab_apply, broadcastInDim_b_1b_apply]
  rfl

/-- A bias vector reshaped to one row is that row. -/
theorem shapeCast_row {N : Nat} (b : (⟨1, ![N]⟩ : Shape).Idx → EReal) (h : (⟨1, ![N]⟩ : Shape).ShapeCasts ⟨2, ![1, N]⟩) :
    shapeCast ⟨2, ![1, N]⟩ b h = row b := by
  funext j
  obtain ⟨u, q, rfl⟩ : ∃ (u : Fin 1) (q : Fin N), j = ix2 u q := ⟨j 0, j 1, eq_ix2 j⟩
  rw [shapeCast_a_1a_apply]
  rfl

end Cert.Spec

end
-- ==== Proof.Spec.lean ====
/-
  The function both programs compute, on extended-real matrices indexed by literal rank-2 shapes.

  * `siren x W₀ b₀ Wh bh Wo bo`: a sine network — `sin (x · W₀ + b₀)`, then for the three slabs `Wh[l]` of a stack and the
    three rows `bh[l]` of a bias matrix `h ↦ sin (h · Wh[l] + bh[l])`, then the linear read-out `h · Wo + bo`. Row `p` of the
    result depends on row `p` of `x` only (`siren_rows`).
  * `sigAttn Q K V`: entry `(p, y)` is `Σ_j logistic (Σ_k Q[p, k] · K[j, k]) · V[j, y]` — every key weighted by the
    logistic of its score, no normalisation.
  * `G`: the three networks (queries from `x`; keys and values from `c`) followed by the attention.
-/
import proofs.«178031_j19344532702252_1_alg».proof.Proof.LibDenseRows

noncomputable section

open scoped BigOperators

namespace Cert.Spec

open Idealize.ShloMosaic Idealize.ShloMosaic.ValueIdx

/-- A vector of extended reals, indexed as the printed programs index a rank-1 array. -/
abbrev Vc (N : Nat) : Type := (⟨1, ![N]⟩ : Shape).Idx → EReal

/-- A stack of `L` matrices, indexed as the printed programs index a rank-3 array. -/
abbrev Stack (L M N : Nat) : Type := (⟨3, ![L, M, N]⟩ : Shape).Idx → EReal

/-- Matrix `l` of a stack. -/
def slab {L M N : Nat} (W : Stack L M N) (l : Fin L) : Mat M N := fun i => W (ix3 l (i 0) (i 1))

/-- Row `l` of a matrix, as a one-row matrix. -/
def brow {L N : Nat} (b : Mat L N) (l : Fin L) : Mat 1 N := fun j => b (ix2 l (j 1))

/-- The sine, entry by entry. -/
def sinM {M N : Nat} (z : Mat M N) : Mat M N := fun i => Ideal.sin (z i)

/-- One sine layer. -/
def sinLayer {M K N : Nat} (h : Mat M K) (W : Mat K N) (b : Mat 1 N) : Mat M N := sinM (dense h W b)

/-- The sine network: an input layer, three hidden layers out of a stack, a linear read-out. -/
def siren {M K H N : Nat} (x : Mat M K) (W₀ : Mat K H) (b₀ : Vc H) (Wh : Stack 3 H H) (bh : Mat 3 H) (Wo : Mat H N)
    (bo : Vc N) : Mat M N :=
  dense (sinLayer (sinLayer (sinLayer (sinLayer x W₀ (row b₀)) (slab Wh 0) (brow bh 0)) (slab Wh 1) (brow bh 1))
    (slab Wh 2) (brow bh 2)) Wo (row bo)

theorem sinLayer_rows {M M' K N : Nat} (h : Mat M K) (h' : Mat M' K) (W : Mat K N) (b : Mat 1 N) (p : Fin M) (p' : Fin M')
    (q : Fin N) (e : ∀ k, h (ix2 p k) = h' (ix2 p' k)) : sinLayer h W b (ix2 p q) = sinLayer h' W b (ix2 p' q) := by
  show Ideal.sin (dense h W b (ix2 p q)) = Ideal.sin (dense h' W b (ix2 p' q))
  rw [dense_rows h h' W b p p' q e]

/-- Row `p` of the network's result is computed from row `p` of its input. -/
theorem siren_rows {M M' K H N : Nat} (x : Mat M K) (x' : Mat M' K) (W₀ : Mat K H) (b₀ : Vc H) (Wh : Stack 3 H H)
    (bh : Mat 3 H) (Wo : Mat H N) (bo : Vc N) (p : Fin M) (p' : Fin M') (q : Fin N)
    (e : ∀ k, x (ix2 p k) = x' (ix2 p' k)) :
    siren x W₀ b₀ Wh bh Wo bo (ix2 p q) = siren x' W₀ b₀ Wh bh Wo bo (ix2 p' q) :=
  dense_rows _ _ Wo (row bo) p p' q fun k₄ =>
    sinLayer_rows _ _ _ _ p p' k₄ fun k₃ =>
      sinLayer_rows _ _ _ _ p p' k₃ fun k₂ =>
        sinLayer_rows _ _ _ _ p p' k₂ fun k₁ =>
          sinLayer_rows x x' W₀ (row b₀) p p' k₁ e

/-- The transpose. -/
def tr {M N : Nat} (a : Mat M N) : Mat N M := fun i => a (ix2 (i 1) (i 0))

/-- Logistic attention: scores `Q · Kᵀ`, each passed through the logistic, times the values. -/
def sigAttn {Nq Nc D Y : Nat} (Q : Mat Nq D) (K : Mat Nc D) (V : Mat Nc Y) : Mat Nq Y :=
  mm (fun i => Ideal.logistic (mm Q (tr K) i)) V

theorem sigAttn_ix2 {Nq Nc D Y : Nat} (Q : Mat Nq D) (K : Mat Nc D) (V : Mat Nc Y) (p : Fin Nq) (y : Fin Y) :
    sigAttn Q K V (ix2 p y)
      = ∑ j : Fin Nc, Ideal.logistic (∑ k : Fin D, Q (ix2 p k) * K (ix2 j k)) * V (ix2 j y) := rfl

/-- The whole result: queries from `x`, keys and values from `c`, then the attention. -/
def G {Nx Nc Dx H D Y : Nat} (x : Mat Nx Dx) (c : Mat Nc Dx)
    (QW₀ : Mat Dx H) (Qb₀ : Vc H) (QWh : Stack 3 H H) (Qbh : Mat 3 H) (QWo : Mat H D) (Qbo : Vc D)
    (KW₀ : Mat Dx H) (Kb₀ : Vc H) (KWh : Stack 3 H H) (Kbh : Mat 3 H) (KWo : Mat H D) (Kbo : Vc D)
    (VW₀ : Mat Dx H) (Vb₀ : Vc H) (VWh : Stack 3 H H) (Vbh : Mat 3 H) (VWo : Mat H Y) (Vbo : Vc Y) : Mat Nx Y :=
  sigAttn (siren x QW₀ Qb₀ QWh Qbh QWo Qbo) (siren c KW₀ Kb₀ KWh Kbh KWo Kbo) (siren c VW₀ Vb₀ VWh Vbh VWo Vbo)

end Cert.Spec

end
-- ==== Proof.MlpTile.lean ====
/-
  A kernel body's layers, as whole tiles of extended reals.

  * A sine layer in the matrix unit's spelling — the product into a zero accumulator, plus a bias row broadcast over the tile's
    rows, then the sine entry by entry — is `sinLayer`; a change of float format is the identity on extended reals.
  * A unit slab `[l, 0, 0]` of a stack of matrices, read through its rectangle and reshaped to a matrix, is `slab · l`; a
    unit row `[l, 0]` of a bias matrix, reshaped to a vector and back to a row, is `brow · l`; a bias vector reshaped to a
    row is `row`.
-/
import proofs.«178031_j19344532702252_1_alg».proof.Proof.Spec
import Idealize.ShloMosaic.Lib.Pipeline.FrameBody
import Idealize.ShloMosaic.Lib.Pipeline.Value

noncomputable section

open scoped BigOperators

namespace Cert.Spec

open Idealize.ShloMosaic Idealize.ShloMosaic.ValueIdx

/-- The sine of a tile, entry by entry, is `sinM`. -/
theorem sin_vec {M N : Nat} (z : FVec Ideal ⟨2, ![M, N]⟩ .f32) : sin z = sinM z := rfl

/-- A sine layer as the matrix unit computes it on a tile. -/
theorem sinLayer_vec {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) :
    sin (addf (FloatOps.matmul D none x W (constant ⟨2, ![M, N]⟩ .f32 0x00000000#32)) (broadcastTo ⟨2, ![M, N]⟩ b hb))
      = sinLayer x W b := by
  rw [dense_vec D hlb hln hlc hrb hrn hrc x W b hb]
  rfl

/-- Slab `l` of a stack, loaded through its unit rectangle and reshaped to a matrix. -/
theorem slab_ld {L M N : Nat} (W : Vec Ideal ⟨3, ![L, M, N]⟩ .f32) (l : Nat) (hl : l < L)
    (inb : ∀ a, (![l, 0, 0] : Fin 3 → Nat) a + (⟨3, ![1, M, N]⟩ : Shape).size a ≤ (⟨3, ![L, M, N]⟩ : Shape).size a)
    (h : (⟨3, ![1, M, N]⟩ : Shape).ShapeCasts ⟨2, ![M, N]⟩) :
    shapeCast ⟨2, ![M, N]⟩ (View.ld W (Rect.unit (s := ⟨3, ![L, M, N]⟩) ![l, 0, 0] (⟨3, ![1, M, N]⟩ : Shape).size inb)) h
      = (slab W ⟨l, hl⟩ : Mat M N) := by
  funext i
  refine (shapeCast_dropUnit_apply ![M, N] _ h i).trans ?_
  show W _ = W (ix3 ⟨l, hl⟩ (i 0) (i 1))
  refine congrArg W (funext fun a => Fin.ext ?_)
  match a with
  | ⟨0, _⟩ => show l + 1 * 0 = l; omega
  | ⟨1, _⟩ => show 0 + 1 * (i 0).val = (i 0).val; omega
  | ⟨2, _⟩ => show 0 + 1 * (i 1).val = (i 1).val; omega

/-- Row `l` of a bias matrix, loaded through its unit rectangle, reshaped to a vector and back to a row. -/
theorem brow_ld {L N : Nat} (b : Vec Ideal ⟨2, ![L, N]⟩ .f32) (l : Nat) (hl : l < L)
    (inb : ∀ a, (![l, 0] : Fin 2 → Nat) a + (⟨2, ![1, N]⟩ : Shape).size a ≤ (⟨2, ![L, N]⟩ : Shape).size a)
    (h₁ : (⟨2, ![1, N]⟩ : Shape).ShapeCasts ⟨1, ![N]⟩) (h₂ : (⟨1, ![N]⟩ : Shape).ShapeCasts ⟨2, ![1, N]⟩) :
    shapeCast ⟨2, ![1, N]⟩ (shapeCast ⟨1, ![N]⟩
        (View.ld b (Rect.unit (s := ⟨2, ![L, N]⟩) ![l, 0] (⟨2, ![1, N]⟩ : Shape).size inb)) h₁) h₂
      = (brow b ⟨l, hl⟩ : Mat 1 N) := by
  rw [shapeCast_shapeCast]
  funext j
  show b _ = b (ix2 ⟨l, hl⟩ (j 1))
  refine congrArg b (funext fun a => Fin.ext ?_)
  have h0 : (j 0).val = 0 := by have := (j 0).isLt; simp at this; omega
  match a with
  | ⟨0, _⟩ => show l + 1 * (j 0).val = l; omega
  | ⟨1, _⟩ => show 0 + 1 * (j 1).val = (j 1).val; omega

end Cert.Spec

end
-- ==== Proof.MlpValue0.lean ====
/-
  What region 0 leaves in its result array: the sine network of the argument arrays, row tile by row tile.

  The body's stored tile is the network applied to the tile's rows (`tile0`); a row of the network's result depends on the
  same row of its input only, so the tile written back at grid point `t` is rows `1024·t … 1024·t + 1023` of the network applied
  to the whole input; the eight tiles cover the array.
-/
import proofs.«178031_j19344532702252_1_alg».proof.Proof.MlpRegion0
import proofs.«178031_j19344532702252_1_alg».proof.Proof.MlpTile
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

theorem zeros1_0 : (![0] : Fin 1 → Nat) = fun _ => 0 := funext fun a => by fin_cases a <;> rfl
theorem zeros2_0 : (![0, 0] : Fin 2 → Nat) = fun _ => 0 := funext fun a => by fin_cases a <;> rfl
theorem zeros3_0 : (![0, 0, 0] : Fin 3 → Nat) = fun _ => 0 := funext fun a => by fin_cases a <;> rfl

/-- The tile the body stores is the sine network of the tile of rows it loaded. -/
theorem tile0 (x0 : Vec Ideal S1024x3 .f32) (x1 : Vec Ideal S3x512 .f32) (x2 : Vec Ideal S512 .f32)
    (x3 : Vec Ideal S3x512x512 .f32) (x4 : Vec Ideal S3x512 .f32) (x5 : Vec Ideal S512x512 .f32) (x6 : Vec Ideal S512 .f32) :
    out0_7 (F := Ideal) x0 x1 x2 x3 x4 x5 x6 = siren x0 x1 x2 x3 x4 x5 x6 := by
  unfold out0_7
  rw [View.canon_unit_zero zeros2_0]
  simp only [View.ld_unit_zero (S := S1024x3) zeros2_0, View.ld_unit_zero (S := S3x512) zeros2_0,
    View.ld_unit_zero (S := S512) zeros1_0, View.ld_unit_zero (S := S512x512) zeros2_0]
  unfold k0_pay1 k0_pay2
  dsimp only
  simp only [sinLayer_vec dot_S1024x3_S3x512_S1024x512_1_0_0_1_n_n rfl rfl rfl rfl rfl rfl,
    sinLayer_vec dot_S1024x512_S512x512_S1024x512_1_0_0_1_n_n rfl rfl rfl rfl rfl rfl,
    dense_vec dot_S1024x512_S512x512_S1024x512_1_0_0_1_n_n rfl rfl rfl rfl rfl rfl]
  rw [slab_ld x3 0 (by decide), slab_ld x3 1 (by decide), slab_ld x3 2 (by decide),
    brow_ld x4 0 (by decide), brow_ld x4 1 (by decide), brow_ld x4 2 (by decide),
    shapeCast_row x2, shapeCast_row x6]
  rfl

/-- The printed index maps, decided over the grid: the input tile and the output tile sit at block row `t`; every
    weight window is the whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

section
variable (V : (c : Dev nD) → (b : Ref sig .tc) → Buf (Elt Ideal) ((c : Thread nD τ).loc b))

/-- A weight window's block is the whole array, at every point. -/
theorem blk0_1 (c : Dev nD) (t : Fin cfg0.N) : iblk0 V c 1 t = V c main_arg2 := by
  obtain ⟨-, -, e0, e1, -⟩ := idx_facts0 t
  funext y
  show V c main_arg2 (((cfg0.win 1).blk t).view.emb y) = V c main_arg2 y
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 512 + 1 * (y 1).val = (y 1).val; omega
theorem blk0_2 (c : Dev nD) (t : Fin cfg0.N) : iblk0 V c 2 t = V c main_arg3 := by
  obtain ⟨-, -, -, -, e0, -⟩ := idx_facts0 t
  funext y
  show V c main_arg3 (((cfg0.win 2).blk t).view.emb y) = V c main_arg3 y
  refine congrArg _ (funext fun a => Fin.ext ?_)
  match a with
  | ⟨0, _⟩ => show win0_2.index t (0 : Fin 1) * 512 + 1 * (y 0).val = (y 0).val; omega
theorem blk0_3 (c : Dev nD) (t : Fin cfg0.N) : iblk0 V c 3 t = V c main_arg4 := by
  obtain ⟨-, -, -, -, -, e0, e1, e2, -⟩ := idx_facts0 t
  funext y
  show V c main_arg4 (((cfg0.win 3).blk t).view.emb y) = V c main_arg4 y
  refine congrArg _ (funext fun a => Fin.ext ?_)
  match a with
  | ⟨0, _⟩ => show win0_3.index t (0 : Fin 3) * 3 + 1 * (y 0).val = (y 0).val; omega
  | ⟨1, _⟩ => show win0_3.index t (1 : Fin 3) * 512 + 1 * (y 1).val = (y 1).val; omega
  | ⟨2, _⟩ => show win0_3.index t (2 : Fin 3) * 512 + 1 * (y 2).val = (y 2).val; omega
theorem blk0_4 (c : Dev nD) (t : Fin cfg0.N) : iblk0 V c 4 t = V c main_arg5 := by
  obtain ⟨-, -, -, -, -, -, -, -, e0, e1, -⟩ := idx_facts0 t
  funext y
  show V c main_arg5 (((cfg0.win 4).blk t).view.emb y) = V c main_arg5 y
  refine congrArg _ (funext fun a => Fin.ext ?_)
  match a with
  | ⟨0, _⟩ => show win0_4.index t (0 : Fin 2) * 3 + 1 * (y 0).val = (y 0).val; omega
  | ⟨1, _⟩ => show win0_4.index t (1 : Fin 2) * 512 + 1 * (y 1).val = (y 1).val; omega
theorem blk0_5 (c : Dev nD) (t : Fin cfg0.N) : iblk0 V c 5 t = V c main_arg6 := by
  obtain ⟨-, -, -, -, -, -, -, -, -, -, e0, e1, -⟩ := idx_facts0 t
  funext y
  show V c main_arg6 (((cfg0.win 5).blk t).view.emb y) = V c main_arg6 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega
theorem blk0_6 (c : Dev nD) (t : Fin cfg0.N) : iblk0 V c 6 t = V c main_arg7 := by
  obtain ⟨-, -, -, -, -, -, -, -, -, -, -, -, e0, -⟩ := idx_facts0 t
  funext y
  show V c main_arg7 (((cfg0.win 6).blk t).view.emb y) = V c main_arg7 y
  refine congrArg _ (funext fun a => Fin.ext ?_)
  match a with
  | ⟨0, _⟩ => show win0_6.index t (0 : Fin 1) * 512 + 1 * (y 0).val = (y 0).val; omega

/-- The input tile at point `t` is rows `1024·t + p` of the input array. -/
theorem blk0_0 (c : Dev nD) (t : Fin cfg0.N) (p : Fin 1024) (k : Fin 3) (hp : 1024 * t.val + p.val < 8192) :
    iblk0 V c 0 t (ix2 p k) = V c main_arg0 (ix2 ⟨1024 * t.val + p.val, hp⟩ k) := by
  obtain ⟨e0, e1, -⟩ := idx_facts0 t
  show V c main_arg0 (((cfg0.win 0).blk t).view.emb (ix2 p k)) = V c main_arg0 (ix2 ⟨1024 * t.val + p.val, hp⟩ k)
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 3 + 1 * k.val = k.val; omega

/-- The network of the whole arrays: what the result array ends holding. -/
abbrev net0 (c : Dev nD) : Mat 8192 512 :=
  siren (V c main_arg0) (V c main_arg2) (V c main_arg3) (V c main_arg4) (V c main_arg5) (V c main_arg6) (V c main_arg7)

/-- What point `t` writes back is block `t` of the network of the whole arrays. -/
theorem flushed0_eq (c : Dev nD) (t : Fin cfg0.N) :
    (dat0 V c).flushed 7 t = ((cfg0.win 7).blk t).view.read (Elt Ideal) (net0 V c) := by
  show (cfg0.win 7).cut (grid0.coords t) ((dat0 V c).after 7 t) = _
  rw [after0_7, tile0, blk0_1, blk0_2, blk0_3, blk0_4, blk0_5, blk0_6]
  obtain ⟨-, -, -, -, -, -, -, -, -, -, -, -, -, e0, e1⟩ := idx_facts0 t
  have ht : t.val < 8 := by have h1 := t.isLt; have h8 : cfg0.N = 8 := N_0; omega
  funext j
  obtain ⟨p, q, rfl⟩ : ∃ (p : Fin 1024) (q : Fin 512), j = ix2 p q := ⟨j 0, j 1, eq_ix2 j⟩
  have hp : 1024 * t.val + p.val < 8192 := by have := p.isLt; omega
  show siren (iblk0 V c 0 t) (V c main_arg2) (V c main_arg3) (V c main_arg4) (V c main_arg5) (V c main_arg6) (V c main_arg7) (ix2 p q)
    = net0 V c (((cfg0.win 7).blk t).view.emb (ix2 p q))
  have hemb : ((cfg0.win 7).blk t).view.emb (ix2 p q) = ix2 (⟨1024 * t.val + p.val, hp⟩ : Fin 8192) q := by
    funext a; apply Fin.ext
    match a with
    | ⟨0, _⟩ => show win0_7.index t (0 : Fin 2) * 1024 + 1 * p.val = 1024 * t.val + p.val; omega
    | ⟨1, _⟩ => show win0_7.index t (1 : Fin 2) * 512 + 1 * q.val = q.val; omega
  rw [hemb]
  exact siren_rows _ _ _ _ _ _ _ _ p ⟨1024 * t.val + p.val, hp⟩ q fun k => blk0_0 V c t p k hp

/-- An index of the result array is in point `t`'s block iff its row is in the tile's range. -/
theorem mem_blk0 (t : Fin cfg0.N) (i : S8192x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v0).slice (win0_7.rect t)).set ↔ _
  rw [View.set_slice_whole, Rect.mem_set_unit]
  exact Iff.rfl

/-- The eight tiles cover the result array: row `r` is in the tile of point `r / 1024`. -/
theorem cover0 (i : S8192x512.Idx) : ∃ t : Fin cfg0.N, (cfg0.win 7).flush t = true ∧ i ∈ ((cfg0.win 7).blk t).view.set := by
  have hi0 : (i 0).val < 8192 := (i 0).isLt
  have hi1 : (i 1).val < 512 := (i 1).isLt
  have hN : cfg0.N = 8 := N_0
  refine ⟨⟨(i 0).val / 1024, by rw [hN]; omega⟩, flush0_7 _, ?_⟩
  rw [mem_blk0]
  obtain ⟨-, -, -, -, -, -, -, -, -, -, -, -, -, e0, e1⟩ := idx_facts0 ⟨(i 0).val / 1024, by rw [hN]; omega⟩
  intro a
  match a with
  | ⟨0, _⟩ => show win0_7.index _ (0 : Fin 2) * 1024 ≤ (i 0).val ∧ (i 0).val < win0_7.index _ (0 : Fin 2) * 1024 + 1024; rw [e0]; show (i 0).val / 1024 * 1024 ≤ _ ∧ _ < (i 0).val / 1024 * 1024 + 1024; omega
  | ⟨1, _⟩ => show win0_7.index _ (1 : Fin 2) * 512 ≤ (i 1).val ∧ (i 1).val < win0_7.index _ (1 : Fin 2) * 512 + 512; rw [e1]; omega

/-- The result array after the region: the sine network of the argument arrays as the region found them. -/
theorem final0 (c : Dev nD) : (dat0 V c).arrAt 7 cfg0.N = net0 V c :=
  (dat0 V c).arrAt_eq_of_cover 7 (net0 V c) (fun t _ => flushed0_eq V c t) (cover0)

end

end Cert.KernelIdeal.Hand

end
-- ==== Proof.MlpValue1.lean ====
/-
  What region 1 leaves in its result array: the sine network of the argument arrays, row tile by row tile.

  The body's stored tile is the network applied to the tile's rows (`tile1`); a row of the network's result depends on the
  same row of its input only, so the tile written back at grid point `t` is rows `1024·t … 1024·t + 1023` of the network applied
  to the whole input; the eight tiles cover the array.
-/
import proofs.«178031_j19344532702252_1_alg».proof.Proof.MlpRegion1
import proofs.«178031_j19344532702252_1_alg».proof.Proof.MlpTile
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

theorem zeros1_1 : (![0] : Fin 1 → Nat) = fun _ => 0 := funext fun a => by fin_cases a <;> rfl
theorem zeros2_1 : (![0, 0] : Fin 2 → Nat) = fun _ => 0 := funext fun a => by fin_cases a <;> rfl
theorem zeros3_1 : (![0, 0, 0] : Fin 3 → Nat) = fun _ => 0 := funext fun a => by fin_cases a <;> rfl

/-- The tile the body stores is the sine network of the tile of rows it loaded. -/
theorem tile1 (x0 : Vec Ideal S1024x3 .f32) (x1 : Vec Ideal S3x512 .f32) (x2 : Vec Ideal S512 .f32)
    (x3 : Vec Ideal S3x512x512 .f32) (x4 : Vec Ideal S3x512 .f32) (x5 : Vec Ideal S512x512 .f32) (x6 : Vec Ideal S512 .f32) :
    out1_7 (F := Ideal) x0 x1 x2 x3 x4 x5 x6 = siren x0 x1 x2 x3 x4 x5 x6 := by
  unfold out1_7
  rw [View.canon_unit_zero zeros2_1]
  simp only [View.ld_unit_zero (S := S1024x3) zeros2_1, View.ld_unit_zero (S := S3x512) zeros2_1,
    View.ld_unit_zero (S := S512) zeros1_1, View.ld_unit_zero (S := S512x512) zeros2_1]
  unfold k1_pay1 k1_pay2
  dsimp only
  simp only [sinLayer_vec dot_S1024x3_S3x512_S1024x512_1_0_0_1_n_n rfl rfl rfl rfl rfl rfl,
    sinLayer_vec dot_S1024x512_S512x512_S1024x512_1_0_0_1_n_n rfl rfl rfl rfl rfl rfl,
    dense_vec dot_S1024x512_S512x512_S1024x512_1_0_0_1_n_n rfl rfl rfl rfl rfl rfl]
  rw [slab_ld x3 0 (by decide), slab_ld x3 1 (by decide), slab_ld x3 2 (by decide),
    brow_ld x4 0 (by decide), brow_ld x4 1 (by decide), brow_ld x4 2 (by decide),
    shapeCast_row x2, shapeCast_row x6]
  rfl

/-- The printed index maps, decided over the grid: the input tile and the output tile sit at block row `t`; every
    weight window is the whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

section
variable (V : (c : Dev nD) → (b : Ref sig .tc) → Buf (Elt Ideal) ((c : Thread nD τ).loc b))

/-- A weight window's block is the whole array, at every point. -/
theorem blk1_1 (c : Dev nD) (t : Fin cfg1.N) : iblk1 V c 1 t = V c main_arg8 := by
  obtain ⟨-, -, e0, e1, -⟩ := idx_facts1 t
  funext y
  show V c main_arg8 (((cfg1.win 1).blk t).view.emb y) = V c main_arg8 y
  refine congrArg _ (funext fun a => Fin.ext ?_)
  match a with
  | ⟨0, _⟩ => show win1_1.index t (0 : Fin 2) * 3 + 1 * (y 0).val = (y 0).val; omega
  | ⟨1, _⟩ => show win1_1.index t (1 : Fin 2) * 512 + 1 * (y 1).val = (y 1).val; omega
theorem blk1_2 (c : Dev nD) (t : Fin cfg1.N) : iblk1 V c 2 t = V c main_arg9 := by
  obtain ⟨-, -, -, -, e0, -⟩ := idx_facts1 t
  funext y
  show V c main_arg9 (((cfg1.win 2).blk t).view.emb y) = V c main_arg9 y
  refine congrArg _ (funext fun a => Fin.ext ?_)
  match a with
  | ⟨0, _⟩ => show win1_2.index t (0 : Fin 1) * 512 + 1 * (y 0).val = (y 0).val; omega
theorem blk1_3 (c : Dev nD) (t : Fin cfg1.N) : iblk1 V c 3 t = V c main_arg10 := by
  obtain ⟨-, -, -, -, -, e0, e1, e2, -⟩ := idx_facts1 t
  funext y
  show V c main_arg10 (((cfg1.win 3).blk t).view.emb y) = V c main_arg10 y
  refine congrArg _ (funext fun a => Fin.ext ?_)
  match a with
  | ⟨0, _⟩ => show win1_3.index t (0 : Fin 3) * 3 + 1 * (y 0).val = (y 0).val; omega
  | ⟨1, _⟩ => show win1_3.index t (1 : Fin 3) * 512 + 1 * (y 1).val = (y 1).val; omega
  | ⟨2, _⟩ => show win1_3.index t (2 : Fin 3) * 512 + 1 * (y 2).val = (y 2).val; omega
theorem blk1_4 (c : Dev nD) (t : Fin cfg1.N) : iblk1 V c 4 t = V c main_arg11 := by
  obtain ⟨-, -, -, -, -, -, -, -, e0, e1, -⟩ := idx_facts1 t
  funext y
  show V c main_arg11 (((cfg1.win 4).blk t).view.emb y) = V c main_arg11 y
  refine congrArg _ (funext fun a => Fin.ext ?_)
  match a with
  | ⟨0, _⟩ => show win1_4.index t (0 : Fin 2) * 3 + 1 * (y 0).val = (y 0).val; omega
  | ⟨1, _⟩ => show win1_4.index t (1 : Fin 2) * 512 + 1 * (y 1).val = (y 1).val; omega
theorem blk1_5 (c : Dev nD) (t : Fin cfg1.N) : iblk1 V c 5 t = V c main_arg12 := by
  obtain ⟨-, -, -, -, -, -, -, -, -, -, e0, e1, -⟩ := idx_facts1 t
  funext y
  show V c main_arg12 (((cfg1.win 5).blk t).view.emb y) = V c main_arg12 y
  refine congrArg _ (funext fun a => Fin.ext ?_)
  match a with
  | ⟨0, _⟩ => show win1_5.index t (0 : Fin 2) * 512 + 1 * (y 0).val = (y 0).val; omega
  | ⟨1, _⟩ => show win1_5.index t (1 : Fin 2) * 512 + 1 * (y 1).val = (y 1).val; omega
theorem blk1_6 (c : Dev nD) (t : Fin cfg1.N) : iblk1 V c 6 t = V c main_arg13 := by
  obtain ⟨-, -, -, -, -, -, -, -, -, -, -, -, e0, -⟩ := idx_facts1 t
  funext y
  show V c main_arg13 (((cfg1.win 6).blk t).view.emb y) = V c main_arg13 y
  refine congrArg _ (funext fun a => Fin.ext ?_)
  match a with
  | ⟨0, _⟩ => show win1_6.index t (0 : Fin 1) * 512 + 1 * (y 0).val = (y 0).val; omega

/-- The input tile at point `t` is rows `1024·t + p` of the input array. -/
theorem blk1_0 (c : Dev nD) (t : Fin cfg1.N) (p : Fin 1024) (k : Fin 3) (hp : 1024 * t.val + p.val < 8192) :
    iblk1 V c 0 t (ix2 p k) = V c main_arg1 (ix2 ⟨1024 * t.val + p.val, hp⟩ k) := by
  obtain ⟨e0, e1, -⟩ := idx_facts1 t
  show V c main_arg1 (((cfg1.win 0).blk t).view.emb (ix2 p k)) = V c main_arg1 (ix2 ⟨1024 * t.val + p.val, hp⟩ k)
  refine congrArg _ (funext fun a => Fin.ext ?_)
  match a with
  | ⟨0, _⟩ => show win1_0.index t (0 : Fin 2) * 1024 + 1 * p.val = 1024 * t.val + p.val; omega
  | ⟨1, _⟩ => show win1_0.index t (1 : Fin 2) * 3 + 1 * k.val = k.val; omega

/-- The network of the whole arrays: what the result array ends holding. -/
abbrev net1 (c : Dev nD) : Mat 8192 512 :=
  siren (V c main_arg1) (V c main_arg8) (V c main_arg9) (V c main_arg10) (V c main_arg11) (V c main_arg12) (V c main_arg13)

/-- What point `t` writes back is block `t` of the network of the whole arrays. -/
theorem flushed1_eq (c : Dev nD) (t : Fin cfg1.N) :
    (dat1 V c).flushed 7 t = ((cfg1.win 7).blk t).view.read (Elt Ideal) (net1 V c) := by
  show (cfg1.win 7).cut (grid1.coords t) ((dat1 V c).after 7 t) = _
  rw [after1_7, tile1, blk1_1, blk1_2, blk1_3, blk1_4, blk1_5, blk1_6]
  obtain ⟨-, -, -, -, -, -, -, -, -, -, -, -, -, e0, e1⟩ := idx_facts1 t
  have ht : t.val < 8 := by have h1 := t.isLt; have h8 : cfg1.N = 8 := N_1; omega
  funext j
  obtain ⟨p, q, rfl⟩ : ∃ (p : Fin 1024) (q : Fin 512), j = ix2 p q := ⟨j 0, j 1, eq_ix2 j⟩
  have hp : 1024 * t.val + p.val < 8192 := by have := p.isLt; omega
  show siren (iblk1 V c 0 t) (V c main_arg8) (V c main_arg9) (V c main_arg10) (V c main_arg11) (V c main_arg12) (V c main_arg13) (ix2 p q)
    = net1 V c (((cfg1.win 7).blk t).view.emb (ix2 p q))
  have hemb : ((cfg1.win 7).blk t).view.emb (ix2 p q) = ix2 (⟨1024 * t.val + p.val, hp⟩ : Fin 8192) q := by
    funext a; apply Fin.ext
    match a with
    | ⟨0, _⟩ => show win1_7.index t (0 : Fin 2) * 1024 + 1 * p.val = 1024 * t.val + p.val; omega
    | ⟨1, _⟩ => show win1_7.index t (1 : Fin 2) * 512 + 1 * q.val = q.val; omega
  rw [hemb]
  exact siren_rows _ _ _ _ _ _ _ _ p ⟨1024 * t.val + p.val, hp⟩ q fun k => blk1_0 V c t p k hp

/-- An index of the result array is in point `t`'s block iff its row is in the tile's range. -/
theorem mem_blk1 (t : Fin cfg1.N) (i : S8192x512.Idx) :
    i ∈ ((cfg1.win 7).blk t).view.set ↔ ∀ a : Fin 2, win1_7.index t a * S1024x512.size a ≤ (i a).val ∧ (i a).val < win1_7.index t a * S1024x512.size a + S1024x512.size a := by
  show i ∈ ((View.whole main_v1).slice (win1_7.rect t)).set ↔ _
  rw [View.set_slice_whole, Rect.mem_set_unit]
  exact Iff.rfl

/-- The eight tiles cover the result array: row `r` is in the tile of point `r / 1024`. -/
theorem cover1 (i : S8192x512.Idx) : ∃ t : Fin cfg1.N, (cfg1.win 7).flush t = true ∧ i ∈ ((cfg1.win 7).blk t).view.set := by
  have hi0 : (i 0).val < 8192 := (i 0).isLt
  have hi1 : (i 1).val < 512 := (i 1).isLt
  have hN : cfg1.N = 8 := N_1
  refine ⟨⟨(i 0).val / 1024, by rw [hN]; omega⟩, flush1_7 _, ?_⟩
  rw [mem_blk1]
  obtain ⟨-, -, -, -, -, -, -, -, -, -, -, -, -, e0, e1⟩ := idx_facts1 ⟨(i 0).val / 1024, by rw [hN]; omega⟩
  intro a
  match a with
  | ⟨0, _⟩ => show win1_7.index _ (0 : Fin 2) * 1024 ≤ (i 0).val ∧ (i 0).val < win1_7.index _ (0 : Fin 2) * 1024 + 1024; rw [e0]; show (i 0).val / 1024 * 1024 ≤ _ ∧ _ < (i 0).val / 1024 * 1024 + 1024; omega
  | ⟨1, _⟩ => show win1_7.index _ (1 : Fin 2) * 512 ≤ (i 1).val ∧ (i 1).val < win1_7.index _ (1 : Fin 2) * 512 + 512; rw [e1]; omega

/-- The result array after the region: the sine network of the argument arrays as the region found them. -/
theorem final1 (c : Dev nD) : (dat1 V c).arrAt 7 cfg1.N = net1 V c :=
  (dat1 V c).arrAt_eq_of_cover 7 (net1 V c) (fun t _ => flushed1_eq V c t) (cover1)

end

end Cert.KernelIdeal.Hand

end
-- ==== Proof.MlpValue2.lean ====
/-
  What region 2 leaves in its result array: the sine network of the argument arrays, row tile by row tile.

  The body's stored tile is the network applied to the tile's rows (`tile2`); a row of the network's result depends on the
  same row of its input only, so the tile written back at grid point `t` is rows `1024·t … 1024·t + 1023` of the network applied
  to the whole input; the eight tiles cover the array.
-/
import proofs.«178031_j19344532702252_1_alg».proof.Proof.MlpRegion2
import proofs.«178031_j19344532702252_1_alg».proof.Proof.MlpTile
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

theorem zeros1_2 : (![0] : Fin 1 → Nat) = fun _ => 0 := funext fun a => by fin_cases a <;> rfl
theorem zeros2_2 : (![0, 0] : Fin 2 → Nat) = fun _ => 0 := funext fun a => by fin_cases a <;> rfl
theorem zeros3_2 : (![0, 0, 0] : Fin 3 → Nat) = fun _ => 0 := funext fun a => by fin_cases a <;> rfl

/-- The tile the body stores is the sine network of the tile of rows it loaded. -/
theorem tile2 (x0 : Vec Ideal S1024x3 .f32) (x1 : Vec Ideal S3x512 .f32) (x2 : Vec Ideal S512 .f32)
    (x3 : Vec Ideal S3x512x512 .f32) (x4 : Vec Ideal S3x512 .f32) (x5 : Vec Ideal S512x3 .f32) (x6 : Vec Ideal S3 .f32) :
    out2_7 (F := Ideal) x0 x1 x2 x3 x4 x5 x6 = siren x0 x1 x2 x3 x4 x5 x6 := by
  unfold out2_7
  rw [View.canon_unit_zero zeros2_2]
  simp only [View.ld_unit_zero (S := S1024x3) zeros2_2, View.ld_unit_zero (S := S3x512) zeros2_2,
    View.ld_unit_zero (S := S512) zeros1_2, View.ld_unit_zero (S := S512x3) zeros2_2, View.ld_unit_zero (S := S3) zeros1_2]
  unfold k2_pay1 k2_pay2
  dsimp only
  simp only [sinLayer_vec dot_S1024x3_S3x512_S1024x512_1_0_0_1_n_n rfl rfl rfl rfl rfl rfl,
    sinLayer_vec dot_S1024x512_S512x512_S1024x512_1_0_0_1_n_n rfl rfl rfl rfl rfl rfl,
    dense_vec dot_S1024x512_S512x3_S1024x3_1_0_0_1_n_n rfl rfl rfl rfl rfl rfl]
  rw [slab_ld x3 0 (by decide), slab_ld x3 1 (by decide), slab_ld x3 2 (by decide),
    brow_ld x4 0 (by decide), brow_ld x4 1 (by decide), brow_ld x4 2 (by decide),
    shapeCast_row x2, shapeCast_row x6]
  rfl

/-- The printed index maps, decided over the grid: the input tile and the output tile sit at block row `t`; every
    weight window is the whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

section
variable (V : (c : Dev nD) → (b : Ref sig .tc) → Buf (Elt Ideal) ((c : Thread nD τ).loc b))

/-- A weight window's block is the whole array, at every point. -/
theorem blk2_1 (c : Dev nD) (t : Fin cfg2.N) : iblk2 V c 1 t = V c main_arg14 := by
  obtain ⟨-, -, e0, e1, -⟩ := idx_facts2 t
  funext y
  show V c main_arg14 (((cfg2.win 1).blk t).view.emb y) = V c main_arg14 y
  refine congrArg _ (funext fun a => Fin.ext ?_)
  match a with
  | ⟨0, _⟩ => show win2_1.index t (0 : Fin 2) * 3 + 1 * (y 0).val = (y 0).val; omega
  | ⟨1, _⟩ => show win2_1.index t (1 : Fin 2) * 512 + 1 * (y 1).val = (y 1).val; omega
theorem blk2_2 (c : Dev nD) (t : Fin cfg2.N) : iblk2 V c 2 t = V c main_arg15 := by
  obtain ⟨-, -, -, -, e0, -⟩ := idx_facts2 t
  funext y
  show V c main_arg15 (((cfg2.win 2).blk t).view.emb y) = V c main_arg15 y
  refine congrArg _ (funext fun a => Fin.ext ?_)
  match a with
  | ⟨0, _⟩ => show win2_2.index t (0 : Fin 1) * 512 + 1 * (y 0).val = (y 0).val; omega
theorem blk2_3 (c : Dev nD) (t : Fin cfg2.N) : iblk2 V c 3 t = V c main_arg16 := by
  obtain ⟨-, -, -, -, -, e0, e1, e2, -⟩ := idx_facts2 t
  funext y
  show V c main_arg16 (((cfg2.win 3).blk t).view.emb y) = V c main_arg16 y
  refine congrArg _ (funext fun a => Fin.ext ?_)
  match a with
  | ⟨0, _⟩ => show win2_3.index t (0 : Fin 3) * 3 + 1 * (y 0).val = (y 0).val; omega
  | ⟨1, _⟩ => show win2_3.index t (1 : Fin 3) * 512 + 1 * (y 1).val = (y 1).val; omega
  | ⟨2, _⟩ => show win2_3.index t (2 : Fin 3) * 512 + 1 * (y 2).val = (y 2).val; omega
theorem blk2_4 (c : Dev nD) (t : Fin cfg2.N) : iblk2 V c 4 t = V c main_arg17 := by
  obtain ⟨-, -, -, -, -, -, -, -, e0, e1, -⟩ := idx_facts2 t
  funext y
  show V c main_arg17 (((cfg2.win 4).blk t).view.emb y) = V c main_arg17 y
  refine congrArg _ (funext fun a => Fin.ext ?_)
  match a with
  | ⟨0, _⟩ => show win2_4.index t (0 : Fin 2) * 3 + 1 * (y 0).val = (y 0).val; omega
  | ⟨1, _⟩ => show win2_4.index t (1 : Fin 2) * 512 + 1 * (y 1).val = (y 1).val; omega
theorem blk2_5 (c : Dev nD) (t : Fin cfg2.N) : iblk2 V c 5 t = V c main_arg18 := by
  obtain ⟨-, -, -, -, -, -, -, -, -, -, e0, e1, -⟩ := idx_facts2 t
  funext y
  show V c main_arg18 (((cfg2.win 5).blk t).view.emb y) = V c main_arg18 y
  refine congrArg _ (funext fun a => Fin.ext ?_)
  match a with
  | ⟨0, _⟩ => show win2_5.index t (0 : Fin 2) * 512 + 1 * (y 0).val = (y 0).val; omega
  | ⟨1, _⟩ => show win2_5.index t (1 : Fin 2) * 3 + 1 * (y 1).val = (y 1).val; omega
theorem blk2_6 (c : Dev nD) (t : Fin cfg2.N) : iblk2 V c 6 t = V c main_arg19 := by
  obtain ⟨-, -, -, -, -, -, -, -, -, -, -, -, e0, -⟩ := idx_facts2 t
  funext y
  show V c main_arg19 (((cfg2.win 6).blk t).view.emb y) = V c main_arg19 y
  refine congrArg _ (funext fun a => Fin.ext ?_)
  match a with
  | ⟨0, _⟩ => show win2_6.index t (0 : Fin 1) * 3 + 1 * (y 0).val = (y 0).val; omega

/-- The input tile at point `t` is rows `1024·t + p` of the input array. -/
theorem blk2_0 (c : Dev nD) (t : Fin cfg2.N) (p : Fin 1024) (k : Fin 3) (hp : 1024 * t.val + p.val < 8192) :
    iblk2 V c 0 t (ix2 p k) = V c main_arg1 (ix2 ⟨1024 * t.val + p.val, hp⟩ k) := by
  obtain ⟨e0, e1, -⟩ := idx_facts2 t
  show V c main_arg1 (((cfg2.win 0).blk t).view.emb (ix2 p k)) = V c main_arg1 (ix2 ⟨1024 * t.val + p.val, hp⟩ k)
  refine congrArg _ (funext fun a => Fin.ext ?_)
  match a with
  | ⟨0, _⟩ => show win2_0.index t (0 : Fin 2) * 1024 + 1 * p.val = 1024 * t.val + p.val; omega
  | ⟨1, _⟩ => show win2_0.index t (1 : Fin 2) * 3 + 1 * k.val = k.val; omega

/-- The network of the whole arrays: what the result array ends holding. -/
abbrev net2 (c : Dev nD) : Mat 8192 3 :=
  siren (V c main_arg1) (V c main_arg14) (V c main_arg15) (V c main_arg16) (V c main_arg17) (V c main_arg18) (V c main_arg19)

/-- What point `t` writes back is block `t` of the network of the whole arrays. -/
theorem flushed2_eq (c : Dev nD) (t : Fin cfg2.N) :
    (dat2 V c).flushed 7 t = ((cfg2.win 7).blk t).view.read (Elt Ideal) (net2 V c) := by
  show (cfg2.win 7).cut (grid2.coords t) ((dat2 V c).after 7 t) = _
  rw [after2_7, tile2, blk2_1, blk2_2, blk2_3, blk2_4, blk2_5, blk2_6]
  obtain ⟨-, -, -, -, -, -, -, -, -, -, -, -, -, e0, e1⟩ := idx_facts2 t
  have ht : t.val < 8 := by have h1 := t.isLt; have h8 : cfg2.N = 8 := N_2; omega
  funext j
  obtain ⟨p, q, rfl⟩ : ∃ (p : Fin 1024) (q : Fin 3), j = ix2 p q := ⟨j 0, j 1, eq_ix2 j⟩
  have hp : 1024 * t.val + p.val < 8192 := by have := p.isLt; omega
  show siren (iblk2 V c 0 t) (V c main_arg14) (V c main_arg15) (V c main_arg16) (V c main_arg17) (V c main_arg18) (V c main_arg19) (ix2 p q)
    = net2 V c (((cfg2.win 7).blk t).view.emb (ix2 p q))
  have hemb : ((cfg2.win 7).blk t).view.emb (ix2 p q) = ix2 (⟨1024 * t.val + p.val, hp⟩ : Fin 8192) q := by
    funext a; apply Fin.ext
    match a with
    | ⟨0, _⟩ => show win2_7.index t (0 : Fin 2) * 1024 + 1 * p.val = 1024 * t.val + p.val; omega
    | ⟨1, _⟩ => show win2_7.index t (1 : Fin 2) * 3 + 1 * q.val = q.val; omega
  rw [hemb]
  exact siren_rows _ _ _ _ _ _ _ _ p ⟨1024 * t.val + p.val, hp⟩ q fun k => blk2_0 V c t p k hp

/-- An index of the result array is in point `t`'s block iff its row is in the tile's range. -/
theorem mem_blk2 (t : Fin cfg2.N) (i : S8192x3.Idx) :
    i ∈ ((cfg2.win 7).blk t).view.set ↔ ∀ a : Fin 2, win2_7.index t a * S1024x3.size a ≤ (i a).val ∧ (i a).val < win2_7.index t a * S1024x3.size a + S1024x3.size a := by
  show i ∈ ((View.whole main_v2).slice (win2_7.rect t)).set ↔ _
  rw [View.set_slice_whole, Rect.mem_set_unit]
  exact Iff.rfl

/-- The eight tiles cover the result array: row `r` is in the tile of point `r / 1024`. -/
theorem cover2 (i : S8192x3.Idx) : ∃ t : Fin cfg2.N, (cfg2.win 7).flush t = true ∧ i ∈ ((cfg2.win 7).blk t).view.set := by
  have hi0 : (i 0).val < 8192 := (i 0).isLt
  have hi1 : (i 1).val < 3 := (i 1).isLt
  have hN : cfg2.N = 8 := N_2
  refine ⟨⟨(i 0).val / 1024, by rw [hN]; omega⟩, flush2_7 _, ?_⟩
  rw [mem_blk2]
  obtain ⟨-, -, -, -, -, -, -, -, -, -, -, -, -, e0, e1⟩ := idx_facts2 ⟨(i 0).val / 1024, by rw [hN]; omega⟩
  intro a
  match a with
  | ⟨0, _⟩ => show win2_7.index _ (0 : Fin 2) * 1024 ≤ (i 0).val ∧ (i 0).val < win2_7.index _ (0 : Fin 2) * 1024 + 1024; rw [e0]; show (i 0).val / 1024 * 1024 ≤ _ ∧ _ < (i 0).val / 1024 * 1024 + 1024; omega
  | ⟨1, _⟩ => show win2_7.index _ (1 : Fin 2) * 3 ≤ (i 1).val ∧ (i 1).val < win2_7.index _ (1 : Fin 2) * 3 + 3; rw [e1]; omega

/-- The result array after the region: the sine network of the argument arrays as the region found them. -/
theorem final2 (c : Dev nD) : (dat2 V c).arrAt 7 cfg2.N = net2 V c :=
  (dat2 V c).arrAt_eq_of_cover 7 (net2 V c) (fun t _ => flushed2_eq V c t) (cover2)

end

end Cert.KernelIdeal.Hand

end
-- ==== Proof.LibMatmulRowsRows.lean ====
/-
  A `tpu.matmul` of two rank-2 operands into the zero accumulator whose contraction runs along the SECOND axis of both
  operands — `[M, K] × [N, K] → [M, N]`, rows times rows, the product of the left operand with the right operand's
  transpose that no transpose materialises — read at ONE ENTRY of its result at the ideal values: entry `(p, q)` is
  `Σ_k a[p, k] · b[q, k]`, a plain sum over `Fin K`. Stated for any dimension-number record with those six lists, any
  extents and operand formats; the third layout beside the two of LibMatmulEntry.
-/
import proofs.«178031_j19344532702252_1_alg».proof.Proof.LibMatmulEntry

noncomputable section

open scoped BigOperators

namespace Idealize.ShloMosaic.Ideal

open Idealize.ShloMosaic.ValueIdx

/-- Rows times rows: `[M, K] × [N, K] → [M, N]` into the zero accumulator, at entry `(p, q)`. -/
theorem matmul_rows_rows {M K N : Nat} {φ₁ φ₂ : FTy} (D : DotDims ⟨2, ![M, K]⟩ ⟨2, ![N, K]⟩ ⟨2, ![M, N]⟩)
    (hlb : D.lhsBatch = []) (hln : D.lhsNonContracting = [0]) (hlc : D.lhsContracting = [1])
    (hrb : D.rhsBatch = []) (hrn : D.rhsNonContracting = [0]) (hrc : D.rhsContracting = [1])
    (prec : Option ContractPrecision) (a : FVec Ideal ⟨2, ![M, K]⟩ φ₁) (b : FVec Ideal ⟨2, ![N, K]⟩ φ₂)
    (p : Fin M) (q : Fin N) :
    FloatOps.matmul D prec a b (constant ⟨2, ![M, N]⟩ .f32 0x00000000#32) (ix2 p q)
      = ∑ k : Fin K, a (ix2 p k) * b (ix2 q k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 q k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibTileSums.lean ====
/-
  Two rearrangements of a finite sum in any commutative additive monoid (so also over the extended reals, where
  no finiteness is needed for them):

  * a sum over `2n` terms folded in halves: adding term `k` to term `n + k` first and summing the `n` pairs
    gives the whole sum;
  * a sum over `T * n` terms taken tile by tile: summing each run of `n` consecutive terms and then the `T` runs
    gives the whole sum.
-/
import Mathlib.Algebra.BigOperators.Fin
import Mathlib.Data.Fintype.BigOperators
import Mathlib.Logic.Equiv.Fin.Basic

namespace TileSums

open Finset

variable {M : Type*} [AddCommMonoid M]

/-- Folding the two halves of a sum of `n + n` terms pairwise: `∑ₖ (f k + f (n + k)) = ∑ f`. -/
theorem sum_fold_halves (n : ℕ) (f : Fin (n + n) → M) :
    ∑ k : Fin n, (f (Fin.castAdd n k) + f (Fin.natAdd n k)) = ∑ d : Fin (n + n), f d := by
  rw [Finset.sum_add_distrib, Fin.sum_univ_add]

/-- The same with the two terms named by their positions `k` and `n + k`. -/
theorem sum_fold_halves_val (n : ℕ) (f : Fin (n + n) → M) :
    ∑ k : Fin n, (f ⟨k.val, by omega⟩ + f ⟨n + k.val, by omega⟩) = ∑ d : Fin (n + n), f d :=
  sum_fold_halves n f

/-- A sum of `T * n` terms taken in `T` consecutive tiles of `n`: `∑ⱼ ∑ᵢ f (n j + i) = ∑ f`. -/
theorem sum_tiles (T n : ℕ) (f : Fin (T * n) → M) :
    ∑ j : Fin T, ∑ i : Fin n, f (finProdFinEquiv (j, i)) = ∑ x : Fin (T * n), f x := by
  rw [← Fintype.sum_prod_type (f := fun p : Fin T × Fin n => f (finProdFinEquiv p))]
  exact Equiv.sum_comp finProdFinEquiv f

/-- Tile `j`'s term `i` is term `n j + i` of the whole. -/
theorem tile_val (T n : ℕ) (j : Fin T) (i : Fin n) :
    ((finProdFinEquiv (j, i) : Fin (T * n)) : ℕ) = n * j.val + i.val := by
  simp only [finProdFinEquiv_apply_val]; omega

/-- Summing over `range (k + 1)` of a function of naturals, as a sum over `Fin (k + 1)`. -/
theorem sum_range_eq_sum_fin (k : ℕ) (g : ℕ → M) : ∑ j ∈ Finset.range k, g j = ∑ j : Fin k, g j.val :=
  (Fin.sum_univ_eq_sum_range g k).symm

end TileSums
-- ==== Proof.AttnTile.lean ====
/-
  The attention tile of the kernel, on extended reals, and the regrouping of the keys into tiles.

  * One tile step (`attn_pay`): from a tile of queries, a tile of keys, the matching tile of values and an accumulator,
    the kernel forms the scores `q · kᵀ` (contracting the second axis of both operands), takes the logistic of each,
    multiplies by the values and adds the accumulator — `acc + sigAttn q k v`. The accumulator starts at zero
    (`attn_zero`).
  * The keys and values in eight tiles of 1024 rows (`keyTile`): logistic attention has no normalisation across keys,
    so the attention over all 8192 keys is the sum of the attentions over the tiles (`sigAttn_tiles`) — a finite sum
    regrouped, valid in any commutative monoid.
  * Accumulating the eight tile terms one after the other from zero gives their sum (`fold_tiles`).
-/
import proofs.«178031_j19344532702252_1_alg».proof.Proof.Spec
import proofs.«178031_j19344532702252_1_alg».proof.Proof.LibMatmulRowsRows
import proofs.«178031_j19344532702252_1_alg».proof.Proof.LibTileSums
import proofs.«178031_j19344532702252_1_alg».proof.Proof.Gen.KernelIdeal.Skeleton
import Idealize.ShloMosaic.Lib.Pipeline.Value

noncomputable section

open scoped BigOperators

namespace Cert.Spec

open Idealize.ShloMosaic Idealize.ShloMosaic.ValueIdx

/-! ## One tile step -/

/-- The accumulator's first contents: zero everywhere. -/
theorem attn_zero : Cert.KernelIdeal.Gen.k3_pay1 (F := Ideal) = fun _ => (0 : EReal) := by
  funext i
  unfold Cert.KernelIdeal.Gen.k3_pay1
  simp only [shapeCast_self]
  exact Ideal.ofBits_zero_f32

/-- One tile step: the accumulator plus the logistic attention of the query tile over the key and value tiles. -/
theorem attn_pay (q k : Vec Ideal Cert.KernelIdeal.S1024x512 .f32) (v acc : Vec Ideal Cert.KernelIdeal.S1024x3 .f32) :
    Cert.KernelIdeal.Gen.k3_pay2 (F := Ideal) q k v acc = fun i => acc i + sigAttn q k v i := by
  funext i
  obtain ⟨p, y, rfl⟩ : ∃ (p : Fin 1024) (y : Fin 3), i = ix2 p y := ⟨i 0, i 1, eq_ix2 i⟩
  unfold Cert.KernelIdeal.Gen.k3_pay2
  simp only [shapeCast_self]
  rw [addf_apply, sigAttn_ix2]
  refine congrArg (acc (ix2 p y) + ·) ?_
  refine (Ideal.matmul_rows_cols Cert.KernelIdeal.dot_S1024x1024_S1024x3_S1024x3_1_0_0_1_n_n rfl rfl rfl rfl rfl rfl none _ _ p y).trans ?_
  refine Finset.sum_congr rfl fun j _ => ?_
  refine congrArg (· * v (ix2 j y)) ?_
  refine congrArg Ideal.logistic ?_
  exact Ideal.matmul_rows_rows Cert.KernelIdeal.dot_S1024x512_S1024x512_S1024x1024_1_1_0_0_n_n rfl rfl rfl rfl rfl rfl none _ _ p j

/-! ## The keys in tiles -/

/-- Rows `1024 s … 1024 s + 1023` of a matrix of 8192 rows. -/
def keyTile {D : Nat} (K : Mat 8192 D) (s : Fin 8) : Mat 1024 D :=
  fun i => K (ix2 ⟨1024 * s.val + (i 0).val, by
    have h0 : (i 0).val < 1024 := (i 0).isLt
    have hs := s.isLt
    omega⟩ (i 1))

/-- Logistic attention over all keys is the sum of the attentions over the eight tiles of keys. -/
theorem sigAttn_tiles {Nq D Y : Nat} (Q : Mat Nq D) (K : Mat 8192 D) (V : Mat 8192 Y) (i : (⟨2, ![Nq, Y]⟩ : Shape).Idx) :
    sigAttn Q K V i = ∑ s : Fin 8, sigAttn Q (keyTile K s) (keyTile V s) i := by
  obtain ⟨p, y, rfl⟩ : ∃ (p : Fin Nq) (y : Fin Y), i = ix2 p y := ⟨i 0, i 1, eq_ix2 i⟩
  have e : ∀ (s : Fin 8) (j : Fin 1024),
      (finProdFinEquiv (s, j) : Fin (8 * 1024)) = (⟨1024 * s.val + j.val, by have := s.isLt; have := j.isLt; omega⟩ : Fin 8192) :=
    fun s j => Fin.ext (TileSums.tile_val 8 1024 s j)
  rw [sigAttn_ix2]
  refine (TileSums.sum_tiles 8 1024
    (fun j : Fin (8 * 1024) => Ideal.logistic (∑ k : Fin D, Q (ix2 p k) * K (ix2 j k)) * V (ix2 j y))).symm.trans ?_
  refine Finset.sum_congr rfl fun s _ => ?_
  rw [sigAttn_ix2]
  refine Finset.sum_congr rfl fun j _ => ?_
  rw [e s j]
  rfl

/-! ## Accumulating the tiles -/

/-- Eight tile terms accumulated one after the other from zero: their sum. -/
theorem fold_tiles {N : Nat} {ι : Type} (a : (n : Nat) → n < N → ι → EReal)
    (g : (n : Nat) → n < N → (ι → EReal) → ι → EReal) (M : Nat → ι → EReal) (b : Nat)
    (ha : ∀ (h : b < N) (i : ι), a b h i = 0 + M b i)
    (hg : ∀ (n : Nat) (h : n < N) (acc : ι → EReal) (i : ι), b < n → n ≤ b + 7 → g n h acc i = acc i + M n i)
    (h : b + 7 < N) (i : ι) :
    Pipeline.accAt a g b 7 h i = ∑ s : Fin 8, M (b + s.val) i := by
  rw [Pipeline.accAt_add_apply a g (fun _ => 0) M b 7 ha hg 7 (le_refl 7) h i, zero_add]
  exact TileSums.sum_range_eq_sum_fin 8 fun s => M (b + s) i

end Cert.Spec

end
-- ==== Proof.AttnBlocks.lean ====
/-
  Where the attention region's blocks sit in its arrays.

  The region's grid is 8 × 8: point `t = 8·m + n` pairs the `m`-th tile of 1024 query rows with the `n`-th tile of
  1024 key rows. So at point `t` the query block is rows `1024·(t / 8) …` of the query array, the key and value
  blocks are rows `1024·(t % 8) …` of theirs, and the result block is rows `1024·(t / 8) …` of the result array,
  written back at the last key tile only (`t % 8 = 7`). The eight result blocks written back cover the result array.
-/
import proofs.«178031_j19344532702252_1_alg».proof.Proof.AttnRegion
import proofs.«178031_j19344532702252_1_alg».proof.Proof.AttnTile
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-- The printed index maps, decided over the 64 grid points: the query and result windows sit at block row `t / 8`,
    the key and value windows at block row `t % 8`; every window spans all columns of its array. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val % 8 ∧ win3_2.index t (1 : Fin 2) = 0
    ∧ win3_3.index t (0 : Fin 2) = t.val / 8 ∧ win3_3.index t (1 : Fin 2) = 0 :=
  (by decide +kernel : ∀ t : Fin grid3.N, _)

section
variable (V : (c : Dev nD) → (b : Ref sig .tc) → Buf (Elt Ideal) ((c : Thread nD τ).loc b))

/-- The query block at point `t` is rows `1024·(t / 8) + p` of the query array. -/
theorem blk3_0 (c : Dev nD) (t : Fin cfg3.N) (p : Fin 1024) (k : Fin 512) (hp : 1024 * (t.val / 8) + p.val < 8192) :
    iblk3 V c 0 t (ix2 p k) = V c main_v0 (ix2 ⟨1024 * (t.val / 8) + p.val, hp⟩ k) := by
  obtain ⟨e0, e1, -⟩ := idx_facts3 t
  show V c main_v0 (((cfg3.win 0).blk t).view.emb (ix2 p k)) = V c main_v0 (ix2 ⟨1024 * (t.val / 8) + p.val, hp⟩ k)
  refine congrArg _ (funext fun a => Fin.ext ?_)
  match a with
  | ⟨0, _⟩ => show win3_0.index t (0 : Fin 2) * 1024 + 1 * p.val = 1024 * (t.val / 8) + p.val; omega
  | ⟨1, _⟩ => show win3_0.index t (1 : Fin 2) * 512 + 1 * k.val = k.val; omega

/-- The key block at point `t` is the `t % 8`-th tile of 1024 rows of the key array. -/
theorem blk3_1 (c : Dev nD) (t : Fin cfg3.N) (hs : t.val % 8 < 8) :
    iblk3 V c 1 t = Cert.Spec.keyTile (V c main_v1) ⟨t.val % 8, hs⟩ := by
  obtain ⟨-, -, e0, e1, -⟩ := idx_facts3 t
  funext y
  show V c main_v1 (((cfg3.win 1).blk t).view.emb y) = V c main_v1 (ix2 ⟨1024 * (t.val % 8) + (y 0).val, _⟩ (y 1))
  refine congrArg _ (funext fun a => Fin.ext ?_)
  match a with
  | ⟨0, _⟩ => show win3_1.index t (0 : Fin 2) * 1024 + 1 * (y 0).val = 1024 * (t.val % 8) + (y 0).val; omega
  | ⟨1, _⟩ => show win3_1.index t (1 : Fin 2) * 512 + 1 * (y 1).val = (y 1).val; omega

/-- The value block at point `t` is the `t % 8`-th tile of 1024 rows of the value array. -/
theorem blk3_2 (c : Dev nD) (t : Fin cfg3.N) (hs : t.val % 8 < 8) :
    iblk3 V c 2 t = Cert.Spec.keyTile (V c main_v2) ⟨t.val % 8, hs⟩ := by
  obtain ⟨-, -, -, -, e0, e1, -⟩ := idx_facts3 t
  funext y
  show V c main_v2 (((cfg3.win 2).blk t).view.emb y) = V c main_v2 (ix2 ⟨1024 * (t.val % 8) + (y 0).val, _⟩ (y 1))
  refine congrArg _ (funext fun a => Fin.ext ?_)
  match a with
  | ⟨0, _⟩ => show win3_2.index t (0 : Fin 2) * 1024 + 1 * (y 0).val = 1024 * (t.val % 8) + (y 0).val; omega
  | ⟨1, _⟩ => show win3_2.index t (1 : Fin 2) * 3 + 1 * (y 1).val = (y 1).val; omega

end

/-- Row `p` of the result block at point `t` is row `1024·(t / 8) + p` of the result array. -/
theorem emb3 (t : Fin cfg3.N) (p : Fin 1024) (q : Fin 3) (hp : 1024 * (t.val / 8) + p.val < 8192) :
    ((cfg3.win 3).blk t).view.emb (ix2 p q) = ix2 (⟨1024 * (t.val / 8) + p.val, hp⟩ : Fin 8192) q := by
  obtain ⟨-, -, -, -, -, -, e0, e1⟩ := idx_facts3 t
  funext a; apply Fin.ext
  match a with
  | ⟨0, _⟩ => show win3_3.index t (0 : Fin 2) * 1024 + 1 * p.val = 1024 * (t.val / 8) + p.val; omega
  | ⟨1, _⟩ => show win3_3.index t (1 : Fin 2) * 3 + 1 * q.val = q.val; omega

/-- An index of the result array is in point `t`'s block iff each coordinate is in the block's range. -/
theorem mem_blk3 (t : Fin cfg3.N) (i : S8192x3.Idx) :
    i ∈ ((cfg3.win 3).blk t).view.set ↔ ∀ a : Fin 2, win3_3.index t a * S1024x3.size a ≤ (i a).val ∧ (i a).val < win3_3.index t a * S1024x3.size a + S1024x3.size a := by
  show i ∈ ((View.whole main_v3).slice (win3_3.rect t)).set ↔ _
  rw [View.set_slice_whole, Rect.mem_set_unit]
  exact Iff.rfl

/-- The blocks written back cover the result array: row `r` is in the block of the point `8·(r / 1024) + 7`, the last
    key tile of the query tile holding `r`. -/
theorem cover3 (i : S8192x3.Idx) : ∃ t : Fin cfg3.N, (cfg3.win 3).flush t = true ∧ i ∈ ((cfg3.win 3).blk t).view.set := by
  have hi0 : (i 0).val < 8192 := (i 0).isLt
  have hi1 : (i 1).val < 3 := (i 1).isLt
  have hN : cfg3.N = 64 := N_3
  have ht : 8 * ((i 0).val / 1024) + 7 < cfg3.N := by rw [hN]; omega
  refine ⟨⟨8 * ((i 0).val / 1024) + 7, ht⟩, (flush3_3 _).2 (by show (8 * ((i 0).val / 1024) + 7) % 8 = 7; omega), ?_⟩
  rw [mem_blk3]
  obtain ⟨-, -, -, -, -, -, e0, e1⟩ := idx_facts3 ⟨8 * ((i 0).val / 1024) + 7, ht⟩
  intro a
  match a with
  | ⟨0, _⟩ =>
    show win3_3.index _ (0 : Fin 2) * 1024 ≤ (i 0).val ∧ (i 0).val < win3_3.index _ (0 : Fin 2) * 1024 + 1024
    rw [e0]
    show (8 * ((i 0).val / 1024) + 7) / 8 * 1024 ≤ _ ∧ _ < (8 * ((i 0).val / 1024) + 7) / 8 * 1024 + 1024
    omega
  | ⟨1, _⟩ =>
    show win3_3.index _ (1 : Fin 2) * 3 ≤ (i 1).val ∧ (i 1).val < win3_3.index _ (1 : Fin 2) * 3 + 3
    rw [e1]; omega

end Cert.KernelIdeal.Hand

end
-- ==== Proof.AttnValue.lean ====
/-
  What the attention region leaves in its result array: the logistic attention of the three arrays it was entered with.

  Over the eight grid points of one query tile the accumulator starts at zero and gains, at each point, the attention
  of the query tile over that point's tile of keys and values; at the last of them it holds the sum of the eight, and
  that is what is written back. Logistic attention weighs every key by itself, so the sum over the eight key tiles is
  the attention over all the keys; and a row of the attention depends on the same row of the queries only, so the
  query tile's row `p` gives row `1024·m + p` of the attention of the whole query array. The eight tiles written back
  cover the result array.
-/
import proofs.«178031_j19344532702252_1_alg».proof.Proof.AttnRegion
import proofs.«178031_j19344532702252_1_alg».proof.Proof.AttnBlocks
import proofs.«178031_j19344532702252_1_alg».proof.Proof.AttnTile
import Idealize.ShloMosaic.Lib.Pipeline.Value

set_option maxRecDepth 16384

noncomputable section

open scoped BigOperators

namespace Cert.Spec

open Idealize.ShloMosaic Idealize.ShloMosaic.ValueIdx

/-- Row `p` of the logistic attention is computed from row `p` of the queries. -/
theorem sigAttn_rows {Nq Nq' Nc D Y : Nat} (Q : Mat Nq D) (Q' : Mat Nq' D) (K : Mat Nc D) (Vv : Mat Nc Y) (p : Fin Nq)
    (p' : Fin Nq') (y : Fin Y) (h : ∀ k, Q (ix2 p k) = Q' (ix2 p' k)) :
    sigAttn Q K Vv (ix2 p y) = sigAttn Q' K Vv (ix2 p' y) := by
  rw [sigAttn_ix2, sigAttn_ix2]
  refine Finset.sum_congr rfl fun j _ => ?_
  have e : (∑ k : Fin D, Q (ix2 p k) * K (ix2 j k)) = ∑ k : Fin D, Q' (ix2 p' k) * K (ix2 j k) :=
    Finset.sum_congr rfl fun k _ => by rw [h k]
  rw [e]

end Cert.Spec

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

section
variable (V : (c : Dev nD) → (b : Ref sig .tc) → Buf (Elt Ideal) ((c : Thread nD τ).loc b))

/-- The attention of the whole arrays: what the result array ends holding. -/
abbrev attnOut (c : Dev nD) : Mat 8192 3 := sigAttn (V c main_v0) (V c main_v1) (V c main_v2)

/-- The term point `n` adds to the accumulator: the attention of its query block over its key and value blocks
    (zero past the grid, where it is never used). -/
def tileTerm (c : Dev nD) (n : Nat) : S1024x3.Idx → EReal := fun i =>
  if h : n < cfg3.N then sigAttn (iblk3 V c 0 ⟨n, h⟩) (iblk3 V c 1 ⟨n, h⟩) (iblk3 V c 2 ⟨n, h⟩) i else 0

theorem tileTerm_of_lt (c : Dev nD) (n : Nat) (h : n < cfg3.N) (i : S1024x3.Idx) :
    tileTerm V c n i = sigAttn (iblk3 V c 0 ⟨n, h⟩) (iblk3 V c 1 ⟨n, h⟩) (iblk3 V c 2 ⟨n, h⟩) i := dif_pos h

/-- After the eighth point of query tile `m` the accumulator holds the sum of the eight points' terms. -/
theorem scratch_run (c : Dev nD) (m : Nat) (h : 8 * m + 7 < cfg3.N) (i : S1024x3.Idx) :
    (outsAt3 V c (8 * m + 7) h).2 i = ∑ s : Fin 8, tileTerm V c (8 * m + s.val) i := by
  have e := Pipeline.eq_accAt (N := cfg3.N) (α := S1024x3.Idx → EReal)
    (fun n hn => (outsAt3 V c n hn).2) 8
    (fun n hn => k3_pay2 (F := Ideal) (iblk3 V c 0 ⟨n, hn⟩) (iblk3 V c 1 ⟨n, hn⟩) (iblk3 V c 2 ⟨n, hn⟩) (k3_pay1 (F := Ideal)))
    (fun n hn acc => k3_pay2 (F := Ideal) (iblk3 V c 0 ⟨n, hn⟩) (iblk3 V c 1 ⟨n, hn⟩) (iblk3 V c 2 ⟨n, hn⟩) acc)
    (fun n hn hm => outsAt3_scratch_first V c ⟨n, hn⟩ hm)
    (fun n hn hm => outsAt3_scratch_next V c ⟨n + 1, hn⟩ hm)
    m 7 (by decide) h
  refine (congrFun e i).trans ?_
  refine fold_tiles _ _ (tileTerm V c) (8 * m) (fun hb j => ?_) (fun n hn acc j _ _ => ?_) h i
  · rw [tileTerm_of_lt V c (8 * m) hb j]
    show k3_pay2 (F := Ideal) (iblk3 V c 0 ⟨8 * m, hb⟩) (iblk3 V c 1 ⟨8 * m, hb⟩) (iblk3 V c 2 ⟨8 * m, hb⟩) (k3_pay1 (F := Ideal)) j = _
    rw [attn_pay, attn_zero]
  · rw [tileTerm_of_lt V c n hn j]
    show k3_pay2 (F := Ideal) (iblk3 V c 0 ⟨n, hn⟩) (iblk3 V c 1 ⟨n, hn⟩) (iblk3 V c 2 ⟨n, hn⟩) acc j = _
    rw [attn_pay]

/-- The accumulator depends on the point's position only. -/
theorem outsAt3_congr (c : Dev nD) (u u' : Nat) (hu : u < cfg3.N) (hu' : u' < cfg3.N) (e : u = u') :
    outsAt3 V c u hu = outsAt3 V c u' hu' := by
  subst e; rfl

/-- One point's term, over the whole arrays: at a point of query tile `u / 8` and key tile `s = u % 8`, row `p` of the
    term is row `1024·(u / 8) + p` of the attention of the whole query array over the `s`-th tile of keys and values. -/
theorem tile_at (c : Dev nD) (u : Fin cfg3.N) (s : Fin 8) (hs : u.val % 8 = s.val) (p : Fin 1024) (y : Fin 3)
    (r : Fin 8192) (hr : r.val = 1024 * (u.val / 8) + p.val) :
    sigAttn (iblk3 V c 0 u) (iblk3 V c 1 u) (iblk3 V c 2 u) (ix2 p y)
      = sigAttn (V c main_v0) (keyTile (V c main_v1) s) (keyTile (V c main_v2) s) (ix2 r y) := by
  have hlt : u.val % 8 < 8 := Nat.mod_lt _ (by decide)
  have es : (⟨u.val % 8, hlt⟩ : Fin 8) = s := Fin.ext hs
  have hp : 1024 * (u.val / 8) + p.val < 8192 := hr ▸ r.isLt
  have er : (⟨1024 * (u.val / 8) + p.val, hp⟩ : Fin 8192) = r := Fin.ext hr.symm
  rw [blk3_1 V c u hlt, blk3_2 V c u hlt, es]
  refine sigAttn_rows _ _ _ _ p r y fun k => ?_
  rw [blk3_0 V c u p k hp, er]

/-- What a point that writes back writes: its block of the attention of the whole arrays. -/
theorem flushed3_eq (c : Dev nD) (t : Fin cfg3.N) (hf : (cfg3.win 3).flush t = true) :
    (dat3 V c).flushed 3 t = ((cfg3.win 3).blk t).view.read (Elt Ideal) (attnOut V c) := by
  have h7 : t.val % 8 = 7 := (flush3_3 t).mp hf
  have hN : cfg3.N = 64 := N_3
  have ht : t.val < 64 := hN ▸ t.isLt
  have hrun : 8 * (t.val / 8) + 7 < cfg3.N := by omega
  show (cfg3.win 3).cut (grid3.coords t) ((dat3 V c).after 3 t) = _
  rw [after3_3, outsAt3_out_last V c t h7, outsAt3_congr V c t.val (8 * (t.val / 8) + 7) t.isLt hrun (by omega)]
  funext j
  obtain ⟨p, y, rfl⟩ : ∃ (p : Fin 1024) (y : Fin 3), j = ix2 p y := ⟨j 0, j 1, eq_ix2 j⟩
  have hp : 1024 * (t.val / 8) + p.val < 8192 := by have := p.isLt; omega
  show (outsAt3 V c (8 * (t.val / 8) + 7) hrun).2 (ix2 p y) = attnOut V c (((cfg3.win 3).blk t).view.emb (ix2 p y))
  rw [emb3 t p y hp, scratch_run V c (t.val / 8) hrun (ix2 p y)]
  show _ = sigAttn (V c main_v0) (V c main_v1) (V c main_v2) (ix2 (⟨1024 * (t.val / 8) + p.val, hp⟩ : Fin 8192) y)
  rw [sigAttn_tiles]
  refine Finset.sum_congr rfl fun s _ => ?_
  have hu : 8 * (t.val / 8) + s.val < cfg3.N := by have := s.isLt; omega
  rw [tileTerm_of_lt V c _ hu]
  exact tile_at V c ⟨8 * (t.val / 8) + s.val, hu⟩ s
    (by show (8 * (t.val / 8) + s.val) % 8 = s.val; have := s.isLt; omega) p y ⟨1024 * (t.val / 8) + p.val, hp⟩
    (by show 1024 * (t.val / 8) + p.val = 1024 * ((8 * (t.val / 8) + s.val) / 8) + p.val; have := s.isLt; omega)

/-- The result array after the region: the logistic attention of the three arrays as the region found them. -/
theorem final3 (c : Dev nD) : (dat3 V c).arrAt 3 cfg3.N = attnOut V c :=
  (dat3 V c).arrAt_eq_of_cover 3 (attnOut V c) (fun t hf => flushed3_eq V c t hf) cover3

end

end Cert.KernelIdeal.Hand

end
-- ==== Proof.KValue.lean ====
/-
  The idealized kernel's result, as one function of its twenty argument arrays.

  The attention region is entered with the three networks' results in its input arrays: each network's region left the sine
  network of the arrays it was entered with, and those are launch contents — no earlier region writes an argument. So the
  result array ends at the logistic attention of the three networks of the launch arrays: `Cert.Spec.G`.
-/
import proofs.«178031_j19344532702252_1_alg».proof.Proof.KRun
import proofs.«178031_j19344532702252_1_alg».proof.Proof.MlpValue0
import proofs.«178031_j19344532702252_1_alg».proof.Proof.MlpValue1
import proofs.«178031_j19344532702252_1_alg».proof.Proof.MlpValue2
import proofs.«178031_j19344532702252_1_alg».proof.Proof.AttnValue

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

variable (m : (ℓ : Loc nD τ sig) → Buf (Elt Ideal) ℓ) (ρ : Dev nD → PrngReg)

/-- The queries the attention region is entered with: the first network of the launch arrays. -/
theorem queries_eq (c : Dev nD) : E3 (F := Ideal) m ρ c main_v0
    = siren (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W3_main_v0 m ρ c).trans (final0 (E0 m ρ) c)

/-- The keys: the second network, of `c` and its own weights, all launch contents. -/
theorem keys_eq (c : Dev nD) : E3 (F := Ideal) m ρ c main_v1
    = siren (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W3_main_v1 m ρ c).trans ((final1 (E1 m ρ) c).trans ?_)
  show siren (W1 m ρ c (Proc.devRef .tc main_arg1)) (W1 m ρ c (Proc.devRef .tc main_arg8)) (W1 m ρ c (Proc.devRef .tc main_arg9))
      (W1 m ρ c (Proc.devRef .tc main_arg10)) (W1 m ρ c (Proc.devRef .tc main_arg11)) (W1 m ρ c (Proc.devRef .tc main_arg12))
      (W1 m ρ c (Proc.devRef .tc main_arg13)) = _
  rw [W1_main_arg1, W1_main_arg8, W1_main_arg9, W1_main_arg10, W1_main_arg11, W1_main_arg12, W1_main_arg13]

/-- The values: the third network, of `c` and its own weights. -/
theorem values_eq (c : Dev nD) : E3 (F := Ideal) m ρ c main_v2
    = siren (m ((c.tc : Thread nD τ).loc main_arg1)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  refine (W3_main_v2 m ρ c).trans ((final2 (E2 m ρ) c).trans ?_)
  show siren (W2 m ρ c (Proc.devRef .tc main_arg1)) (W2 m ρ c (Proc.devRef .tc main_arg14)) (W2 m ρ c (Proc.devRef .tc main_arg15))
      (W2 m ρ c (Proc.devRef .tc main_arg16)) (W2 m ρ c (Proc.devRef .tc main_arg17)) (W2 m ρ c (Proc.devRef .tc main_arg18))
      (W2 m ρ c (Proc.devRef .tc main_arg19)) = _
  rw [W2_main_arg1, W2_main_arg14, W2_main_arg15, W2_main_arg16, W2_main_arg17, W2_main_arg18, W2_main_arg19]

/-- The result array after the run. -/
theorem result_eq (c : Dev nD) : (dat3 (E3 (F := Ideal) m ρ) c).arrAt 3 cfg3.N
    = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [final3 (E3 m ρ) c]
  show sigAttn (E3 m ρ c main_v0) (E3 m ρ c main_v1) (E3 m ρ c main_v2) = _
  rw [queries_eq, keys_eq, values_eq]
  rfl

/-- Every weakly fair execution of the idealized kernel ends, nothing faulting, with the result array at `G` of the launch
    arrays and every argument array as launched. -/
theorem kernel_run : θ_run (defs (F := Ideal)) (onTc (τ := τ) (main (F := Ideal))) ⟨m, fun _ => 0, ρ⟩ (fun r => ∀ c : Dev nD,
      r.2.mem ((c.tc : Thread nD τ).loc main_v3) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (result_eq m ρ c), (h c).2⟩) (run_value m ρ)

end Cert.KernelIdeal.Hand

end
-- ==== Proof.RefSideLemmas.lean ====
/-
  The host reference's layout and entrywise operations, each read as one operation of the specification on
  extended-real matrices.

  * the host's sine of a matrix is `sinM`, and a dense layer followed by it is `sinLayer`;
  * matrix `l` of a stack of square matrices, taken as the slice `[l, 0, 0]` of extent `[1, H, H]` and reshaped to
    `[H, H]`, is `slab`; row `l` of a bias matrix, taken as the slice `[l, 0]` of extent `[1, H]`, reshaped to a
    vector of length `H` and laid out as a one-row matrix, is `brow`;
  * the transpose of a matrix along `[1, 0]` is `tr`;
  * `1 / (1 + e^(−a))`, as the host spells it with the constant `1` broadcast to the matrix's shape, is the logistic
    entry by entry.
-/
import proofs.«178031_j19344532702252_1_alg».proof.Proof.Spec

noncomputable section

namespace Cert.RefSide

open Idealize.ShloMosaic Idealize.ShloMosaic.ValueIdx Cert.Spec

/-- The host's sine of a matrix, entry by entry. -/
theorem host_sin {M N : Nat} (z : FVec Ideal ⟨2, ![M, N]⟩ .f32) : Host.sin z = sinM z := rfl

/-- A dense layer on the host followed by the sine. -/
theorem host_sinLayer {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (x : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    Host.sin (addf (Host.dotGeneral D none x W)
        (broadcastInDim ⟨2, ![M, N]⟩ ![0, 1] h2 (broadcastInDim ⟨2, ![1, N]⟩ ![1] h1 b)))
      = sinLayer x W (row b) := by
  rw [host_dense D hlb hln hlc hrb hrn hrc x W b h1 h2]
  rfl

/-- Matrix `l` of a stack: the slice at `[l, 0, 0]` of extent `[1, H, H]`, reshaped to `[H, H]`. -/
theorem slice_slab {L H : Nat} (Wh : Stack L H H) (l : Fin L) (o : Nat) (hl : l.val = o)
    (hs : (⟨3, ![L, H, H]⟩ : Shape).Slices ![o, 0, 0] ⟨3, ![1, H, H]⟩)
    (hc : (⟨3, ![1, H, H]⟩ : Shape).ShapeCasts ⟨2, ![H, H]⟩) :
    shapeCast ⟨2, ![H, H]⟩ (extractStridedSlice ⟨3, ![1, H, H]⟩ ![o, 0, 0] Wh hs) hc = slab Wh l := by
  funext i
  obtain ⟨p, q, rfl⟩ : ∃ (p : Fin H) (q : Fin H), i = ix2 p q := ⟨i 0, i 1, eq_ix2 i⟩
  refine (shapeCast_apply _ hc (ix2 p q) (ix3 (0 : Fin 1) p q) ?_).trans ?_
  · rw [Shape.rowMajor_val_three, Shape.rowMajor_val_two]
    show (0 * H + p.val) * H + q.val = p.val * H + q.val
    rw [Nat.zero_mul, Nat.zero_add]
  · refine extractStridedSlice_apply _ Wh hs (ix3 (0 : Fin 1) p q) (ix3 l p q) fun a => ?_
    match a with
    | ⟨0, _⟩ => show l.val = o + 0; omega
    | ⟨1, _⟩ => show p.val = 0 + p.val; omega
    | ⟨2, _⟩ => show q.val = 0 + q.val; omega

/-- Row `l` of a bias matrix: the slice at `[l, 0]` of extent `[1, H]`, reshaped to a vector, as a one-row matrix. -/
theorem slice_brow {L H : Nat} (bh : Mat L H) (l : Fin L) (o : Nat) (hl : l.val = o)
    (hs : (⟨2, ![L, H]⟩ : Shape).Slices ![o, 0] ⟨2, ![1, H]⟩)
    (hc : (⟨2, ![1, H]⟩ : Shape).ShapeCasts ⟨1, ![H]⟩) :
    row (shapeCast ⟨1, ![H]⟩ (extractStridedSlice ⟨2, ![1, H]⟩ ![o, 0] bh hs) hc) = brow bh l := by
  funext j
  show shapeCast ⟨1, ![H]⟩ (extractStridedSlice ⟨2, ![1, H]⟩ ![o, 0] bh hs) hc (ix1 (j 1)) = bh (ix2 l (j 1))
  refine (shapeCast_apply _ hc (ix1 (j 1)) (ix2 (0 : Fin 1) (j 1)) ?_).trans ?_
  · rw [Shape.rowMajor_val_two, Shape.rowMajor_val_one]
    show 0 * H + (j 1).val = (j 1).val
    rw [Nat.zero_mul, Nat.zero_add]
  · refine extractStridedSlice_apply _ bh hs (ix2 (0 : Fin 1) (j 1)) (ix2 l (j 1)) fun a => ?_
    match a with
    | ⟨0, _⟩ => show l.val = o + 0; omega
    | ⟨1, _⟩ => show (j 1).val = 0 + (j 1).val; omega

/-- The host's transpose of a matrix along `[1, 0]`. -/
theorem transpose_tr {M N : Nat} (a : Mat M N) (h : (⟨2, ![M, N]⟩ : Shape).Transposes [1, 0] ⟨2, ![N, M]⟩) :
    transpose ⟨2, ![N, M]⟩ [1, 0] a h = tr a := by
  funext i
  obtain ⟨p, q, rfl⟩ : ∃ (p : Fin N) (q : Fin M), i = ix2 p q := ⟨i 0, i 1, eq_ix2 i⟩
  refine transpose_apply [1, 0] a h (ix2 p q) (ix2 q p) fun b => ?_
  match b with
  | ⟨0, _⟩ => rfl
  | ⟨1, _⟩ => rfl

/-- `1 / (1 + e^(−a))` with the constant `1` broadcast to the matrix's shape is the logistic of every entry. -/
theorem host_logistic {s : Shape} (a : FVec Ideal s .f32) (h1 : (⟨0, ![]⟩ : Shape).BroadcastsInDim s ![]) :
    Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf a)))
      = fun i => Ideal.logistic (a i) := by
  funext i
  have e1 : broadcastInDim s ![] h1 (constant (F := Ideal) ⟨0, ![]⟩ .f32 0x3F800000#32) i = (1 : EReal) := by
    rw [broadcastInDim_scalar_apply]
    exact ofBits_one
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(a i)))
    = Ideal.logistic (a i)
  rw [e1]
  rfl

end Cert.RefSide

end
-- ==== Proof.RefSide.lean ====
/-
  The host reference computes the specification.

  Its result, as the composed term of the twenty argument arrays, is `G` (`ref_eq_G`): each of the three networks is
  four sine layers — a dense layer and the sine, the three hidden ones over matrix `l` of the weight stack and row `l`
  of the bias matrix, cut out by a slice and a reshape — and a linear read-out, that is, `siren`; the keys are
  transposed and multiplied with the queries; `1 / (1 + e^(−a))` of every score is its logistic; the product with the
  values is the attention. Every step is an identity on the extended reals, so nothing is asked of the inputs.

  Hence every weakly fair run of the reference ends with its result at `G` of the initial arguments and the
  arguments unchanged (`ref_run`), and, forgetting the result, the reference's frame (`frame_ri`).
-/
import proofs.«178031_j19344532702252_1_alg».proof.Proof.Gen.ReferenceIdeal.Read
import proofs.«178031_j19344532702252_1_alg».proof.Proof.Gen.Pre_finite_inputs
import proofs.«178031_j19344532702252_1_alg».proof.Proof.RefSideLemmas
import proofs.«178031_j19344532702252_1_alg».proof.Proof.Spec
import proofs.«178031_j19344532702252_1_alg».proof.Defs

noncomputable section

namespace Cert.RefSide

open Idealize.ShloMosaic Idealize.ShloMosaic.TcCoe Idealize.SL.Sem Idealize.ShloMosaic.StableHlo
open Cert.ReferenceIdeal Cert.ReferenceIdeal.Gen Cert.ReferenceIdeal.Read Cert.Spec

/-! ## One network -/

/-- The four sine layers of a network on the host: the input layer, then the three hidden layers over the slabs of the
    weight stack and the rows of the bias matrix. -/
theorem host_trunk (x : FVec Ideal S8192x3 .f32) (W₀ : FVec Ideal S3x512 .f32) (b₀ : FVec Ideal S512 .f32)
    (Wh : FVec Ideal S3x512x512 .f32) (bh : FVec Ideal S3x512 .f32) :
    Host.sin (addf (Host.dotGeneral dot_S8192x512_S512x512_S8192x512_1_0_0_1_n_n none (Host.sin (addf (Host.dotGeneral dot_S8192x512_S512x512_S8192x512_1_0_0_1_n_n none (Host.sin (addf (Host.dotGeneral dot_S8192x512_S512x512_S8192x512_1_0_0_1_n_n none (Host.sin (addf (Host.dotGeneral dot_S8192x3_S3x512_S8192x512_1_0_0_1_n_n none x W₀) (broadcastInDim S8192x512 ![0, 1] bcast_S1x512_S8192x512_0_1 (broadcastInDim S1x512 ![1] bcast_S512_S1x512_1 b₀)))) (shapeCast _ (extractStridedSlice S1x512x512 ![0, 0, 0] Wh slices_S3x512x512_S1x512x512_0_0_0) shapeCasts_S1x512x512_S512x512)) (broadcastInDim S8192x512 ![0, 1] bcast_S1x512_S8192x512_0_1 (broadcastInDim S1x512 ![1] bcast_S512_S1x512_1 (shapeCast _ (extractStridedSlice S1x512 ![0, 0] bh slices_S3x512_S1x512_0_0) shapeCasts_S1x512_S512))))) (shapeCast _ (extractStridedSlice S1x512x512 ![1, 0, 0] Wh slices_S3x512x512_S1x512x512_1_0_0) shapeCasts_S1x512x512_S512x512)) (broadcastInDim S8192x512 ![0, 1] bcast_S1x512_S8192x512_0_1 (broadcastInDim S1x512 ![1] bcast_S512_S1x512_1 (shapeCast _ (extractStridedSlice S1x512 ![1, 0] bh slices_S3x512_S1x512_1_0) shapeCasts_S1x512_S512))))) (shapeCast _ (extractStridedSlice S1x512x512 ![2, 0, 0] Wh slices_S3x512x512_S1x512x512_2_0_0) shapeCasts_S1x512x512_S512x512)) (broadcastInDim S8192x512 ![0, 1] bcast_S1x512_S8192x512_0_1 (broadcastInDim S1x512 ![1] bcast_S512_S1x512_1 (shapeCast _ (extractStridedSlice S1x512 ![2, 0] bh slices_S3x512_S1x512_2_0) shapeCasts_S1x512_S512))))
      = sinLayer (sinLayer (sinLayer (sinLayer x W₀ (row b₀)) (slab Wh 0) (brow bh 0)) (slab Wh 1) (brow bh 1))
          (slab Wh 2) (brow bh 2) := by
  rw [host_sinLayer dot_S8192x512_S512x512_S8192x512_1_0_0_1_n_n rfl rfl rfl rfl rfl rfl, host_sinLayer dot_S8192x512_S512x512_S8192x512_1_0_0_1_n_n rfl rfl rfl rfl rfl rfl,
    host_sinLayer dot_S8192x512_S512x512_S8192x512_1_0_0_1_n_n rfl rfl rfl rfl rfl rfl, host_sinLayer dot_S8192x3_S3x512_S8192x512_1_0_0_1_n_n rfl rfl rfl rfl rfl rfl,
    slice_slab Wh 0 0 rfl, slice_slab Wh 1 1 rfl, slice_slab Wh 2 2 rfl,
    slice_brow bh 0 0 rfl, slice_brow bh 1 1 rfl, slice_brow bh 2 2 rfl]

/-- The query network. -/
theorem queries_eq (x0 : (⟨S8192x3, .f32⟩ : BufTy).Contents (Elt Ideal)) (x2 : (⟨S3x512, .f32⟩ : BufTy).Contents (Elt Ideal)) (x3 : (⟨S512, .f32⟩ : BufTy).Contents (Elt Ideal)) (x4 : (⟨S3x512x512, .f32⟩ : BufTy).Contents (Elt Ideal)) (x5 : (⟨S3x512, .f32⟩ : BufTy).Contents (Elt Ideal)) (x6 : (⟨S512x512, .f32⟩ : BufTy).Contents (Elt Ideal)) (x7 : (⟨S512, .f32⟩ : BufTy).Contents (Elt Ideal)) :
    val_main_v35 (F := Ideal) x0 x2 x3 x4 x5 x6 x7 = siren x0 x2 x3 x4 x5 x6 x7 := by
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
  rw [host_dense dot_S8192x512_S512x512_S8192x512_1_0_0_1_n_n rfl rfl rfl rfl rfl rfl, host_trunk]
  rfl

/-- The key network. -/
theorem keys_eq (x1 : (⟨S8192x3, .f32⟩ : BufTy).Contents (Elt Ideal)) (x8 : (⟨S3x512, .f32⟩ : BufTy).Contents (Elt Ideal)) (x9 : (⟨S512, .f32⟩ : BufTy).Contents (Elt Ideal)) (x10 : (⟨S3x512x512, .f32⟩ : BufTy).Contents (Elt Ideal)) (x11 : (⟨S3x512, .f32⟩ : BufTy).Contents (Elt Ideal)) (x12 : (⟨S512x512, .f32⟩ : BufTy).Contents (Elt Ideal)) (x13 : (⟨S512, .f32⟩ : BufTy).Contents (Elt Ideal)) :
    val_main_v71 (F := Ideal) x1 x8 x9 x10 x11 x12 x13 = siren x1 x8 x9 x10 x11 x12 x13 := by
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36
  rw [host_dense dot_S8192x512_S512x512_S8192x512_1_0_0_1_n_n rfl rfl rfl rfl rfl rfl, host_trunk]
  rfl

/-- The value network: the same trunk, read out to three columns. -/
theorem values_eq (x1 : (⟨S8192x3, .f32⟩ : BufTy).Contents (Elt Ideal)) (x14 : (⟨S3x512, .f32⟩ : BufTy).Contents (Elt Ideal)) (x15 : (⟨S512, .f32⟩ : BufTy).Contents (Elt Ideal)) (x16 : (⟨S3x512x512, .f32⟩ : BufTy).Contents (Elt Ideal)) (x17 : (⟨S3x512, .f32⟩ : BufTy).Contents (Elt Ideal)) (x18 : (⟨S512x3, .f32⟩ : BufTy).Contents (Elt Ideal)) (x19 : (⟨S3, .f32⟩ : BufTy).Contents (Elt Ideal)) :
    val_main_v107 (F := Ideal) x1 x14 x15 x16 x17 x18 x19 = siren x1 x14 x15 x16 x17 x18 x19 := by
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72
  rw [host_dense dot_S8192x512_S512x3_S8192x3_1_0_0_1_n_n rfl rfl rfl rfl rfl rfl, host_trunk]
  rfl

/-! ## The whole reference -/

/-- The reference's result, as a function of the twenty arguments, is the specification. -/
theorem ref_eq_G (x0 x1 : (⟨S8192x3, .f32⟩ : BufTy).Contents (Elt Ideal)) (x2 : (⟨S3x512, .f32⟩ : BufTy).Contents (Elt Ideal)) (x3 : (⟨S512, .f32⟩ : BufTy).Contents (Elt Ideal)) (x4 : (⟨S3x512x512, .f32⟩ : BufTy).Contents (Elt Ideal)) (x5 : (⟨S3x512, .f32⟩ : BufTy).Contents (Elt Ideal)) (x6 : (⟨S512x512, .f32⟩ : BufTy).Contents (Elt Ideal)) (x7 : (⟨S512, .f32⟩ : BufTy).Contents (Elt Ideal)) (x8 : (⟨S3x512, .f32⟩ : BufTy).Contents (Elt Ideal)) (x9 : (⟨S512, .f32⟩ : BufTy).Contents (Elt Ideal)) (x10 : (⟨S3x512x512, .f32⟩ : BufTy).Contents (Elt Ideal)) (x11 : (⟨S3x512, .f32⟩ : BufTy).Contents (Elt Ideal)) (x12 : (⟨S512x512, .f32⟩ : BufTy).Contents (Elt Ideal)) (x13 : (⟨S512, .f32⟩ : BufTy).Contents (Elt Ideal)) (x14 : (⟨S3x512, .f32⟩ : BufTy).Contents (Elt Ideal)) (x15 : (⟨S512, .f32⟩ : BufTy).Contents (Elt Ideal)) (x16 : (⟨S3x512x512, .f32⟩ : BufTy).Contents (Elt Ideal)) (x17 : (⟨S3x512, .f32⟩ : BufTy).Contents (Elt Ideal)) (x18 : (⟨S512x3, .f32⟩ : BufTy).Contents (Elt Ideal)) (x19 : (⟨S3, .f32⟩ : BufTy).Contents (Elt Ideal)) :
    Cert.ReferenceIdeal.Read.val_main_v116 (F := Ideal) x0 x1 x2 x3 x4 x5 x6 x7 x8 x9 x10 x11 x12 x13 x14 x15 x16 x17 x18 x19
      = Cert.Spec.G x0 x1 x2 x3 x4 x5 x6 x7 x8 x9 x10 x11 x12 x13 x14 x15 x16 x17 x18 x19 := by
  unfold val_main_v116 val_main_v115 val_main_v114 val_main_v113 val_main_v112 val_main_v111 val_main_v110 val_main_v109
    val_main_v108 val_main_cst val_main_cst_0
  rw [queries_eq, keys_eq, values_eq, transpose_tr, host_dot_eq_mm dot_S8192x512_S512x8192_S8192x8192_1_0_0_1_n_n rfl rfl rfl rfl rfl rfl,
    host_logistic, host_dot_eq_mm dot_S8192x8192_S8192x3_S8192x3_1_0_0_1_n_n rfl rfl rfl rfl rfl rfl]
  rfl

/-- Every weakly fair run of the reference ends with its result at `G` of the initial arguments, the arguments
    unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v116)
        = Cert.Spec.G
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15))
          (m' ((c.tc : Thread Cert.ReferenceIdeal.nD Cert.ReferenceIdeal.τ).loc Cert.ReferenceIdeal.main_arg16))
          (m' ((c.tc : Thread Cert.ReferenceIdeal.nD Cert.ReferenceIdeal.τ).loc Cert.ReferenceIdeal.main_arg17))
          (m' ((c.tc : Thread Cert.ReferenceIdeal.nD Cert.ReferenceIdeal.τ).loc Cert.ReferenceIdeal.main_arg18))
          (m' ((c.tc : Thread Cert.ReferenceIdeal.nD Cert.ReferenceIdeal.τ).loc Cert.ReferenceIdeal.main_arg19))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)) :=
  (θ_run Cert.ReferenceIdeal.defs _ _).mono
    (fun _ h c => ⟨(h c).1.trans ((val_main_v116_eq m' c).trans (ref_eq_G _ _ _ _ _ _ _ _ _ _ _ _ _ _ _ _ _ _ _ _)), (h c).2⟩)
    (Cert.ReferenceIdeal.Value.run (F := Ideal) m' g')

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/-
  The certificate: the word-level kernel and its idealization run to the end with their arguments unchanged, the reference does
  too, the idealization rewrote nothing, and at exact extended-real arithmetic the idealized kernel and the reference compute
  one function of the twenty argument arrays.

  The program is three sine networks — queries from `x`, keys and values from `c`, each an input layer, three hidden layers and a
  linear read-out — followed by logistic attention, `out[i, y] = Σ_j logistic (Σ_k Q[i, k] · K[j, k]) · V[j, y]`
  (`Cert.Spec.G`). The kernel computes each network tile of 1024 rows by tile (a row of a network's result depends on the same
  row of its input only) and the attention by accumulating, for each tile of queries, the eight key tiles' contributions into
  a scratch accumulator that starts at zero; the reference computes the same sums whole. Over the extended reals the two
  agree by regrouping a finite sum, an identity of commutative monoids: no finiteness of the inputs is used. A change of float
  format is the identity there, the matrix unit's product into a zero accumulator and the host's general product are the same
  plain sum, and the kernel's logistic is the host's `1 / (1 + exp (−x))`.
-/
import proofs.«178031_j19344532702252_1_alg».proof.Defs
import proofs.«178031_j19344532702252_1_alg».proof.Proof.Gen.Kernel
import proofs.«178031_j19344532702252_1_alg».proof.Proof.Gen.KernelIdeal
import proofs.«178031_j19344532702252_1_alg».proof.Proof.Gen.ReferenceIdeal
import proofs.«178031_j19344532702252_1_alg».proof.Proof.Gen.Pre_finite_inputs
import proofs.«178031_j19344532702252_1_alg».proof.Proof.KRunW
import proofs.«178031_j19344532702252_1_alg».proof.Proof.KValue
import proofs.«178031_j19344532702252_1_alg».proof.Proof.RefSide

noncomputable section

namespace Cert.Proof

open Idealize.ShloMosaic Idealize.SL.Sem

/-- The word-level kernel's frame: its four regions run in order and no region writes an argument. -/
theorem frame_k : Cert.frame_Kernel := fun m ρ _ => Cert.Kernel.Hand.frame (F := Bits) m ρ

/-- The same for the idealized kernel. -/
theorem frame_ki : Cert.frame_KernelIdeal := fun m ρ _ => Cert.KernelIdeal.Hand.frame (F := Ideal) m ρ

/-- The idealized kernel and the reference, from memories that agree on the arguments, both end at `Cert.Spec.G` of those
    arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    Cert.KernelIdeal.Hand.kernel_run m ρ, ?_⟩
  refine (θ_run (Cert.ReferenceIdeal.defs (F := Ideal)) _ _).mono (fun _ h c => ⟨(h c).1.trans ?_, (h c).2⟩) (Cert.RefSide.ref_run m' ρ')
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
